-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v272)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v272) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v219) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S8x128x128 : Shape := ⟨3, ![8, 128, 128]⟩
abbrev S2x250000 : Shape := ⟨2, ![2, 250000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S8x128x128 : S_.BroadcastsInDim S8x128x128 (![] : Fin 0 → Fin S8x128x128.rank)
  reducesTo_S8x128x128_S_d0_1_2 : S8x128x128.ReducesTo [0, 1, 2] S_

variable [Facts]

def fn {F : FTy → Type} [FloatOps F] (main_arg0 : FVec F S100000x128 .f32) (main_arg1 : FVec F S8x128x128 .f32) (main_arg2 : IVec S2x250000 32) (main_arg3 : IVec S2x250000 32) (main_arg4 : IVec S2x250000 32) (main_arg5 : IVec S2x250000 32) (main_arg6 : IVec S2x250000 32) (main_arg7 : IVec S2x250000 32) (main_arg8 : IVec S2x250000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S8x128x128 .f32 := Host.absf main_arg1
  let main_cst_0 : FVec F S_ .f32 := constant S_ .f32 0x7F800000#32
  let main_v5 : FVec F S8x128x128 .f32 := broadcastInDim S8x128x128 ![] bcast_S_S8x128x128 main_cst_0
  let main_v6 : IVec S8x128x128 1 := cmpf .olt main_v4 main_v5
  let main_c_1 : IVec S_ 1 := constantI S_ 1 1#1
  let main_v7 : IVec S_ 1 := (fun x v => Host.reduce IntOp.andi x v reducesTo_S8x128x128_S_d0_1_2 h_S_) main_v6 main_c_1
  let main_v8 : IVec S_ 1 := andi main_v3 main_v7
  main_v8
-- ==== Kernel.lean ====
abbrev S100000x128 : Shape := ⟨2, ![100000, 128]⟩
abbrev S8x128x128 : Shape := ⟨3, ![8, 128, 128]⟩
abbrev S2x250000 : Shape := ⟨2, ![2, 250000]⟩
abbrev S128x8x128 : Shape := ⟨3, ![128, 8, 128]⟩
abbrev S128x1024 : Shape := ⟨2, ![128, 1024]⟩
abbrev S100000x1024 : Shape := ⟨2, ![100000, 1024]⟩
abbrev S4000x128 : Shape := ⟨2, ![4000, 128]⟩
abbrev S4000x1024 : Shape := ⟨2, ![4000, 1024]⟩
abbrev S_ : Shape := ⟨0, ![]⟩
abbrev S100000 : Shape := ⟨1, ![100000]⟩
abbrev S1x250000 : Shape := ⟨2, ![1, 250000]⟩
abbrev S250000 : Shape := ⟨1, ![250000]⟩
abbrev S250000x1 : Shape := ⟨2, ![250000, 1]⟩
abbrev S250000x1024 : Shape := ⟨2, ![250000, 1024]⟩
abbrev S250000x128 : Shape := ⟨2, ![250000, 128]⟩
abbrev S100000x1 : Shape := ⟨2, ![100000, 1]⟩

abbrev nBuf : Space → Nat
  | .hbm => 336
  | .vmem => 5
  | .smem => 0
  | _ => 0

abbrev hbmTy0_0 (i : Nat) : BufTy := match i % 128 with
  | 0 => ⟨S100000x128, .f32⟩
  | 1 => ⟨S8x128x128, .f32⟩
  | 2 => ⟨S2x250000, .i32⟩
  | 3 => ⟨S2x250000, .i32⟩
  | 4 => ⟨S2x250000, .i32⟩
  | 5 => ⟨S2x250000, .i32⟩
  | 6 => ⟨S2x250000, .i32⟩
  | 7 => ⟨S2x250000, .i32⟩
  | 8 => ⟨S2x250000, .i32⟩
  | 9 => ⟨S128x8x128, .f32⟩
  | 10 => ⟨S128x1024, .f32⟩
  | 11 => ⟨S100000x1024, .bf16⟩
  | 12 => ⟨S_, .f32⟩
  | 13 => ⟨S100000x128, .f32⟩
  | 14 => ⟨S_, .f32⟩
  | 15 => ⟨S100000x128, .f32⟩
  | 16 => ⟨S_, .f32⟩
  | 17 => ⟨S100000, .f32⟩
  | 18 => ⟨S1x250000, .i32⟩
  | 19 => ⟨S250000, .i32⟩
  | 20 => ⟨S_, .i32⟩
  | 21 => ⟨S250000, .i32⟩
  | 22 => ⟨S250000, .i1⟩
  | 23 => ⟨S_, .i32⟩
  | 24 => ⟨S250000, .i32⟩
  | 25 => ⟨S250000, .i32⟩
  | 26 => ⟨S250000, .i32⟩
  | 27 => ⟨S250000x1, .i32⟩
  | 28 => ⟨S250000x1024, .bf16⟩
  | 29 => ⟨S250000x128, .bf16⟩
  | 30 => ⟨S250000x128, .f32⟩
  | 31 => ⟨S250000x128, .bf16⟩
  | 32 => ⟨S250000x128, .f32⟩
  | 33 => ⟨S1x250000, .i32⟩
  | 34 => ⟨S250000, .i32⟩
  | 35 => ⟨S_, .f32⟩
  | 36 => ⟨S100000x128, .f32⟩
  | 37 => ⟨S250000x1, .i32⟩
  | 38 => ⟨S100000x128, .f32⟩
  | 39 => ⟨S_, .f32⟩
  | 40 => ⟨S250000, .f32⟩
  | 41 => ⟨S1x250000, .i32⟩
  | 42 => ⟨S250000, .i32⟩
  | 43 => ⟨S_, .f32⟩
  | 44 => ⟨S100000, .f32⟩
  | 45 => ⟨S250000x1, .i32⟩
  | 46 => ⟨S100000, .f32⟩
  | 47 => ⟨S_, .f32⟩
  | 48 => ⟨S100000, .f32⟩
  | 49 => ⟨S100000, .f32⟩
  | 50 => ⟨S100000x1, .f32⟩
  | 51 => ⟨S100000x128, .f32⟩
  | 52 => ⟨S100000x128, .f32⟩
  | 53 => ⟨S100000x128, .f32⟩
  | 54 => ⟨S1x250000, .i32⟩
  | 55 => ⟨S250000, .i32⟩
  | 56 => ⟨S_, .f32⟩
  | 57 => ⟨S100000x128, .f32⟩
  | 58 => ⟨S250000x1, .i32⟩
  | 59 => ⟨S100000x128, .f32⟩
  | 60 => ⟨S100000x128, .f32⟩
  | 61 => ⟨S100000, .f32⟩
  | 62 => ⟨S1x250000, .i32⟩
  | 63 => ⟨S250000, .i32⟩
  | 64 => ⟨S_, .i32⟩
  | 65 => ⟨S250000, .i32⟩
  | 66 => ⟨S250000, .i1⟩
  | 67 => ⟨S_, .i32⟩
  | 68 => ⟨S250000, .i32⟩
  | 69 => ⟨S250000, .i32⟩
  | 70 => ⟨S250000, .i32⟩
  | 71 => ⟨S250000x1, .i32⟩
  | 72 => ⟨S250000x1024, .bf16⟩
  | 73 => ⟨S250000x128, .bf16⟩
  | 74 => ⟨S250000x128, .f32⟩
  | 75 => ⟨S250000x128, .bf16⟩
  | 76 => ⟨S250000x128, .f32⟩
  | 77 => ⟨S1x250000, .i32⟩
  | 78 => ⟨S250000, .i32⟩
  | 79 => ⟨S_, .f32⟩
  | 80 => ⟨S100000x128, .f32⟩
  | 81 => ⟨S250000x1, .i32⟩
  | 82 => ⟨S100000x128, .f32⟩
  | 83 => ⟨S_, .f32⟩
  | 84 => ⟨S250000, .f32⟩
  | 85 => ⟨S1x250000, .i32⟩
  | 86 => ⟨S250000, .i32⟩
  | 87 => ⟨S_, .f32⟩
  | 88 => ⟨S100000, .f32⟩
  | 89 => ⟨S250000x1, .i32⟩
  | 90 => ⟨S100000, .f32⟩
  | 91 => ⟨S_, .f32⟩
  | 92 => ⟨S100000, .f32⟩
  | 93 => ⟨S100000, .f32⟩
  | 94 => ⟨S100000x1, .f32⟩
  | 95 => ⟨S100000x128, .f32⟩
  | 96 => ⟨S100000x128, .f32⟩
  | 97 => ⟨S100000x128, .f32⟩
  | 98 => ⟨S1x250000, .i32⟩
  | 99 => ⟨S250000, .i32⟩
  | 100 => ⟨S_, .f32⟩
  | 101 => ⟨S100000x128, .f32⟩
  | 102 => ⟨S250000x1, .i32⟩
  | 103 => ⟨S100000x128, .f32⟩
  | 104 => ⟨S100000x128, .f32⟩
  | 105 => ⟨S100000, .f32⟩
  | 106 => ⟨S1x250000, .i32⟩
  | 107 => ⟨S250000, .i32⟩
  | 108 => ⟨S_, .i32⟩
  | 109 => ⟨S250000, .i32⟩
  | 110 => ⟨S250000, .i1⟩
  | 111 => ⟨S_, .i32⟩
  | 112 => ⟨S250000, .i32⟩
  | 113 => ⟨S250000, .i32⟩
  | 114 => ⟨S250000, .i32⟩
  | 115 => ⟨S250000x1, .i32⟩
  | 116 => ⟨S250000x1024, .bf16⟩
  | 117 => ⟨S250000x128, .bf16⟩
  | 118 => ⟨S250000x128, .f32⟩
  | 119 => ⟨S250000x128, .bf16⟩
  | 120 => ⟨S250000x128, .f32⟩
  | 121 => ⟨S1x250000, .i32⟩
  | 122 => ⟨S250000, .i32⟩
  | 123 => ⟨S_, .f32⟩
  | 124 => ⟨S100000x128, .f32⟩
  | 125 => ⟨S250000x1, .i32⟩
  | 126 => ⟨S100000x128, .f32⟩
  | 127 => ⟨S_, .f32⟩
  | _ => ⟨S100000x128, .f32⟩

abbrev hbmTy0_1 (i : Nat) : BufTy := match i % 128 with
  | 0 => ⟨S250000, .f32⟩
  | 1 => ⟨S1x250000, .i32⟩
  | 2 => ⟨S250000, .i32⟩
  | 3 => ⟨S_, .f32⟩
  | 4 => ⟨S100000, .f32⟩
  | 5 => ⟨S250000x1, .i32⟩
  | 6 => ⟨S100000, .f32⟩
  | 7 => ⟨S_, .f32⟩
  | 8 => ⟨S100000, .f32⟩
  | 9 => ⟨S100000, .f32⟩
  | 10 => ⟨S100000x1, .f32⟩
  | 11 => ⟨S100000x128, .f32⟩
  | 12 => ⟨S100000x128, .f32⟩
  | 13 => ⟨S100000x128, .f32⟩
  | 14 => ⟨S1x250000, .i32⟩
  | 15 => ⟨S250000, .i32⟩
  | 16 => ⟨S_, .f32⟩
  | 17 => ⟨S100000x128, .f32⟩
  | 18 => ⟨S250000x1, .i32⟩
  | 19 => ⟨S100000x128, .f32⟩
  | 20 => ⟨S100000x128, .f32⟩
  | 21 => ⟨S100000, .f32⟩
  | 22 => ⟨S1x250000, .i32⟩
  | 23 => ⟨S250000, .i32⟩
  | 24 => ⟨S_, .i32⟩
  | 25 => ⟨S250000, .i32⟩
  | 26 => ⟨S250000, .i1⟩
  | 27 => ⟨S_, .i32⟩
  | 28 => ⟨S250000, .i32⟩
  | 29 => ⟨S250000, .i32⟩
  | 30 => ⟨S250000, .i32⟩
  | 31 => ⟨S250000x1, .i32⟩
  | 32 => ⟨S250000x1024, .bf16⟩
  | 33 => ⟨S250000x128, .bf16⟩
  | 34 => ⟨S250000x128, .f32⟩
  | 35 => ⟨S250000x128, .bf16⟩
  | 36 => ⟨S250000x128, .f32⟩
  | 37 => ⟨S1x250000, .i32⟩
  | 38 => ⟨S250000, .i32⟩
  | 39 => ⟨S_, .f32⟩
  | 40 => ⟨S100000x128, .f32⟩
  | 41 => ⟨S250000x1, .i32⟩
  | 42 => ⟨S100000x128, .f32⟩
  | 43 => ⟨S_, .f32⟩
  | 44 => ⟨S250000, .f32⟩
  | 45 => ⟨S1x250000, .i32⟩
  | 46 => ⟨S250000, .i32⟩
  | 47 => ⟨S_, .f32⟩
  | 48 => ⟨S100000, .f32⟩
  | 49 => ⟨S250000x1, .i32⟩
  | 50 => ⟨S100000, .f32⟩
  | 51 => ⟨S_, .f32⟩
  | 52 => ⟨S100000, .f32⟩
  | 53 => ⟨S100000, .f32⟩
  | 54 => ⟨S100000x1, .f32⟩
  | 55 => ⟨S100000x128, .f32⟩
  | 56 => ⟨S100000x128, .f32⟩
  | 57 => ⟨S100000x128, .f32⟩
  | 58 => ⟨S1x250000, .i32⟩
  | 59 => ⟨S250000, .i32⟩
  | 60 => ⟨S_, .f32⟩
  | 61 => ⟨S100000x128, .f32⟩
  | 62 => ⟨S250000x1, .i32⟩
  | 63 => ⟨S100000x128, .f32⟩
  | 64 => ⟨S100000x128, .f32⟩
  | 65 => ⟨S100000, .f32⟩
  | 66 => ⟨S1x250000, .i32⟩
  | 67 => ⟨S250000, .i32⟩
  | 68 => ⟨S_, .i32⟩
  | 69 => ⟨S250000, .i32⟩
  | 70 => ⟨S250000, .i1⟩
  | 71 => ⟨S_, .i32⟩
  | 72 => ⟨S250000, .i32⟩
  | 73 => ⟨S250000, .i32⟩
  | 74 => ⟨S250000, .i32⟩
  | 75 => ⟨S250000x1, .i32⟩
  | 76 => ⟨S250000x1024, .bf16⟩
  | 77 => ⟨S250000x128, .bf16⟩
  | 78 => ⟨S250000x128, .f32⟩
  | 79 => ⟨S250000x128, .bf16⟩
  | 80 => ⟨S250000x128, .f32⟩
  | 81 => ⟨S1x250000, .i32⟩
  | 82 => ⟨S250000, .i32⟩
  | 83 => ⟨S_, .f32⟩
  | 84 => ⟨S100000x128, .f32⟩
  | 85 => ⟨S250000x1, .i32⟩
  | 86 => ⟨S100000x128, .f32⟩
  | 87 => ⟨S_, .f32⟩
  | 88 => ⟨S250000, .f32⟩
  | 89 => ⟨S1x250000, .i32⟩
  | 90 => ⟨S250000, .i32⟩
  | 91 => ⟨S_, .f32⟩
  | 92 => ⟨S100000, .f32⟩
  | 93 => ⟨S250000x1, .i32⟩
  | 94 => ⟨S100000, .f32⟩
  | 95 => ⟨S_, .f32⟩
  | 96 => ⟨S100000, .f32⟩
  | 97 => ⟨S100000, .f32⟩
  | 98 => ⟨S100000x1, .f32⟩
  | 99 => ⟨S100000x128, .f32⟩
  | 100 => ⟨S100000x128, .f32⟩
  | 101 => ⟨S100000x128, .f32⟩
  | 102 => ⟨S1x250000, .i32⟩
  | 103 => ⟨S250000, .i32⟩
  | 104 => ⟨S_, .f32⟩
  | 105 => ⟨S100000x128, .f32⟩
  | 106 => ⟨S250000x1, .i32⟩
  | 107 => ⟨S100000x128, .f32⟩
  | 108 => ⟨S100000x128, .f32⟩
  | 109 => ⟨S100000, .f32⟩
  | 110 => ⟨S1x250000, .i32⟩
  | 111 => ⟨S250000, .i32⟩
  | 112 => ⟨S_, .i32⟩
  | 113 => ⟨S250000, .i32⟩
  | 114 => ⟨S250000, .i1⟩
  | 115 => ⟨S_, .i32⟩
  | 116 => ⟨S250000, .i32⟩
  | 117 => ⟨S250000, .i32⟩
  | 118 => ⟨S250000, .i32⟩
  | 119 => ⟨S250000x1, .i32⟩
  | 120 => ⟨S250000x1024, .bf16⟩
  | 121 => ⟨S250000x128, .bf16⟩
  | 122 => ⟨S250000x128, .f32⟩
  | 123 => ⟨S250000x128, .bf16⟩
  | 124 => ⟨S250000x128, .f32⟩
  | 125 => ⟨S1x250000, .i32⟩
  | 126 => ⟨S250000, .i32⟩
  | 127 => ⟨S_, .f32⟩
  | _ => ⟨S100000x128, .f32⟩

abbrev hbmTy0_2 (i : Nat) : BufTy := match i % 128 with
  | 0 => ⟨S100000x128, .f32⟩
  | 1 => ⟨S250000x1, .i32⟩
  | 2 => ⟨S100000x128, .f32⟩
  | 3 => ⟨S_, .f32⟩
  | 4 => ⟨S250000, .f32⟩
  | 5 => ⟨S1x250000, .i32⟩
  | 6 => ⟨S250000, .i32⟩
  | 7 => ⟨S_, .f32⟩
  | 8 => ⟨S100000, .f32⟩
  | 9 => ⟨S250000x1, .i32⟩
  | 10 => ⟨S100000, .f32⟩
  | 11 => ⟨S_, .f32⟩
  | 12 => ⟨S100000, .f32⟩
  | 13 => ⟨S100000, .f32⟩
  | 14 => ⟨S100000x1, .f32⟩
  | 15 => ⟨S100000x128, .f32⟩
  | 16 => ⟨S100000x128, .f32⟩
  | 17 => ⟨S100000x128, .f32⟩
  | 18 => ⟨S1x250000, .i32⟩
  | 19 => ⟨S250000, .i32⟩
  | 20 => ⟨S_, .f32⟩
  | 21 => ⟨S100000x128, .f32⟩
  | 22 => ⟨S250000x1, .i32⟩
  | 23 => ⟨S100000x128, .f32⟩
  | 24 => ⟨S100000x128, .f32⟩
  | 25 => ⟨S100000, .f32⟩
  | 26 => ⟨S1x250000, .i32⟩
  | 27 => ⟨S250000, .i32⟩
  | 28 => ⟨S_, .i32⟩
  | 29 => ⟨S250000, .i32⟩
  | 30 => ⟨S250000, .i1⟩
  | 31 => ⟨S_, .i32⟩
  | 32 => ⟨S250000, .i32⟩
  | 33 => ⟨S250000, .i32⟩
  | 34 => ⟨S250000, .i32⟩
  | 35 => ⟨S250000x1, .i32⟩
  | 36 => ⟨S250000x1024, .bf16⟩
  | 37 => ⟨S250000x128, .bf16⟩
  | 38 => ⟨S250000x128, .f32⟩
  | 39 => ⟨S250000x128, .bf16⟩
  | 40 => ⟨S250000x128, .f32⟩
  | 41 => ⟨S1x250000, .i32⟩
  | 42 => ⟨S250000, .i32⟩
  | 43 => ⟨S_, .f32⟩
  | 44 => ⟨S100000x128, .f32⟩
  | 45 => ⟨S250000x1, .i32⟩
  | 46 => ⟨S100000x128, .f32⟩
  | 47 => ⟨S_, .f32⟩
  | 48 => ⟨S250000, .f32⟩
  | 49 => ⟨S1x250000, .i32⟩
  | 50 => ⟨S250000, .i32⟩
  | 51 => ⟨S_, .f32⟩
  | 52 => ⟨S100000, .f32⟩
  | 53 => ⟨S250000x1, .i32⟩
  | 54 => ⟨S100000, .f32⟩
  | 55 => ⟨S_, .f32⟩
  | 56 => ⟨S100000, .f32⟩
  | 57 => ⟨S100000, .f32⟩
  | 58 => ⟨S100000x1, .f32⟩
  | 59 => ⟨S100000x128, .f32⟩
  | 60 => ⟨S100000x128, .f32⟩
  | 61 => ⟨S100000x128, .f32⟩
  | 62 => ⟨S1x250000, .i32⟩
  | 63 => ⟨S250000, .i32⟩
  | 64 => ⟨S_, .f32⟩
  | 65 => ⟨S100000x128, .f32⟩
  | 66 => ⟨S250000x1, .i32⟩
  | 67 => ⟨S100000x128, .f32⟩
  | 68 => ⟨S100000x128, .f32⟩
  | 69 => ⟨S100000, .f32⟩
  | 70 => ⟨S_, .f32⟩
  | 71 => ⟨S100000, .f32⟩
  | 72 => ⟨S100000, .f32⟩
  | 73 => ⟨S100000x1, .f32⟩
  | 74 => ⟨S100000x128, .f32⟩
  | 75 => ⟨S100000x128, .f32⟩
  | 76 => ⟨S100000x128, .f32⟩
  | 77 => ⟨S_, .f32⟩
  | 78 => ⟨S100000x128, .f32⟩
  | 79 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S128x1024, .f32⟩
  | .local _ .vmem, ⟨3, _⟩ => ⟨S4000x1024, .bf16⟩
  | .local _ .vmem, ⟨4, _⟩ => ⟨S4000x1024, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_8 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_10 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_12 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_13 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_14 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_c_15 : Ref sig .tc := ⟨.hbm, 108, rfl⟩
abbrev main_v82 : Ref sig .tc := ⟨.hbm, 109, rfl⟩
abbrev main_v83 : Ref sig .tc := ⟨.hbm, 110, rfl⟩
abbrev main_c_16 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_17 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_18 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_19 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_20 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_cst_21 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_c_22 : Ref sig .tc := ⟨.hbm, 152, rfl⟩
abbrev main_v119 : Ref sig .tc := ⟨.hbm, 153, rfl⟩
abbrev main_v120 : Ref sig .tc := ⟨.hbm, 154, rfl⟩
abbrev main_c_23 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_cst_24 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_cst_25 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_cst_26 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_cst_27 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_cst_28 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_c_29 : Ref sig .tc := ⟨.hbm, 196, rfl⟩
abbrev main_v156 : Ref sig .tc := ⟨.hbm, 197, rfl⟩
abbrev main_v157 : Ref sig .tc := ⟨.hbm, 198, rfl⟩
abbrev main_c_30 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_cst_31 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_cst_32 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_cst_33 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_cst_34 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_cst_35 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_c_36 : Ref sig .tc := ⟨.hbm, 240, rfl⟩
abbrev main_v193 : Ref sig .tc := ⟨.hbm, 241, rfl⟩
abbrev main_v194 : Ref sig .tc := ⟨.hbm, 242, rfl⟩
abbrev main_c_37 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_cst_38 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_cst_39 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_cst_40 : Ref sig .tc := ⟨.hbm, 263, rfl⟩
abbrev main_v212 : Ref sig .tc := ⟨.hbm, 264, rfl⟩
abbrev main_v213 : Ref sig .tc := ⟨.hbm, 265, rfl⟩
abbrev main_v214 : Ref sig .tc := ⟨.hbm, 266, rfl⟩
abbrev main_cst_41 : Ref sig .tc := ⟨.hbm, 267, rfl⟩
abbrev main_v215 : Ref sig .tc := ⟨.hbm, 268, rfl⟩
abbrev main_v216 : Ref sig .tc := ⟨.hbm, 269, rfl⟩
abbrev main_v217 : Ref sig .tc := ⟨.hbm, 270, rfl⟩
abbrev main_v218 : Ref sig .tc := ⟨.hbm, 271, rfl⟩
abbrev main_v219 : Ref sig .tc := ⟨.hbm, 272, rfl⟩
abbrev main_v220 : Ref sig .tc := ⟨.hbm, 273, rfl⟩
abbrev main_v221 : Ref sig .tc := ⟨.hbm, 274, rfl⟩
abbrev main_v222 : Ref sig .tc := ⟨.hbm, 275, rfl⟩
abbrev main_cst_42 : Ref sig .tc := ⟨.hbm, 276, rfl⟩
abbrev main_v223 : Ref sig .tc := ⟨.hbm, 277, rfl⟩
abbrev main_v224 : Ref sig .tc := ⟨.hbm, 278, rfl⟩
abbrev main_v225 : Ref sig .tc := ⟨.hbm, 279, rfl⟩
abbrev main_v226 : Ref sig .tc := ⟨.hbm, 280, rfl⟩
abbrev main_v227 : Ref sig .tc := ⟨.hbm, 281, rfl⟩
abbrev main_v228 : Ref sig .tc := ⟨.hbm, 282, rfl⟩
abbrev main_v229 : Ref sig .tc := ⟨.hbm, 283, rfl⟩
abbrev main_c_43 : Ref sig .tc := ⟨.hbm, 284, rfl⟩
abbrev main_v230 : Ref sig .tc := ⟨.hbm, 285, rfl⟩
abbrev main_v231 : Ref sig .tc := ⟨.hbm, 286, rfl⟩
abbrev main_c_44 : Ref sig .tc := ⟨.hbm, 287, rfl⟩
abbrev main_v232 : Ref sig .tc := ⟨.hbm, 288, rfl⟩
abbrev main_v233 : Ref sig .tc := ⟨.hbm, 289, rfl⟩
abbrev main_v234 : Ref sig .tc := ⟨.hbm, 290, rfl⟩
abbrev main_v235 : Ref sig .tc := ⟨.hbm, 291, rfl⟩
abbrev main_v236 : Ref sig .tc := ⟨.hbm, 292, rfl⟩
abbrev main_v237 : Ref sig .tc := ⟨.hbm, 293, rfl⟩
abbrev main_v238 : Ref sig .tc := ⟨.hbm, 294, rfl⟩
abbrev main_v239 : Ref sig .tc := ⟨.hbm, 295, rfl⟩
abbrev main_v240 : Ref sig .tc := ⟨.hbm, 296, rfl⟩
abbrev main_v241 : Ref sig .tc := ⟨.hbm, 297, rfl⟩
abbrev main_v242 : Ref sig .tc := ⟨.hbm, 298, rfl⟩
abbrev main_cst_45 : Ref sig .tc := ⟨.hbm, 299, rfl⟩
abbrev main_v243 : Ref sig .tc := ⟨.hbm, 300, rfl⟩
abbrev main_v244 : Ref sig .tc := ⟨.hbm, 301, rfl⟩
abbrev main_v245 : Ref sig .tc := ⟨.hbm, 302, rfl⟩
abbrev main_cst_46 : Ref sig .tc := ⟨.hbm, 303, rfl⟩
abbrev main_v246 : Ref sig .tc := ⟨.hbm, 304, rfl⟩
abbrev main_v247 : Ref sig .tc := ⟨.hbm, 305, rfl⟩
abbrev main_v248 : Ref sig .tc := ⟨.hbm, 306, rfl⟩
abbrev main_cst_47 : Ref sig .tc := ⟨.hbm, 307, rfl⟩
abbrev main_v249 : Ref sig .tc := ⟨.hbm, 308, rfl⟩
abbrev main_v250 : Ref sig .tc := ⟨.hbm, 309, rfl⟩
abbrev main_v251 : Ref sig .tc := ⟨.hbm, 310, rfl⟩
abbrev main_cst_48 : Ref sig .tc := ⟨.hbm, 311, rfl⟩
abbrev main_v252 : Ref sig .tc := ⟨.hbm, 312, rfl⟩
abbrev main_v253 : Ref sig .tc := ⟨.hbm, 313, rfl⟩
abbrev main_v254 : Ref sig .tc := ⟨.hbm, 314, rfl⟩
abbrev main_v255 : Ref sig .tc := ⟨.hbm, 315, rfl⟩
abbrev main_v256 : Ref sig .tc := ⟨.hbm, 316, rfl⟩
abbrev main_v257 : Ref sig .tc := ⟨.hbm, 317, rfl⟩
abbrev main_v258 : Ref sig .tc := ⟨.hbm, 318, rfl⟩
abbrev main_v259 : Ref sig .tc := ⟨.hbm, 319, rfl⟩
abbrev main_cst_49 : Ref sig .tc := ⟨.hbm, 320, rfl⟩
abbrev main_v260 : Ref sig .tc := ⟨.hbm, 321, rfl⟩
abbrev main_v261 : Ref sig .tc := ⟨.hbm, 322, rfl⟩
abbrev main_v262 : Ref sig .tc := ⟨.hbm, 323, rfl⟩
abbrev main_v263 : Ref sig .tc := ⟨.hbm, 324, rfl⟩
abbrev main_v264 : Ref sig .tc := ⟨.hbm, 325, rfl⟩
abbrev main_cst_50 : Ref sig .tc := ⟨.hbm, 326, rfl⟩
abbrev main_v265 : Ref sig .tc := ⟨.hbm, 327, rfl⟩
abbrev main_v266 : Ref sig .tc := ⟨.hbm, 328, rfl⟩
abbrev main_v267 : Ref sig .tc := ⟨.hbm, 329, rfl⟩
abbrev main_v268 : Ref sig .tc := ⟨.hbm, 330, rfl⟩
abbrev main_v269 : Ref sig .tc := ⟨.hbm, 331, rfl⟩
abbrev main_v270 : Ref sig .tc := ⟨.hbm, 332, rfl⟩
abbrev main_cst_51 : Ref sig .tc := ⟨.hbm, 333, rfl⟩
abbrev main_v271 : Ref sig .tc := ⟨.hbm, 334, rfl⟩
abbrev main_v272 : Ref sig .tc := ⟨.hbm, 335, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S8x128x128_S128x8x128_1_0_2 : S8x128x128.Transposes [1, 0, 2] S128x8x128
  shapeCasts_S128x8x128_S128x1024 : S128x8x128.ShapeCasts S128x1024
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S4000x1024_S4000x1024_0_0 : ∀ a, (![0, 0] : Fin 2 → Nat) a + S4000x1024.size a ≤ S4000x1024.size a
  h_S4000x1024 : 0 < S4000x1024.numel
  packedbf16_S4000x1024_S4000x1024_0_0 : (Rect.unit (s := S4000x1024) ![0, 0] S4000x1024.size inb_S4000x1024_S4000x1024_0_0).PackedRows (EltTy.packing .bf16)
  bcast_S_S100000x128 : S_.BroadcastsInDim S100000x128 (![] : Fin 0 → Fin S100000x128.rank)
  bcast_S_S100000 : S_.BroadcastsInDim S100000 (![] : Fin 0 → Fin S100000.rank)
  slices_S2x250000_S1x250000_0_0 : S2x250000.Slices ![0, 0] S1x250000
  shapeCasts_S1x250000_S250000 : S1x250000.ShapeCasts S250000
  bcast_S_S250000 : S_.BroadcastsInDim S250000 (![] : Fin 0 → Fin S250000.rank)
  bcast_S250000_S250000x1_0 : S250000.BroadcastsInDim S250000x1 (![0] : Fin 1 → Fin S250000x1.rank)
  slices_S250000x1024_S250000x128_0_0 : S250000x1024.Slices ![0, 0] S250000x128
  slices_S250000x1024_S250000x128_0_896 : S250000x1024.Slices ![0, 896] S250000x128
  slices_S2x250000_S1x250000_1_0 : S2x250000.Slices ![1, 0] S1x250000
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S250000x1024_S250000x128_0_128 : S250000x1024.Slices ![0, 128] S250000x128
  slices_S250000x1024_S250000x128_0_256 : S250000x1024.Slices ![0, 256] S250000x128
  slices_S250000x1024_S250000x128_0_384 : S250000x1024.Slices ![0, 384] S250000x128
  slices_S250000x1024_S250000x128_0_512 : S250000x1024.Slices ![0, 512] S250000x128
  slices_S250000x1024_S250000x128_0_640 : S250000x1024.Slices ![0, 640] S250000x128
  slices_S250000x1024_S250000x128_0_768 : S250000x1024.Slices ![0, 768] S250000x128
  dot_S4000x128_S128x1024_S4000x1024_1_0_0_1_n_n_wf : DotDims.WF S4000x128 S128x1024 S4000x1024 [1] [0] [0] [1] [] []
  gather_S100000x1024_S250000x1_S250000x1024_1_0_n_n_0_1_11024_wf : GatherDims.WF S100000x1024 S250000x1 S250000x1024 [1] [0] [] [0] [] 1 ![1, 1024]
  scatter_S100000x128_S250000x1_S250000x128_1_0_0_1_wf : ScatterDims.WF S100000x128 S250000x1 S250000x128 [1] [0] [0] 1
  scatter_S100000_S250000x1_S250000_n_0_0_1_wf : ScatterDims.WF S100000 S250000x1 S250000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .f32 = 32 ∨ (Rect.block (s := S128x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1024.size a ≤ S100000x1024.size a
  hwx0_2 : ∀ i : grid0.Coords, EltTy.bits .bf16 = 32 ∨ (Rect.block (s := S100000x1024) S4000x1024.size (cc0_transform_2 i) (hinb0_2 i)).WholeWords (EltTy.packing .bf16)

variable [Facts₀]

def dot_S4000x128_S128x1024_S4000x1024_1_0_0_1_n_n : DotDims S4000x128 S128x1024 S4000x1024 where
  lhsContracting := [1]
  rhsContracting := [0]
  lhsNonContracting := [0]
  rhsNonContracting := [1]
  lhsBatch := []
  rhsBatch := []
  wf := dot_S4000x128_S128x1024_S4000x1024_1_0_0_1_n_n_wf
def gather_S100000x1024_S250000x1_S250000x1024_1_0_n_n_0_1_11024 : GatherDims S100000x1024 S250000x1 S250000x1024 where
  offsetDims := [1]
  collapsedSliceDims := [0]
  operandBatchingDims := []
  startIndicesBatchingDims := []
  startIndexMap := [0]
  indexVectorDim := 1
  sliceSizes := ![1, 1024]
  wf := gather_S100000x1024_S250000x1_S250000x1024_1_0_n_n_0_1_11024_wf
def scatter_S100000x128_S250000x1_S250000x128_1_0_0_1 : ScatterDims S100000x128 S250000x1 S250000x128 where
  updateWindowDims := [1]
  insertedWindowDims := [0]
  scatterDimsToOperandDims := [0]
  indexVectorDim := 1
  wf := scatter_S100000x128_S250000x1_S250000x128_1_0_0_1_wf
def scatter_S100000_S250000x1_S250000_n_0_0_1 : ScatterDims S100000 S250000x1 S250000 where
  updateWindowDims := []
  insertedWindowDims := [0]
  scatterDimsToOperandDims := [0]
  indexVectorDim := 1
  wf := scatter_S100000_S250000x1_S250000_n_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4000x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S8x128x128 : Shape := ⟨3, ![8, 128, 128]⟩
abbrev S2x250000 : Shape := ⟨2, ![2, 250000]⟩
abbrev S2x1750000 : Shape := ⟨2, ![2, 1750000]⟩
abbrev S1x128x128 : Shape := ⟨3, ![1, 128, 128]⟩
abbrev S128x128 : Shape := ⟨2, ![128, 128]⟩
abbrev S1x250000 : Shape := ⟨2, ![1, 250000]⟩
abbrev S250000 : Shape := ⟨1, ![250000]⟩
abbrev S_ : Shape := ⟨0, ![]⟩
abbrev S250000x1 : Shape := ⟨2, ![250000, 1]⟩
abbrev S250000x128 : Shape := ⟨2, ![250000, 128]⟩
abbrev S100000 : Shape := ⟨1, ![100000]⟩
abbrev S100000x1 : Shape := ⟨2, ![100000, 1]⟩
abbrev S1x1750000 : Shape := ⟨2, ![1, 1750000]⟩
abbrev S1750000 : Shape := ⟨1, ![1750000]⟩
abbrev S1750000x1 : Shape := ⟨2, ![1750000, 1]⟩
abbrev S1750000x128 : Shape := ⟨2, ![1750000, 128]⟩

abbrev nBuf : Space → Nat
  | .hbm => 279
  | .vmem => 0
  | .smem => 0
  | _ => 0

abbrev hbmTy0_0 (i : Nat) : BufTy := match i % 128 with
  | 0 => ⟨S100000x128, .f32⟩
  | 1 => ⟨S8x128x128, .f32⟩
  | 2 => ⟨S2x250000, .i32⟩
  | 3 => ⟨S2x250000, .i32⟩
  | 4 => ⟨S2x250000, .i32⟩
  | 5 => ⟨S2x250000, .i32⟩
  | 6 => ⟨S2x250000, .i32⟩
  | 7 => ⟨S2x250000, .i32⟩
  | 8 => ⟨S2x250000, .i32⟩
  | 9 => ⟨S2x1750000, .i32⟩
  | 10 => ⟨S1x128x128, .f32⟩
  | 11 => ⟨S128x128, .f32⟩
  | 12 => ⟨S100000x128, .f32⟩
  | 13 => ⟨S1x250000, .i32⟩
  | 14 => ⟨S250000, .i32⟩
  | 15 => ⟨S_, .i32⟩
  | 16 => ⟨S250000, .i32⟩
  | 17 => ⟨S250000, .i1⟩
  | 18 => ⟨S_, .i32⟩
  | 19 => ⟨S250000, .i32⟩
  | 20 => ⟨S250000, .i32⟩
  | 21 => ⟨S250000, .i32⟩
  | 22 => ⟨S250000x1, .i32⟩
  | 23 => ⟨S250000x128, .f32⟩
  | 24 => ⟨S1x250000, .i32⟩
  | 25 => ⟨S250000, .i32⟩
  | 26 => ⟨S_, .f32⟩
  | 27 => ⟨S100000x128, .f32⟩
  | 28 => ⟨S250000x1, .i32⟩
  | 29 => ⟨S100000x128, .f32⟩
  | 30 => ⟨S_, .f32⟩
  | 31 => ⟨S250000, .f32⟩
  | 32 => ⟨S_, .f32⟩
  | 33 => ⟨S100000, .f32⟩
  | 34 => ⟨S250000x1, .i32⟩
  | 35 => ⟨S100000, .f32⟩
  | 36 => ⟨S_, .f32⟩
  | 37 => ⟨S100000, .f32⟩
  | 38 => ⟨S100000, .f32⟩
  | 39 => ⟨S100000x1, .f32⟩
  | 40 => ⟨S100000x128, .f32⟩
  | 41 => ⟨S100000x128, .f32⟩
  | 42 => ⟨S1x128x128, .f32⟩
  | 43 => ⟨S128x128, .f32⟩
  | 44 => ⟨S100000x128, .f32⟩
  | 45 => ⟨S1x250000, .i32⟩
  | 46 => ⟨S250000, .i32⟩
  | 47 => ⟨S_, .i32⟩
  | 48 => ⟨S250000, .i32⟩
  | 49 => ⟨S250000, .i1⟩
  | 50 => ⟨S_, .i32⟩
  | 51 => ⟨S250000, .i32⟩
  | 52 => ⟨S250000, .i32⟩
  | 53 => ⟨S250000, .i32⟩
  | 54 => ⟨S250000x1, .i32⟩
  | 55 => ⟨S250000x128, .f32⟩
  | 56 => ⟨S1x250000, .i32⟩
  | 57 => ⟨S250000, .i32⟩
  | 58 => ⟨S_, .f32⟩
  | 59 => ⟨S100000x128, .f32⟩
  | 60 => ⟨S250000x1, .i32⟩
  | 61 => ⟨S100000x128, .f32⟩
  | 62 => ⟨S_, .f32⟩
  | 63 => ⟨S250000, .f32⟩
  | 64 => ⟨S_, .f32⟩
  | 65 => ⟨S100000, .f32⟩
  | 66 => ⟨S250000x1, .i32⟩
  | 67 => ⟨S100000, .f32⟩
  | 68 => ⟨S_, .f32⟩
  | 69 => ⟨S100000, .f32⟩
  | 70 => ⟨S100000, .f32⟩
  | 71 => ⟨S100000x1, .f32⟩
  | 72 => ⟨S100000x128, .f32⟩
  | 73 => ⟨S100000x128, .f32⟩
  | 74 => ⟨S1x128x128, .f32⟩
  | 75 => ⟨S128x128, .f32⟩
  | 76 => ⟨S100000x128, .f32⟩
  | 77 => ⟨S1x250000, .i32⟩
  | 78 => ⟨S250000, .i32⟩
  | 79 => ⟨S_, .i32⟩
  | 80 => ⟨S250000, .i32⟩
  | 81 => ⟨S250000, .i1⟩
  | 82 => ⟨S_, .i32⟩
  | 83 => ⟨S250000, .i32⟩
  | 84 => ⟨S250000, .i32⟩
  | 85 => ⟨S250000, .i32⟩
  | 86 => ⟨S250000x1, .i32⟩
  | 87 => ⟨S250000x128, .f32⟩
  | 88 => ⟨S1x250000, .i32⟩
  | 89 => ⟨S250000, .i32⟩
  | 90 => ⟨S_, .f32⟩
  | 91 => ⟨S100000x128, .f32⟩
  | 92 => ⟨S250000x1, .i32⟩
  | 93 => ⟨S100000x128, .f32⟩
  | 94 => ⟨S_, .f32⟩
  | 95 => ⟨S250000, .f32⟩
  | 96 => ⟨S_, .f32⟩
  | 97 => ⟨S100000, .f32⟩
  | 98 => ⟨S250000x1, .i32⟩
  | 99 => ⟨S100000, .f32⟩
  | 100 => ⟨S_, .f32⟩
  | 101 => ⟨S100000, .f32⟩
  | 102 => ⟨S100000, .f32⟩
  | 103 => ⟨S100000x1, .f32⟩
  | 104 => ⟨S100000x128, .f32⟩
  | 105 => ⟨S100000x128, .f32⟩
  | 106 => ⟨S1x128x128, .f32⟩
  | 107 => ⟨S128x128, .f32⟩
  | 108 => ⟨S100000x128, .f32⟩
  | 109 => ⟨S1x250000, .i32⟩
  | 110 => ⟨S250000, .i32⟩
  | 111 => ⟨S_, .i32⟩
  | 112 => ⟨S250000, .i32⟩
  | 113 => ⟨S250000, .i1⟩
  | 114 => ⟨S_, .i32⟩
  | 115 => ⟨S250000, .i32⟩
  | 116 => ⟨S250000, .i32⟩
  | 117 => ⟨S250000, .i32⟩
  | 118 => ⟨S250000x1, .i32⟩
  | 119 => ⟨S250000x128, .f32⟩
  | 120 => ⟨S1x250000, .i32⟩
  | 121 => ⟨S250000, .i32⟩
  | 122 => ⟨S_, .f32⟩
  | 123 => ⟨S100000x128, .f32⟩
  | 124 => ⟨S250000x1, .i32⟩
  | 125 => ⟨S100000x128, .f32⟩
  | 126 => ⟨S_, .f32⟩
  | 127 => ⟨S250000, .f32⟩
  | _ => ⟨S100000x128, .f32⟩

abbrev hbmTy0_1 (i : Nat) : BufTy := match i % 128 with
  | 0 => ⟨S_, .f32⟩
  | 1 => ⟨S100000, .f32⟩
  | 2 => ⟨S250000x1, .i32⟩
  | 3 => ⟨S100000, .f32⟩
  | 4 => ⟨S_, .f32⟩
  | 5 => ⟨S100000, .f32⟩
  | 6 => ⟨S100000, .f32⟩
  | 7 => ⟨S100000x1, .f32⟩
  | 8 => ⟨S100000x128, .f32⟩
  | 9 => ⟨S100000x128, .f32⟩
  | 10 => ⟨S1x128x128, .f32⟩
  | 11 => ⟨S128x128, .f32⟩
  | 12 => ⟨S100000x128, .f32⟩
  | 13 => ⟨S1x250000, .i32⟩
  | 14 => ⟨S250000, .i32⟩
  | 15 => ⟨S_, .i32⟩
  | 16 => ⟨S250000, .i32⟩
  | 17 => ⟨S250000, .i1⟩
  | 18 => ⟨S_, .i32⟩
  | 19 => ⟨S250000, .i32⟩
  | 20 => ⟨S250000, .i32⟩
  | 21 => ⟨S250000, .i32⟩
  | 22 => ⟨S250000x1, .i32⟩
  | 23 => ⟨S250000x128, .f32⟩
  | 24 => ⟨S1x250000, .i32⟩
  | 25 => ⟨S250000, .i32⟩
  | 26 => ⟨S_, .f32⟩
  | 27 => ⟨S100000x128, .f32⟩
  | 28 => ⟨S250000x1, .i32⟩
  | 29 => ⟨S100000x128, .f32⟩
  | 30 => ⟨S_, .f32⟩
  | 31 => ⟨S250000, .f32⟩
  | 32 => ⟨S_, .f32⟩
  | 33 => ⟨S100000, .f32⟩
  | 34 => ⟨S250000x1, .i32⟩
  | 35 => ⟨S100000, .f32⟩
  | 36 => ⟨S_, .f32⟩
  | 37 => ⟨S100000, .f32⟩
  | 38 => ⟨S100000, .f32⟩
  | 39 => ⟨S100000x1, .f32⟩
  | 40 => ⟨S100000x128, .f32⟩
  | 41 => ⟨S100000x128, .f32⟩
  | 42 => ⟨S1x128x128, .f32⟩
  | 43 => ⟨S128x128, .f32⟩
  | 44 => ⟨S100000x128, .f32⟩
  | 45 => ⟨S1x250000, .i32⟩
  | 46 => ⟨S250000, .i32⟩
  | 47 => ⟨S_, .i32⟩
  | 48 => ⟨S250000, .i32⟩
  | 49 => ⟨S250000, .i1⟩
  | 50 => ⟨S_, .i32⟩
  | 51 => ⟨S250000, .i32⟩
  | 52 => ⟨S250000, .i32⟩
  | 53 => ⟨S250000, .i32⟩
  | 54 => ⟨S250000x1, .i32⟩
  | 55 => ⟨S250000x128, .f32⟩
  | 56 => ⟨S1x250000, .i32⟩
  | 57 => ⟨S250000, .i32⟩
  | 58 => ⟨S_, .f32⟩
  | 59 => ⟨S100000x128, .f32⟩
  | 60 => ⟨S250000x1, .i32⟩
  | 61 => ⟨S100000x128, .f32⟩
  | 62 => ⟨S_, .f32⟩
  | 63 => ⟨S250000, .f32⟩
  | 64 => ⟨S_, .f32⟩
  | 65 => ⟨S100000, .f32⟩
  | 66 => ⟨S250000x1, .i32⟩
  | 67 => ⟨S100000, .f32⟩
  | 68 => ⟨S_, .f32⟩
  | 69 => ⟨S100000, .f32⟩
  | 70 => ⟨S100000, .f32⟩
  | 71 => ⟨S100000x1, .f32⟩
  | 72 => ⟨S100000x128, .f32⟩
  | 73 => ⟨S100000x128, .f32⟩
  | 74 => ⟨S1x128x128, .f32⟩
  | 75 => ⟨S128x128, .f32⟩
  | 76 => ⟨S100000x128, .f32⟩
  | 77 => ⟨S1x250000, .i32⟩
  | 78 => ⟨S250000, .i32⟩
  | 79 => ⟨S_, .i32⟩
  | 80 => ⟨S250000, .i32⟩
  | 81 => ⟨S250000, .i1⟩
  | 82 => ⟨S_, .i32⟩
  | 83 => ⟨S250000, .i32⟩
  | 84 => ⟨S250000, .i32⟩
  | 85 => ⟨S250000, .i32⟩
  | 86 => ⟨S250000x1, .i32⟩
  | 87 => ⟨S250000x128, .f32⟩
  | 88 => ⟨S1x250000, .i32⟩
  | 89 => ⟨S250000, .i32⟩
  | 90 => ⟨S_, .f32⟩
  | 91 => ⟨S100000x128, .f32⟩
  | 92 => ⟨S250000x1, .i32⟩
  | 93 => ⟨S100000x128, .f32⟩
  | 94 => ⟨S_, .f32⟩
  | 95 => ⟨S250000, .f32⟩
  | 96 => ⟨S_, .f32⟩
  | 97 => ⟨S100000, .f32⟩
  | 98 => ⟨S250000x1, .i32⟩
  | 99 => ⟨S100000, .f32⟩
  | 100 => ⟨S_, .f32⟩
  | 101 => ⟨S100000, .f32⟩
  | 102 => ⟨S100000, .f32⟩
  | 103 => ⟨S100000x1, .f32⟩
  | 104 => ⟨S100000x128, .f32⟩
  | 105 => ⟨S100000x128, .f32⟩
  | 106 => ⟨S1x128x128, .f32⟩
  | 107 => ⟨S128x128, .f32⟩
  | 108 => ⟨S100000x128, .f32⟩
  | 109 => ⟨S1x1750000, .i32⟩
  | 110 => ⟨S1750000, .i32⟩
  | 111 => ⟨S_, .i32⟩
  | 112 => ⟨S1750000, .i32⟩
  | 113 => ⟨S1750000, .i1⟩
  | 114 => ⟨S_, .i32⟩
  | 115 => ⟨S1750000, .i32⟩
  | 116 => ⟨S1750000, .i32⟩
  | 117 => ⟨S1750000, .i32⟩
  | 118 => ⟨S1750000x1, .i32⟩
  | 119 => ⟨S1750000x128, .f32⟩
  | 120 => ⟨S1x1750000, .i32⟩
  | 121 => ⟨S1750000, .i32⟩
  | 122 => ⟨S_, .f32⟩
  | 123 => ⟨S100000x128, .f32⟩
  | 124 => ⟨S1750000x1, .i32⟩
  | 125 => ⟨S100000x128, .f32⟩
  | 126 => ⟨S_, .f32⟩
  | 127 => ⟨S1750000, .f32⟩
  | _ => ⟨S100000x128, .f32⟩

abbrev hbmTy0_2 (i : Nat) : BufTy := match i % 128 with
  | 0 => ⟨S_, .f32⟩
  | 1 => ⟨S100000, .f32⟩
  | 2 => ⟨S1750000x1, .i32⟩
  | 3 => ⟨S100000, .f32⟩
  | 4 => ⟨S_, .f32⟩
  | 5 => ⟨S100000, .f32⟩
  | 6 => ⟨S100000, .f32⟩
  | 7 => ⟨S100000x1, .f32⟩
  | 8 => ⟨S100000x128, .f32⟩
  | 9 => ⟨S100000x128, .f32⟩
  | 10 => ⟨S_, .f32⟩
  | 11 => ⟨S100000x128, .f32⟩
  | 12 => ⟨S100000x128, .f32⟩
  | 13 => ⟨S100000x128, .f32⟩
  | 14 => ⟨S100000x128, .f32⟩
  | 15 => ⟨S100000x128, .f32⟩
  | 16 => ⟨S100000x128, .f32⟩
  | 17 => ⟨S100000x128, .f32⟩
  | 18 => ⟨S100000x128, .f32⟩
  | 19 => ⟨S100000x128, .f32⟩
  | 20 => ⟨S_, .f32⟩
  | 21 => ⟨S100000x128, .f32⟩
  | 22 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_4 : Ref sig .tc := ⟨.hbm, 47, rfl⟩
abbrev main_v32 : Ref sig .tc := ⟨.hbm, 48, rfl⟩
abbrev main_v33 : Ref sig .tc := ⟨.hbm, 49, rfl⟩
abbrev main_c_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_10 : Ref sig .tc := ⟨.hbm, 79, rfl⟩
abbrev main_v58 : Ref sig .tc := ⟨.hbm, 80, rfl⟩
abbrev main_v59 : Ref sig .tc := ⟨.hbm, 81, rfl⟩
abbrev main_c_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_12 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_13 : Ref sig .tc := ⟨.hbm, 94, rfl⟩
abbrev main_v70 : Ref sig .tc := ⟨.hbm, 95, rfl⟩
abbrev main_cst_14 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_15 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_c_16 : Ref sig .tc := ⟨.hbm, 111, rfl⟩
abbrev main_v84 : Ref sig .tc := ⟨.hbm, 112, rfl⟩
abbrev main_v85 : Ref sig .tc := ⟨.hbm, 113, rfl⟩
abbrev main_c_17 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_18 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_19 : Ref sig .tc := ⟨.hbm, 126, rfl⟩
abbrev main_v96 : Ref sig .tc := ⟨.hbm, 127, rfl⟩
abbrev main_cst_20 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_21 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_c_22 : Ref sig .tc := ⟨.hbm, 143, rfl⟩
abbrev main_v110 : Ref sig .tc := ⟨.hbm, 144, rfl⟩
abbrev main_v111 : Ref sig .tc := ⟨.hbm, 145, rfl⟩
abbrev main_c_23 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_cst_24 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_cst_25 : Ref sig .tc := ⟨.hbm, 158, rfl⟩
abbrev main_v122 : Ref sig .tc := ⟨.hbm, 159, rfl⟩
abbrev main_cst_26 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_cst_27 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_c_28 : Ref sig .tc := ⟨.hbm, 175, rfl⟩
abbrev main_v136 : Ref sig .tc := ⟨.hbm, 176, rfl⟩
abbrev main_v137 : Ref sig .tc := ⟨.hbm, 177, rfl⟩
abbrev main_c_29 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_cst_30 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_cst_31 : Ref sig .tc := ⟨.hbm, 190, rfl⟩
abbrev main_v148 : Ref sig .tc := ⟨.hbm, 191, rfl⟩
abbrev main_cst_32 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_cst_33 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_c_34 : Ref sig .tc := ⟨.hbm, 207, rfl⟩
abbrev main_v162 : Ref sig .tc := ⟨.hbm, 208, rfl⟩
abbrev main_v163 : Ref sig .tc := ⟨.hbm, 209, rfl⟩
abbrev main_c_35 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_cst_36 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_cst_37 : Ref sig .tc := ⟨.hbm, 222, rfl⟩
abbrev main_v174 : Ref sig .tc := ⟨.hbm, 223, rfl⟩
abbrev main_cst_38 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_cst_39 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_c_40 : Ref sig .tc := ⟨.hbm, 239, rfl⟩
abbrev main_v188 : Ref sig .tc := ⟨.hbm, 240, rfl⟩
abbrev main_v189 : Ref sig .tc := ⟨.hbm, 241, rfl⟩
abbrev main_c_41 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_cst_42 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_cst_43 : Ref sig .tc := ⟨.hbm, 254, rfl⟩
abbrev main_v200 : Ref sig .tc := ⟨.hbm, 255, rfl⟩
abbrev main_cst_44 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_cst_45 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_cst_46 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_cst_47 : Ref sig .tc := ⟨.hbm, 276, rfl⟩
abbrev main_v218 : Ref sig .tc := ⟨.hbm, 277, rfl⟩
abbrev main_v219 : Ref sig .tc := ⟨.hbm, 278, rfl⟩

abbrev nD : Nat := 1
abbrev τ : Topo := Topo.v7x

variable {F : FTy → Type} [FloatOps F]

class Facts₀ : Prop where
  concatenates_S2x250000_S2x250000_S2x250000_S2x250000_S2x250000_S2x250000_S2x250000_S2x1750000_d1 : Shape.Concatenates [S2x250000, S2x250000, S2x250000, S2x250000, S2x250000, S2x250000, S2x250000] S2x1750000 1
  slices_S8x128x128_S1x128x128_0_0_0 : S8x128x128.Slices ![0, 0, 0] S1x128x128
  shapeCasts_S1x128x128_S128x128 : S1x128x128.ShapeCasts S128x128
  slices_S2x250000_S1x250000_0_0 : S2x250000.Slices ![0, 0] S1x250000
  shapeCasts_S1x250000_S250000 : S1x250000.ShapeCasts S250000
  bcast_S_S250000 : S_.BroadcastsInDim S250000 (![] : Fin 0 → Fin S250000.rank)
  bcast_S250000_S250000x1_0 : S250000.BroadcastsInDim S250000x1 (![0] : Fin 1 → Fin S250000x1.rank)
  slices_S2x250000_S1x250000_1_0 : S2x250000.Slices ![1, 0] S1x250000
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S8x128x128_S1x128x128_1_0_0 : S8x128x128.Slices ![1, 0, 0] S1x128x128
  slices_S8x128x128_S1x128x128_2_0_0 : S8x128x128.Slices ![2, 0, 0] S1x128x128
  slices_S8x128x128_S1x128x128_3_0_0 : S8x128x128.Slices ![3, 0, 0] S1x128x128
  slices_S8x128x128_S1x128x128_4_0_0 : S8x128x128.Slices ![4, 0, 0] S1x128x128
  slices_S8x128x128_S1x128x128_5_0_0 : S8x128x128.Slices ![5, 0, 0] S1x128x128
  slices_S8x128x128_S1x128x128_6_0_0 : S8x128x128.Slices ![6, 0, 0] S1x128x128
  slices_S8x128x128_S1x128x128_7_0_0 : S8x128x128.Slices ![7, 0, 0] S1x128x128
  slices_S2x1750000_S1x1750000_0_0 : S2x1750000.Slices ![0, 0] S1x1750000
  shapeCasts_S1x1750000_S1750000 : S1x1750000.ShapeCasts S1750000
  bcast_S_S1750000 : S_.BroadcastsInDim S1750000 (![] : Fin 0 → Fin S1750000.rank)
  bcast_S1750000_S1750000x1_0 : S1750000.BroadcastsInDim S1750000x1 (![0] : Fin 1 → Fin S1750000x1.rank)
  slices_S2x1750000_S1x1750000_1_0 : S2x1750000.Slices ![1, 0] S1x1750000
  dot_S100000x128_S128x128_S100000x128_1_0_0_1_n_n_wf : DotDims.WF S100000x128 S128x128 S100000x128 [1] [0] [0] [1] [] []
  gather_S100000x128_S250000x1_S250000x128_1_0_n_n_0_1_1128_wf : GatherDims.WF S100000x128 S250000x1 S250000x128 [1] [0] [] [0] [] 1 ![1, 128]
  scatter_S100000x128_S250000x1_S250000x128_1_0_0_1_wf : ScatterDims.WF S100000x128 S250000x1 S250000x128 [1] [0] [0] 1
  scatter_S100000_S250000x1_S250000_n_0_0_1_wf : ScatterDims.WF S100000 S250000x1 S250000 [] [0] [0] 1
  gather_S100000x128_S1750000x1_S1750000x128_1_0_n_n_0_1_1128_wf : GatherDims.WF S100000x128 S1750000x1 S1750000x128 [1] [0] [] [0] [] 1 ![1, 128]
  scatter_S100000x128_S1750000x1_S1750000x128_1_0_0_1_wf : ScatterDims.WF S100000x128 S1750000x1 S1750000x128 [1] [0] [0] 1
  scatter_S100000_S1750000x1_S1750000_n_0_0_1_wf : ScatterDims.WF S100000 S1750000x1 S1750000 [] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S250000x1_S250000x128_1_0_n_n_0_1_1128 : GatherDims S100000x128 S250000x1 S250000x128 where
  offsetDims := [1]
  collapsedSliceDims := [0]
  operandBatchingDims := []
  startIndicesBatchingDims := []
  startIndexMap := [0]
  indexVectorDim := 1
  sliceSizes := ![1, 128]
  wf := gather_S100000x128_S250000x1_S250000x128_1_0_n_n_0_1_1128_wf
def scatter_S100000x128_S250000x1_S250000x128_1_0_0_1 : ScatterDims S100000x128 S250000x1 S250000x128 where
  updateWindowDims := [1]
  insertedWindowDims := [0]
  scatterDimsToOperandDims := [0]
  indexVectorDim := 1
  wf := scatter_S100000x128_S250000x1_S250000x128_1_0_0_1_wf
def scatter_S100000_S250000x1_S250000_n_0_0_1 : ScatterDims S100000 S250000x1 S250000 where
  updateWindowDims := []
  insertedWindowDims := [0]
  scatterDimsToOperandDims := [0]
  indexVectorDim := 1
  wf := scatter_S100000_S250000x1_S250000_n_0_0_1_wf
def gather_S100000x128_S1750000x1_S1750000x128_1_0_n_n_0_1_1128 : GatherDims S100000x128 S1750000x1 S1750000x128 where
  offsetDims := [1]
  collapsedSliceDims := [0]
  operandBatchingDims := []
  startIndicesBatchingDims := []
  startIndexMap := [0]
  indexVectorDim := 1
  sliceSizes := ![1, 128]
  wf := gather_S100000x128_S1750000x1_S1750000x128_1_0_n_n_0_1_1128_wf
def scatter_S100000x128_S1750000x1_S1750000x128_1_0_0_1 : ScatterDims S100000x128 S1750000x1 S1750000x128 where
  updateWindowDims := [1]
  insertedWindowDims := [0]
  scatterDimsToOperandDims := [0]
  indexVectorDim := 1
  wf := scatter_S100000x128_S1750000x1_S1750000x128_1_0_0_1_wf
def scatter_S100000_S1750000x1_S1750000_n_0_0_1 : ScatterDims S100000 S1750000x1 S1750000 where
  updateWindowDims := []
  insertedWindowDims := [0]
  scatterDimsToOperandDims := [0]
  indexVectorDim := 1
  wf := scatter_S100000_S1750000x1_S1750000_n_0_0_1_wf

class Facts : Prop extends Facts₀ where

variable [Facts]
-- ==== Proof.KBFrameDefs.lean ====
/-
  The region of `Kernel` seen from outside: what the core's buffers hold when the region is entered (the two host
  lines before it — the transpose of the relation matrices and its reshape to `[128, 1024]` — applied to the launch
  memory), the host lines that follow the region, each window's block at a grid point, and what the body leaves in the
  output window's staging buffer: one store of the whole `[4000, 1024]` block, the matrix product of the point's
  `[4000, 128]` block of node features with the whole `[128, 1024]` matrix.
-/
import proofs.«123275_j54631984005526_2_alg».proof.Proof.Gen.Kernel.Launch
import proofs.«123275_j54631984005526_2_alg».proof.Proof.Gen.Kernel.Skeleton
import proofs.«123275_j54631984005526_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-- The host lines before the region, as the list of stretches the launch theorem takes. -/
abbrev headOps : List (List (HloOp τ sig (Elt F))) := [main_part0_ops0]

/-- The host lines after the region, stretch by stretch as the program's text is cut. -/
abbrev tailOps : List (List (HloOp τ sig (Elt F))) :=
  [main_part0_ops1, main_part1_ops0, main_part2_ops0, main_part3_ops0, main_part4_ops0, main_part5_ops0]

/-- Core `c`'s buffer contents when the region is entered, as a valuation: the launch memory after the two lines
    before the region. -/
abbrev V0 (c : Dev nD) : Valuation τ sig (Elt F) := StableHlo.after (List.flatten headOps) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's three accesses: each a whole staging buffer. -/
abbrev r0_0 : Rect S4000x128 := Rect.unit (s := S4000x128) ![0, 0] S4000x128.size inb_S4000x128_S4000x128_0_0
abbrev r0_1 : Rect S128x1024 := Rect.unit (s := S128x1024) ![0, 0] S128x1024.size inb_S128x1024_S128x1024_0_0
abbrev r0_2 : Rect S4000x1024 := Rect.unit (s := S4000x1024) ![0, 0] S4000x1024.size inb_S4000x1024_S4000x1024_0_0

/-- What the body leaves in the output window's staging buffer, from the two input blocks: its one store. -/
def out0_2 (x0 : Vec F S4000x128 .f32) (x1 : Vec F S128x1024 .f32) : Vec F S4000x1024 .bf16 :=
  View.canon [⟨r0_2, k0_pay1 (View.ld x0 r0_0) (View.ld x1 r0_1)⟩]

end Cert.Kernel.Hand

end
-- ==== Proof.KBFrameBody.lean ====
/-
  The body of `Kernel`'s one region at a grid point, as a triple: called with the two input windows' staging
  buffers holding their blocks and the output window's holding anything, it loads both inputs whole, stores the whole
  output block once, and returns the inputs as they were and the output buffer at `out0_2` of the input blocks.
  From it the proof data of the pipeline (the arrays as the region finds them; after the body each input buffer at its
  block, the output buffer at `out0_2` of the two blocks; nothing carried from point to point) and the obligation
  the launch theorem asks of the body at every point.
-/
import proofs.«123275_j54631984005526_2_alg».proof.Proof.KBFrameDefs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input windows' buffers hold their blocks -/

/-- Input window 0's current staging buffer holds its block at every point, for any proof data whose array is the
    region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block — the whole matrix — at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's triple -/

/-- The one store covers the output buffer. -/
theorem cover0_2 (p0 : Vec F S4000x1024 .bf16) (y : S4000x1024.Idx) :
    ∃ pc ∈ ([⟨r0_2, p0⟩] : List (View.Piece (Elt F) S4000x1024 .bf16)), y ∈ pc.1.set :=
  View.cover_of_tiled [⟨r0_2, p0⟩] S4000x1024.size (by rfl) y

set_option maxHeartbeats 4000000 in
/-- The body on whole staging memrefs: the inputs at contents `x0`, `x1`, the output at anything; it ends with the
    inputs unchanged and the output at `out0_2 x0 x1`. -/
theorem sound_kernel (c : Dev nD) (E : Set ℕ) (i : grid0.Coords) (arg1 : Memref sig .tc .vmem S4000x128 .f32) (harg1 : arg1.IsWhole) (arg2 : Memref sig .tc .vmem S128x1024 .f32) (harg2 : arg2.IsWhole) (arg3 : Memref sig .tc .vmem S4000x1024 .bf16) (harg3 : arg3.IsWhole)
    (x0 : Vec F S4000x128 .f32) (x1 : Vec F S128x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__transform_kernel i arg1 harg1 arg2 harg2 arg3 harg3) K := by
  simp only [cc0__transform_kernel_eq_skeleton]; unfold cc0__transform_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core `c`: the arrays as the region finds them; after the body at point `t`
    each input's buffer at its block and the output's at `out0_2` of the two blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the triple applies; the invariant and the core's
    debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorem's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KBTailWrites.lean ====
/-
  The buffers each of the six stretches of host operations after the matmul region writes, and that none of
  these operations allocates a fresh buffer.
-/
import proofs.«123275_j54631984005526_2_alg».proof.Proof.Gen.Kernel.Launch
import Idealize.ShloMosaic.Lib.StableHlo.Run

set_option maxRecDepth 8192

noncomputable section

namespace Cert.Kernel.Tail

open Cert.Kernel Cert.Kernel.Gen Idealize.ShloMosaic Idealize.ShloMosaic.TcCoe Idealize.SL.Sem Idealize.ShloMosaic.StableHlo

variable {F : FTy → Type} [FloatOps F]

/-- The buffers stretch 0 writes, in order. -/
abbrev W0 : List (Ref sig .tc) := [main_cst, main_v3, main_cst_0, main_v4, main_cst_1, main_v5, main_v6, main_v7, main_c, main_v8, main_v9, main_c_2, main_v10, main_v11, main_v12, main_v13, main_v14, main_v15, main_v16, main_v17, main_v18, main_v19, main_v20, main_cst_3, main_v21, main_v22, main_v23, main_cst_4, main_v24, main_v25, main_v26, main_cst_5, main_v27, main_v28, main_v29, main_cst_6, main_v30, main_v31, main_v32, main_v33, main_v34, main_v35, main_v36, main_v37, main_cst_7, main_v38, main_v39, main_v40, main_v41, main_v42, main_v43, main_v44, main_c_8, main_v45, main_v46, main_c_9, main_v47]
set_option maxHeartbeats 4000000 in
theorem writes0 : (main_part0_ops1 : List (HloOp τ sig (Elt F))).Forall fun op => op.writes ⊆ (W0.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))
set_option maxHeartbeats 4000000 in
theorem fresh0 : (main_part0_ops1 : List (HloOp τ sig (Elt F))).Forall fun op => op.fresh = ∅ := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> rfl

/-- The buffers stretch 1 writes, in order. -/
abbrev W1 : List (Ref sig .tc) := [main_v48, main_v49, main_v50, main_v51, main_v52, main_v53, main_v54, main_v55, main_v56, main_v57, main_cst_10, main_v58, main_v59, main_v60, main_cst_11, main_v61, main_v62, main_v63, main_cst_12, main_v64, main_v65, main_v66, main_cst_13, main_v67, main_v68, main_v69, main_v70, main_v71, main_v72, main_v73, main_v74, main_cst_14, main_v75, main_v76, main_v77, main_v78, main_v79, main_v80, main_v81, main_c_15, main_v82, main_v83, main_c_16, main_v84, main_v85, main_v86, main_v87, main_v88, main_v89, main_v90, main_v91, main_v92, main_v93, main_v94, main_cst_17, main_v95, main_v96, main_v97, main_cst_18, main_v98]
set_option maxHeartbeats 4000000 in
theorem writes1 : (main_part1_ops0 : List (HloOp τ sig (Elt F))).Forall fun op => op.writes ⊆ (W1.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))
set_option maxHeartbeats 4000000 in
theorem fresh1 : (main_part1_ops0 : List (HloOp τ sig (Elt F))).Forall fun op => op.fresh = ∅ := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> rfl

/-- The buffers stretch 2 writes, in order. -/
abbrev W2 : List (Ref sig .tc) := [main_v99, main_v100, main_cst_19, main_v101, main_v102, main_v103, main_cst_20, main_v104, main_v105, main_v106, main_v107, main_v108, main_v109, main_v110, main_v111, main_cst_21, main_v112, main_v113, main_v114, main_v115, main_v116, main_v117, main_v118, main_c_22, main_v119, main_v120, main_c_23, main_v121, main_v122, main_v123, main_v124, main_v125, main_v126, main_v127, main_v128, main_v129, main_v130, main_v131, main_cst_24, main_v132, main_v133, main_v134, main_cst_25, main_v135, main_v136, main_v137, main_cst_26, main_v138, main_v139, main_v140, main_cst_27, main_v141, main_v142, main_v143, main_v144, main_v145, main_v146, main_v147, main_v148, main_cst_28]
set_option maxHeartbeats 4000000 in
theorem writes2 : (main_part2_ops0 : List (HloOp τ sig (Elt F))).Forall fun op => op.writes ⊆ (W2.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))
set_option maxHeartbeats 4000000 in
theorem fresh2 : (main_part2_ops0 : List (HloOp τ sig (Elt F))).Forall fun op => op.fresh = ∅ := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> rfl

/-- The buffers stretch 3 writes, in order. -/
abbrev W3 : List (Ref sig .tc) := [main_v149, main_v150, main_v151, main_v152, main_v153, main_v154, main_v155, main_c_29, main_v156, main_v157, main_c_30, main_v158, main_v159, main_v160, main_v161, main_v162, main_v163, main_v164, main_v165, main_v166, main_v167, main_v168, main_cst_31, main_v169, main_v170, main_v171, main_cst_32, main_v172, main_v173, main_v174, main_cst_33, main_v175, main_v176, main_v177, main_cst_34, main_v178, main_v179, main_v180, main_v181, main_v182, main_v183, main_v184, main_v185, main_cst_35, main_v186, main_v187, main_v188, main_v189, main_v190, main_v191, main_v192, main_c_36, main_v193, main_v194, main_c_37, main_v195, main_v196, main_v197, main_v198, main_v199]
set_option maxHeartbeats 4000000 in
theorem writes3 : (main_part3_ops0 : List (HloOp τ sig (Elt F))).Forall fun op => op.writes ⊆ (W3.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))
set_option maxHeartbeats 4000000 in
theorem fresh3 : (main_part3_ops0 : List (HloOp τ sig (Elt F))).Forall fun op => op.fresh = ∅ := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> rfl

/-- The buffers stretch 4 writes, in order. -/
abbrev W4 : List (Ref sig .tc) := [main_v200, main_v201, main_v202, main_v203, main_v204, main_v205, main_cst_38, main_v206, main_v207, main_v208, main_cst_39, main_v209, main_v210, main_v211, main_cst_40, main_v212, main_v213, main_v214, main_cst_41, main_v215, main_v216, main_v217, main_v218, main_v219, main_v220, main_v221, main_v222, main_cst_42, main_v223, main_v224, main_v225, main_v226, main_v227, main_v228, main_v229, main_c_43, main_v230, main_v231, main_c_44, main_v232, main_v233, main_v234, main_v235, main_v236, main_v237, main_v238, main_v239, main_v240, main_v241, main_v242, main_cst_45, main_v243, main_v244, main_v245, main_cst_46, main_v246, main_v247, main_v248, main_cst_47, main_v249]
set_option maxHeartbeats 4000000 in
theorem writes4 : (main_part4_ops0 : List (HloOp τ sig (Elt F))).Forall fun op => op.writes ⊆ (W4.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))
set_option maxHeartbeats 4000000 in
theorem fresh4 : (main_part4_ops0 : List (HloOp τ sig (Elt F))).Forall fun op => op.fresh = ∅ := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> rfl

/-- The buffers stretch 5 writes, in order. -/
abbrev W5 : List (Ref sig .tc) := [main_v250, main_v251, main_cst_48, main_v252, main_v253, main_v254, main_v255, main_v256, main_v257, main_v258, main_v259, main_cst_49, main_v260, main_v261, main_v262, main_v263, main_v264, main_cst_50, main_v265, main_v266, main_v267, main_v268, main_v269, main_v270, main_cst_51, main_v271, main_v272]
set_option maxHeartbeats 4000000 in
theorem writes5 : (main_part5_ops0 : List (HloOp τ sig (Elt F))).Forall fun op => op.writes ⊆ (W5.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))
set_option maxHeartbeats 4000000 in
theorem fresh5 : (main_part5_ops0 : List (HloOp τ sig (Elt F))).Forall fun op => op.fresh = ∅ := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_⟩ <;> rfl

end Cert.Kernel.Tail

end
-- ==== Proof.KBFrameRun.lean ====
/-
  The frame of `Kernel`: @main is two host lines, the region, and 324 host lines. The region runs under the launch
  theorem for a program that goes on after its region: the later lines touch only unscoped TensorCore buffers, allocate
  nothing and write none of the region's three arrays (the node features, the `[128, 1024]` matrix, the product), so
  the run ends with each array at what the pipeline's write-backs leave and every other buffer at what the later lines
  compute from the region's exit. No line of @main writes an argument, and window 0 is only read: the nine argument
  arrays end as launched.
-/
import proofs.«123275_j54631984005526_2_alg».proof.Proof.KBFrameBody
import proofs.«123275_j54631984005526_2_alg».proof.Proof.KBTailWrites

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem head_fresh : (headOps : List (List (HloOp τ sig (Elt F)))).Forall fun ops => ops.Forall fun op => op.fresh = ∅ := by
  simp only [List.Forall]; repeat' constructor

/-- @main reduces to the region continued by the later lines, the buffers at their contents after the earlier two. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps : List (List (HloOp τ sig (Elt F)))).map StableHlo.seq)) :=
  Pipeline.hmain_around cfgs 0 defs₀ 𝒱₀ m main headOps tailOps (by simp only [List.Forall]; exact main_part0_ops0_sub)
    head_fresh main_chain_windows

/-- The later lines touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl
  · exact Pipeline.sub_ucRefs op ((List.forall_iff_forall_mem.mp main_part0_ops1_sub) op hop)
  · exact Pipeline.sub_ucRefs op ((List.forall_iff_forall_mem.mp main_part1_ops0_sub) op hop)
  · exact Pipeline.sub_ucRefs op ((List.forall_iff_forall_mem.mp main_part2_ops0_sub) op hop)
  · exact Pipeline.sub_ucRefs op ((List.forall_iff_forall_mem.mp main_part3_ops0_sub) op hop)
  · exact Pipeline.sub_ucRefs op ((List.forall_iff_forall_mem.mp main_part4_ops0_sub) op hop)
  · exact Pipeline.sub_ucRefs op ((List.forall_iff_forall_mem.mp main_part5_ops0_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl
  · exact (List.forall_iff_forall_mem.mp Tail.fresh0) op hop
  · exact (List.forall_iff_forall_mem.mp Tail.fresh1) op hop
  · exact (List.forall_iff_forall_mem.mp Tail.fresh2) op hop
  · exact (List.forall_iff_forall_mem.mp Tail.fresh3) op hop
  · exact (List.forall_iff_forall_mem.mp Tail.fresh4) op hop
  · exact (List.forall_iff_forall_mem.mp Tail.fresh5) op hop

/-- A reference outside a list holding everything a stretch writes is written by none of its lines. -/
theorem not_mem_writes_of {L : List (HloOp τ sig (Elt F))} {Wl : List (Ref sig .tc)}
    (h : L.Forall fun op => op.writes ⊆ (Wl.map (Proc.devRef (τ := τ) .tc)).toFinset) (r : Ref sig .tc) (hr : r ∉ Wl) :
    ∀ op ∈ L, Proc.devRef (τ := τ) .tc r ∉ op.writes := by
  intro op hop hmem
  obtain ⟨y, hy, he⟩ := List.mem_map.mp (List.mem_toFinset.mp ((List.forall_iff_forall_mem.mp h) op hop hmem))
  exact hr (Proc.devRef_injective _ he ▸ hy)

/-- The region's three arrays, as references. -/
theorem arrRef_cases (w : Fin 3) : Pipeline.arrRef spec0 w = main_arg0 ∨ Pipeline.arrRef spec0 w = main_v1 ∨ Pipeline.arrRef spec0 w = main_v2 := by
  fin_cases w
  · exact Or.inl rfl
  · exact Or.inr (Or.inl rfl)
  · exact Or.inr (Or.inr rfl)

/-- And they write none of the region's arrays. -/
theorem sfx_keeps : ∀ ops ∈ (tailOps : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases arrRef_cases w with e | e | e <;> rw [e] <;> rcases hops with rfl | rfl | rfl | rfl | rfl | rfl
  all_goals first
    | exact not_mem_writes_of Tail.writes0 _ (by decide) op hop
    | exact not_mem_writes_of Tail.writes1 _ (by decide) op hop
    | exact not_mem_writes_of Tail.writes2 _ (by decide) op hop
    | exact not_mem_writes_of Tail.writes3 _ (by decide) op hop
    | exact not_mem_writes_of Tail.writes4 _ (by decide) op hop
    | exact not_mem_writes_of Tail.writes5 _ (by decide) op hop

/-! ## The run -/

set_option backward.isDefEq.respectTransparency.types false in
/-- Every weakly fair execution of @main terminates, each array of the pipeline at what the write-backs leave and every
    other unscoped buffer as the later lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-! ## What is kept -/

/-- The buffers the two lines before the region write. -/
abbrev headW : List (Ref sig .tc) := [main_v0, main_v1]

theorem head_writes : (main_part0_ops0 : List (HloOp τ sig (Elt F))).Forall fun op => op.writes ⊆ (headW.map (Proc.devRef (τ := τ) .tc)).toFinset := by
  simp only [List.Forall]
  exact ⟨by simp only [StableHlo.unary_writes, StableHlo.reshape_writes, Finset.singleton_subset_iff, List.mem_toFinset]; exact List.mem_map_of_mem (by decide),
    by simp only [StableHlo.unary_writes, StableHlo.reshape_writes, Finset.singleton_subset_iff, List.mem_toFinset]; exact List.mem_map_of_mem (by decide)⟩

/-- A buffer the two lines before the region do not write enters the region as launched. -/
theorem V_keep (c : Dev nD) (r : Ref sig .tc) (h : r ∉ headW) : V m c r = m ((c : Thread nD τ).loc r) := by
  show StableHlo.after (main_part0_ops0 ++ []) (fun b => m (c, b)) (Proc.devRef .tc r) = _
  rw [List.append_nil]
  exact StableHlo.after_of_writes_sub main_part0_ops0 _ head_writes h

/-- A buffer no later line writes holds after them what it held at the region's exit. -/
theorem tail_keep (Wv : Valuation τ sig (Elt F)) (r : Ref sig .tc) (h0 : r ∉ Tail.W0) (h1 : r ∉ Tail.W1) (h2 : r ∉ Tail.W2)
    (h3 : r ∉ Tail.W3) (h4 : r ∉ Tail.W4) (h5 : r ∉ Tail.W5) :
    StableHlo.after (List.flatten (tailOps : List (List (HloOp τ sig (Elt F))))) Wv (Proc.devRef .tc r) = Wv (Proc.devRef .tc r) := by
  show StableHlo.after (main_part0_ops1 ++ (main_part1_ops0 ++ (main_part2_ops0 ++ (main_part3_ops0 ++ (main_part4_ops0 ++ (main_part5_ops0 ++ [])))))) Wv (Proc.devRef .tc r) = _
  rw [List.append_nil, StableHlo.after_append, StableHlo.after_append, StableHlo.after_append, StableHlo.after_append, StableHlo.after_append,
    StableHlo.after_of_writes_sub main_part5_ops0 _ Tail.writes5 h5, StableHlo.after_of_writes_sub main_part4_ops0 _ Tail.writes4 h4,
    StableHlo.after_of_writes_sub main_part3_ops0 _ Tail.writes3 h3, StableHlo.after_of_writes_sub main_part2_ops0 _ Tail.writes2 h2,
    StableHlo.after_of_writes_sub main_part1_ops0 _ Tail.writes1 h1, StableHlo.after_of_writes_sub main_part0_ops1 _ Tail.writes0 h0]

/-- An argument that is no array of the region ends as launched. -/
theorem arg_keep (c : Dev nD) (r : Ref sig .tc) (hr : ∀ w, Pipeline.arrRef spec0 w ≠ r) (hh : r ∉ headW) (h0 : r ∉ Tail.W0) (h1 : r ∉ Tail.W1)
    (h2 : r ∉ Tail.W2) (h3 : r ∉ Tail.W3) (h4 : r ∉ Tail.W4) (h5 : r ∉ Tail.W5) :
    Pipeline.afterTail₀ cfgs (dats m) 0 (V0 m) tailOps c r = m ((c : Thread nD τ).loc r) := by
  unfold Pipeline.afterTail₀
  refine (tail_keep _ r h0 h1 h2 h3 h4 h5).trans ?_
  refine (Pipeline.withArrays_of_ne _ c _ _ r hr).trans ?_
  exact V_keep m c r hh

theorem arr_ne (r : Ref sig .tc) (h0 : main_arg0 ≠ r) (h1 : main_v1 ≠ r) (h2 : main_v2 ≠ r) : ∀ w, Pipeline.arrRef spec0 w ≠ r := by
  intro w
  rcases arrRef_cases w with e | e | e <;> rw [e] <;> assumption

/-! ## The frame -/

/-- THE FRAME: every weakly fair execution of @main terminates, nothing faulting, the nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats m 0 c).arrAt_in 0 rfl _).trans ((A_eq m c 0).trans (V_keep m c main_arg0 (by decide)))),
      ((h c).2 main_arg1 (Pipeline.mem_restRefs_of main_arg1 (by decide) (by decide))).trans (arg_keep m c main_arg1 (arr_ne _ (by decide) (by decide) (by decide)) (by decide) (by decide) (by decide) (by decide) (by decide) (by decide) (by decide)),
      ((h c).2 main_arg2 (Pipeline.mem_restRefs_of main_arg2 (by decide) (by decide))).trans (arg_keep m c main_arg2 (arr_ne _ (by decide) (by decide) (by decide)) (by decide) (by decide) (by decide) (by decide) (by decide) (by decide) (by decide)),
      ((h c).2 main_arg3 (Pipeline.mem_restRefs_of main_arg3 (by decide) (by decide))).trans (arg_keep m c main_arg3 (arr_ne _ (by decide) (by decide) (by decide)) (by decide) (by decide) (by decide) (by decide) (by decide) (by decide) (by decide)),
      ((h c).2 main_arg4 (Pipeline.mem_restRefs_of main_arg4 (by decide) (by decide))).trans (arg_keep m c main_arg4 (arr_ne _ (by decide) (by decide) (by decide)) (by decide) (by decide) (by decide) (by decide) (by decide) (by decide) (by decide)),
      ((h c).2 main_arg5 (Pipeline.mem_restRefs_of main_arg5 (by decide) (by decide))).trans (arg_keep m c main_arg5 (arr_ne _ (by decide) (by decide) (by decide)) (by decide) (by decide) (by decide) (by decide) (by decide) (by decide) (by decide)),
      ((h c).2 main_arg6 (Pipeline.mem_restRefs_of main_arg6 (by decide) (by decide))).trans (arg_keep m c main_arg6 (arr_ne _ (by decide) (by decide) (by decide)) (by decide) (by decide) (by decide) (by decide) (by decide) (by decide) (by decide)),
      ((h c).2 main_arg7 (Pipeline.mem_restRefs_of main_arg7 (by decide) (by decide))).trans (arg_keep m c main_arg7 (arr_ne _ (by decide) (by decide) (by decide)) (by decide) (by decide) (by decide) (by decide) (by decide) (by decide) (by decide)),
      ((h c).2 main_arg8 (Pipeline.mem_restRefs_of main_arg8 (by decide) (by decide))).trans (arg_keep m c main_arg8 (arr_ne _ (by decide) (by decide) (by decide)) (by decide) (by decide) (by decide) (by decide) (by decide) (by decide) (by decide))⟩)
    (run_main m ρ)

end Cert.Kernel.Hand

end
-- ==== Proof.KIFrameDefs.lean ====
/-
  The region of `KernelIdeal` seen from outside: what the core's buffers hold when the region is entered (the two host
  lines before it — the transpose of the relation matrices and its reshape to `[128, 1024]` — applied to the launch
  memory), the host lines that follow the region, each window's block at a grid point, and what the body leaves in the
  output window's staging buffer: one store of the whole `[4000, 1024]` block, the matrix product of the point's
  `[4000, 128]` block of node features with the whole `[128, 1024]` matrix.
-/
import proofs.«123275_j54631984005526_2_alg».proof.Proof.Gen.KernelIdeal.Launch
import proofs.«123275_j54631984005526_2_alg».proof.Proof.Gen.KernelIdeal.Skeleton
import proofs.«123275_j54631984005526_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-- The host lines before the region, as the list of stretches the launch theorem takes. -/
abbrev headOps : List (List (HloOp τ sig (Elt F))) := [main_part0_ops0]

/-- The host lines after the region, stretch by stretch as the program's text is cut. -/
abbrev tailOps : List (List (HloOp τ sig (Elt F))) :=
  [main_part0_ops1, main_part1_ops0, main_part2_ops0, main_part3_ops0, main_part4_ops0, main_part5_ops0]

/-- Core `c`'s buffer contents when the region is entered, as a valuation: the launch memory after the two lines
    before the region. -/
abbrev V0 (c : Dev nD) : Valuation τ sig (Elt F) := StableHlo.after (List.flatten headOps) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's three accesses: each a whole staging buffer. -/
abbrev r0_0 : Rect S4000x128 := Rect.unit (s := S4000x128) ![0, 0] S4000x128.size inb_S4000x128_S4000x128_0_0
abbrev r0_1 : Rect S128x1024 := Rect.unit (s := S128x1024) ![0, 0] S128x1024.size inb_S128x1024_S128x1024_0_0
abbrev r0_2 : Rect S4000x1024 := Rect.unit (s := S4000x1024) ![0, 0] S4000x1024.size inb_S4000x1024_S4000x1024_0_0

/-- What the body leaves in the output window's staging buffer, from the two input blocks: its one store. -/
def out0_2 (x0 : Vec F S4000x128 .f32) (x1 : Vec F S128x1024 .f32) : Vec F S4000x1024 .bf16 :=
  View.canon [⟨r0_2, k0_pay1 (View.ld x0 r0_0) (View.ld x1 r0_1)⟩]

end Cert.KernelIdeal.Hand

end
-- ==== Proof.KIFrameBody.lean ====
/-
  The body of `KernelIdeal`'s one region at a grid point, as a triple: called with the two input windows' staging
  buffers holding their blocks and the output window's holding anything, it loads both inputs whole, stores the whole
  output block once, and returns the inputs as they were and the output buffer at `out0_2` of the input blocks.
  From it the proof data of the pipeline (the arrays as the region finds them; after the body each input buffer at its
  block, the output buffer at `out0_2` of the two blocks; nothing carried from point to point) and the obligation
  the launch theorem asks of the body at every point.
-/
import proofs.«123275_j54631984005526_2_alg».proof.Proof.KIFrameDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input windows' buffers hold their blocks -/

/-- Input window 0's current staging buffer holds its block at every point, for any proof data whose array is the
    region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block — the whole matrix — at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's triple -/

/-- The one store covers the output buffer. -/
theorem cover0_2 (p0 : Vec F S4000x1024 .bf16) (y : S4000x1024.Idx) :
    ∃ pc ∈ ([⟨r0_2, p0⟩] : List (View.Piece (Elt F) S4000x1024 .bf16)), y ∈ pc.1.set :=
  View.cover_of_tiled [⟨r0_2, p0⟩] S4000x1024.size (by rfl) y

set_option maxHeartbeats 4000000 in
/-- The body on whole staging memrefs: the inputs at contents `x0`, `x1`, the output at anything; it ends with the
    inputs unchanged and the output at `out0_2 x0 x1`. -/
theorem sound_kernel (c : Dev nD) (E : Set ℕ) (i : grid0.Coords) (arg1 : Memref sig .tc .vmem S4000x128 .f32) (harg1 : arg1.IsWhole) (arg2 : Memref sig .tc .vmem S128x1024 .f32) (harg2 : arg2.IsWhole) (arg3 : Memref sig .tc .vmem S4000x1024 .bf16) (harg3 : arg3.IsWhole)
    (x0 : Vec F S4000x128 .f32) (x1 : Vec F S128x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__transform_kernel i arg1 harg1 arg2 harg2 arg3 harg3) K := by
  simp only [cc0__transform_kernel_eq_skeleton]; unfold cc0__transform_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core `c`: the arrays as the region finds them; after the body at point `t`
    each input's buffer at its block and the output's at `out0_2` of the two blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the triple applies; the invariant and the core's
    debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorem's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KITailWrites.lean ====
/-
  The buffers each of the six stretches of host operations after the matmul region writes, and that none of
  these operations allocates a fresh buffer.
-/
import proofs.«123275_j54631984005526_2_alg».proof.Proof.Gen.KernelIdeal.Launch
import Idealize.ShloMosaic.Lib.StableHlo.Run

set_option maxRecDepth 8192

noncomputable section

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]

/-- The buffers stretch 0 writes, in order. -/
abbrev W0 : List (Ref sig .tc) := [main_cst, main_v3, main_cst_0, main_v4, main_cst_1, main_v5, main_v6, main_v7, main_c, main_v8, main_v9, main_c_2, main_v10, main_v11, main_v12, main_v13, main_v14, main_v15, main_v16, main_v17, main_v18, main_v19, main_v20, main_cst_3, main_v21, main_v22, main_v23, main_cst_4, main_v24, main_v25, main_v26, main_cst_5, main_v27, main_v28, main_v29, main_cst_6, main_v30, main_v31, main_v32, main_v33, main_v34, main_v35, main_v36, main_v37, main_cst_7, main_v38, main_v39, main_v40, main_v41, main_v42, main_v43, main_v44, main_c_8, main_v45, main_v46, main_c_9, main_v47]
set_option maxHeartbeats 4000000 in
theorem writes0 : (main_part0_ops1 : List (HloOp τ sig (Elt F))).Forall fun op => op.writes ⊆ (W0.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))
set_option maxHeartbeats 4000000 in
theorem fresh0 : (main_part0_ops1 : List (HloOp τ sig (Elt F))).Forall fun op => op.fresh = ∅ := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> rfl

/-- The buffers stretch 1 writes, in order. -/
abbrev W1 : List (Ref sig .tc) := [main_v48, main_v49, main_v50, main_v51, main_v52, main_v53, main_v54, main_v55, main_v56, main_v57, main_cst_10, main_v58, main_v59, main_v60, main_cst_11, main_v61, main_v62, main_v63, main_cst_12, main_v64, main_v65, main_v66, main_cst_13, main_v67, main_v68, main_v69, main_v70, main_v71, main_v72, main_v73, main_v74, main_cst_14, main_v75, main_v76, main_v77, main_v78, main_v79, main_v80, main_v81, main_c_15, main_v82, main_v83, main_c_16, main_v84, main_v85, main_v86, main_v87, main_v88, main_v89, main_v90, main_v91, main_v92, main_v93, main_v94, main_cst_17, main_v95, main_v96, main_v97, main_cst_18, main_v98]
set_option maxHeartbeats 4000000 in
theorem writes1 : (main_part1_ops0 : List (HloOp τ sig (Elt F))).Forall fun op => op.writes ⊆ (W1.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))
set_option maxHeartbeats 4000000 in
theorem fresh1 : (main_part1_ops0 : List (HloOp τ sig (Elt F))).Forall fun op => op.fresh = ∅ := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> rfl

/-- The buffers stretch 2 writes, in order. -/
abbrev W2 : List (Ref sig .tc) := [main_v99, main_v100, main_cst_19, main_v101, main_v102, main_v103, main_cst_20, main_v104, main_v105, main_v106, main_v107, main_v108, main_v109, main_v110, main_v111, main_cst_21, main_v112, main_v113, main_v114, main_v115, main_v116, main_v117, main_v118, main_c_22, main_v119, main_v120, main_c_23, main_v121, main_v122, main_v123, main_v124, main_v125, main_v126, main_v127, main_v128, main_v129, main_v130, main_v131, main_cst_24, main_v132, main_v133, main_v134, main_cst_25, main_v135, main_v136, main_v137, main_cst_26, main_v138, main_v139, main_v140, main_cst_27, main_v141, main_v142, main_v143, main_v144, main_v145, main_v146, main_v147, main_v148, main_cst_28]
set_option maxHeartbeats 4000000 in
theorem writes2 : (main_part2_ops0 : List (HloOp τ sig (Elt F))).Forall fun op => op.writes ⊆ (W2.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))
set_option maxHeartbeats 4000000 in
theorem fresh2 : (main_part2_ops0 : List (HloOp τ sig (Elt F))).Forall fun op => op.fresh = ∅ := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> rfl

/-- The buffers stretch 3 writes, in order. -/
abbrev W3 : List (Ref sig .tc) := [main_v149, main_v150, main_v151, main_v152, main_v153, main_v154, main_v155, main_c_29, main_v156, main_v157, main_c_30, main_v158, main_v159, main_v160, main_v161, main_v162, main_v163, main_v164, main_v165, main_v166, main_v167, main_v168, main_cst_31, main_v169, main_v170, main_v171, main_cst_32, main_v172, main_v173, main_v174, main_cst_33, main_v175, main_v176, main_v177, main_cst_34, main_v178, main_v179, main_v180, main_v181, main_v182, main_v183, main_v184, main_v185, main_cst_35, main_v186, main_v187, main_v188, main_v189, main_v190, main_v191, main_v192, main_c_36, main_v193, main_v194, main_c_37, main_v195, main_v196, main_v197, main_v198, main_v199]
set_option maxHeartbeats 4000000 in
theorem writes3 : (main_part3_ops0 : List (HloOp τ sig (Elt F))).Forall fun op => op.writes ⊆ (W3.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))
set_option maxHeartbeats 4000000 in
theorem fresh3 : (main_part3_ops0 : List (HloOp τ sig (Elt F))).Forall fun op => op.fresh = ∅ := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> rfl

/-- The buffers stretch 4 writes, in order. -/
abbrev W4 : List (Ref sig .tc) := [main_v200, main_v201, main_v202, main_v203, main_v204, main_v205, main_cst_38, main_v206, main_v207, main_v208, main_cst_39, main_v209, main_v210, main_v211, main_cst_40, main_v212, main_v213, main_v214, main_cst_41, main_v215, main_v216, main_v217, main_v218, main_v219, main_v220, main_v221, main_v222, main_cst_42, main_v223, main_v224, main_v225, main_v226, main_v227, main_v228, main_v229, main_c_43, main_v230, main_v231, main_c_44, main_v232, main_v233, main_v234, main_v235, main_v236, main_v237, main_v238, main_v239, main_v240, main_v241, main_v242, main_cst_45, main_v243, main_v244, main_v245, main_cst_46, main_v246, main_v247, main_v248, main_cst_47, main_v249]
set_option maxHeartbeats 4000000 in
theorem writes4 : (main_part4_ops0 : List (HloOp τ sig (Elt F))).Forall fun op => op.writes ⊆ (W4.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))
set_option maxHeartbeats 4000000 in
theorem fresh4 : (main_part4_ops0 : List (HloOp τ sig (Elt F))).Forall fun op => op.fresh = ∅ := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> rfl

/-- The buffers stretch 5 writes, in order. -/
abbrev W5 : List (Ref sig .tc) := [main_v250, main_v251, main_cst_48, main_v252, main_v253, main_v254, main_v255, main_v256, main_v257, main_v258, main_v259, main_cst_49, main_v260, main_v261, main_v262, main_v263, main_v264, main_cst_50, main_v265, main_v266, main_v267, main_v268, main_v269, main_v270, main_cst_51, main_v271, main_v272]
set_option maxHeartbeats 4000000 in
theorem writes5 : (main_part5_ops0 : List (HloOp τ sig (Elt F))).Forall fun op => op.writes ⊆ (W5.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))
set_option maxHeartbeats 4000000 in
theorem fresh5 : (main_part5_ops0 : List (HloOp τ sig (Elt F))).Forall fun op => op.fresh = ∅ := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_⟩ <;> rfl

end Cert.KernelIdeal.Tail

end
-- ==== Proof.KIFrameRun.lean ====
/-
  The frame of `KernelIdeal`: @main is two host lines, the region, and 324 host lines. The region runs under the launch
  theorem for a program that goes on after its region: the later lines touch only unscoped TensorCore buffers, allocate
  nothing and write none of the region's three arrays (the node features, the `[128, 1024]` matrix, the product), so
  the run ends with each array at what the pipeline's write-backs leave and every other buffer at what the later lines
  compute from the region's exit. No line of @main writes an argument, and window 0 is only read: the nine argument
  arrays end as launched.
-/
import proofs.«123275_j54631984005526_2_alg».proof.Proof.KIFrameBody
import proofs.«123275_j54631984005526_2_alg».proof.Proof.KITailWrites

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem head_fresh : (headOps : List (List (HloOp τ sig (Elt F)))).Forall fun ops => ops.Forall fun op => op.fresh = ∅ := by
  simp only [List.Forall]; repeat' constructor

/-- @main reduces to the region continued by the later lines, the buffers at their contents after the earlier two. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps : List (List (HloOp τ sig (Elt F)))).map StableHlo.seq)) :=
  Pipeline.hmain_around cfgs 0 defs₀ 𝒱₀ m main headOps tailOps (by simp only [List.Forall]; exact main_part0_ops0_sub)
    head_fresh main_chain_windows

/-- The later lines touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl
  · exact Pipeline.sub_ucRefs op ((List.forall_iff_forall_mem.mp main_part0_ops1_sub) op hop)
  · exact Pipeline.sub_ucRefs op ((List.forall_iff_forall_mem.mp main_part1_ops0_sub) op hop)
  · exact Pipeline.sub_ucRefs op ((List.forall_iff_forall_mem.mp main_part2_ops0_sub) op hop)
  · exact Pipeline.sub_ucRefs op ((List.forall_iff_forall_mem.mp main_part3_ops0_sub) op hop)
  · exact Pipeline.sub_ucRefs op ((List.forall_iff_forall_mem.mp main_part4_ops0_sub) op hop)
  · exact Pipeline.sub_ucRefs op ((List.forall_iff_forall_mem.mp main_part5_ops0_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl
  · exact (List.forall_iff_forall_mem.mp Tail.fresh0) op hop
  · exact (List.forall_iff_forall_mem.mp Tail.fresh1) op hop
  · exact (List.forall_iff_forall_mem.mp Tail.fresh2) op hop
  · exact (List.forall_iff_forall_mem.mp Tail.fresh3) op hop
  · exact (List.forall_iff_forall_mem.mp Tail.fresh4) op hop
  · exact (List.forall_iff_forall_mem.mp Tail.fresh5) op hop

/-- A reference outside a list holding everything a stretch writes is written by none of its lines. -/
theorem not_mem_writes_of {L : List (HloOp τ sig (Elt F))} {Wl : List (Ref sig .tc)}
    (h : L.Forall fun op => op.writes ⊆ (Wl.map (Proc.devRef (τ := τ) .tc)).toFinset) (r : Ref sig .tc) (hr : r ∉ Wl) :
    ∀ op ∈ L, Proc.devRef (τ := τ) .tc r ∉ op.writes := by
  intro op hop hmem
  obtain ⟨y, hy, he⟩ := List.mem_map.mp (List.mem_toFinset.mp ((List.forall_iff_forall_mem.mp h) op hop hmem))
  exact hr (Proc.devRef_injective _ he ▸ hy)

/-- The region's three arrays, as references. -/
theorem arrRef_cases (w : Fin 3) : Pipeline.arrRef spec0 w = main_arg0 ∨ Pipeline.arrRef spec0 w = main_v1 ∨ Pipeline.arrRef spec0 w = main_v2 := by
  fin_cases w
  · exact Or.inl rfl
  · exact Or.inr (Or.inl rfl)
  · exact Or.inr (Or.inr rfl)

/-- And they write none of the region's arrays. -/
theorem sfx_keeps : ∀ ops ∈ (tailOps : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases arrRef_cases w with e | e | e <;> rw [e] <;> rcases hops with rfl | rfl | rfl | rfl | rfl | rfl
  all_goals first
    | exact not_mem_writes_of Tail.writes0 _ (by decide) op hop
    | exact not_mem_writes_of Tail.writes1 _ (by decide) op hop
    | exact not_mem_writes_of Tail.writes2 _ (by decide) op hop
    | exact not_mem_writes_of Tail.writes3 _ (by decide) op hop
    | exact not_mem_writes_of Tail.writes4 _ (by decide) op hop
    | exact not_mem_writes_of Tail.writes5 _ (by decide) op hop

/-! ## The run -/

set_option backward.isDefEq.respectTransparency.types false in
/-- Every weakly fair execution of @main terminates, each array of the pipeline at what the write-backs leave and every
    other unscoped buffer as the later lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-! ## What is kept -/

/-- The buffers the two lines before the region write. -/
abbrev headW : List (Ref sig .tc) := [main_v0, main_v1]

theorem head_writes : (main_part0_ops0 : List (HloOp τ sig (Elt F))).Forall fun op => op.writes ⊆ (headW.map (Proc.devRef (τ := τ) .tc)).toFinset := by
  simp only [List.Forall]
  exact ⟨by simp only [StableHlo.unary_writes, StableHlo.reshape_writes, Finset.singleton_subset_iff, List.mem_toFinset]; exact List.mem_map_of_mem (by decide),
    by simp only [StableHlo.unary_writes, StableHlo.reshape_writes, Finset.singleton_subset_iff, List.mem_toFinset]; exact List.mem_map_of_mem (by decide)⟩

/-- A buffer the two lines before the region do not write enters the region as launched. -/
theorem V_keep (c : Dev nD) (r : Ref sig .tc) (h : r ∉ headW) : V m c r = m ((c : Thread nD τ).loc r) := by
  show StableHlo.after (main_part0_ops0 ++ []) (fun b => m (c, b)) (Proc.devRef .tc r) = _
  rw [List.append_nil]
  exact StableHlo.after_of_writes_sub main_part0_ops0 _ head_writes h

/-- A buffer no later line writes holds after them what it held at the region's exit. -/
theorem tail_keep (Wv : Valuation τ sig (Elt F)) (r : Ref sig .tc) (h0 : r ∉ Tail.W0) (h1 : r ∉ Tail.W1) (h2 : r ∉ Tail.W2)
    (h3 : r ∉ Tail.W3) (h4 : r ∉ Tail.W4) (h5 : r ∉ Tail.W5) :
    StableHlo.after (List.flatten (tailOps : List (List (HloOp τ sig (Elt F))))) Wv (Proc.devRef .tc r) = Wv (Proc.devRef .tc r) := by
  show StableHlo.after (main_part0_ops1 ++ (main_part1_ops0 ++ (main_part2_ops0 ++ (main_part3_ops0 ++ (main_part4_ops0 ++ (main_part5_ops0 ++ [])))))) Wv (Proc.devRef .tc r) = _
  rw [List.append_nil, StableHlo.after_append, StableHlo.after_append, StableHlo.after_append, StableHlo.after_append, StableHlo.after_append,
    StableHlo.after_of_writes_sub main_part5_ops0 _ Tail.writes5 h5, StableHlo.after_of_writes_sub main_part4_ops0 _ Tail.writes4 h4,
    StableHlo.after_of_writes_sub main_part3_ops0 _ Tail.writes3 h3, StableHlo.after_of_writes_sub main_part2_ops0 _ Tail.writes2 h2,
    StableHlo.after_of_writes_sub main_part1_ops0 _ Tail.writes1 h1, StableHlo.after_of_writes_sub main_part0_ops1 _ Tail.writes0 h0]

/-- An argument that is no array of the region ends as launched. -/
theorem arg_keep (c : Dev nD) (r : Ref sig .tc) (hr : ∀ w, Pipeline.arrRef spec0 w ≠ r) (hh : r ∉ headW) (h0 : r ∉ Tail.W0) (h1 : r ∉ Tail.W1)
    (h2 : r ∉ Tail.W2) (h3 : r ∉ Tail.W3) (h4 : r ∉ Tail.W4) (h5 : r ∉ Tail.W5) :
    Pipeline.afterTail₀ cfgs (dats m) 0 (V0 m) tailOps c r = m ((c : Thread nD τ).loc r) := by
  unfold Pipeline.afterTail₀
  refine (tail_keep _ r h0 h1 h2 h3 h4 h5).trans ?_
  refine (Pipeline.withArrays_of_ne _ c _ _ r hr).trans ?_
  exact V_keep m c r hh

theorem arr_ne (r : Ref sig .tc) (h0 : main_arg0 ≠ r) (h1 : main_v1 ≠ r) (h2 : main_v2 ≠ r) : ∀ w, Pipeline.arrRef spec0 w ≠ r := by
  intro w
  rcases arrRef_cases w with e | e | e <;> rw [e] <;> assumption

/-! ## The frame -/

/-- THE FRAME: every weakly fair execution of @main terminates, nothing faulting, the nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats m 0 c).arrAt_in 0 rfl _).trans ((A_eq m c 0).trans (V_keep m c main_arg0 (by decide)))),
      ((h c).2 main_arg1 (Pipeline.mem_restRefs_of main_arg1 (by decide) (by decide))).trans (arg_keep m c main_arg1 (arr_ne _ (by decide) (by decide) (by decide)) (by decide) (by decide) (by decide) (by decide) (by decide) (by decide) (by decide)),
      ((h c).2 main_arg2 (Pipeline.mem_restRefs_of main_arg2 (by decide) (by decide))).trans (arg_keep m c main_arg2 (arr_ne _ (by decide) (by decide) (by decide)) (by decide) (by decide) (by decide) (by decide) (by decide) (by decide) (by decide)),
      ((h c).2 main_arg3 (Pipeline.mem_restRefs_of main_arg3 (by decide) (by decide))).trans (arg_keep m c main_arg3 (arr_ne _ (by decide) (by decide) (by decide)) (by decide) (by decide) (by decide) (by decide) (by decide) (by decide) (by decide)),
      ((h c).2 main_arg4 (Pipeline.mem_restRefs_of main_arg4 (by decide) (by decide))).trans (arg_keep m c main_arg4 (arr_ne _ (by decide) (by decide) (by decide)) (by decide) (by decide) (by decide) (by decide) (by decide) (by decide) (by decide)),
      ((h c).2 main_arg5 (Pipeline.mem_restRefs_of main_arg5 (by decide) (by decide))).trans (arg_keep m c main_arg5 (arr_ne _ (by decide) (by decide) (by decide)) (by decide) (by decide) (by decide) (by decide) (by decide) (by decide) (by decide)),
      ((h c).2 main_arg6 (Pipeline.mem_restRefs_of main_arg6 (by decide) (by decide))).trans (arg_keep m c main_arg6 (arr_ne _ (by decide) (by decide) (by decide)) (by decide) (by decide) (by decide) (by decide) (by decide) (by decide) (by decide)),
      ((h c).2 main_arg7 (Pipeline.mem_restRefs_of main_arg7 (by decide) (by decide))).trans (arg_keep m c main_arg7 (arr_ne _ (by decide) (by decide) (by decide)) (by decide) (by decide) (by decide) (by decide) (by decide) (by decide) (by decide)),
      ((h c).2 main_arg8 (Pipeline.mem_restRefs_of main_arg8 (by decide) (by decide))).trans (arg_keep m c main_arg8 (arr_ne _ (by decide) (by decide) (by decide)) (by decide) (by decide) (by decide) (by decide) (by decide) (by decide) (by decide))⟩)
    (run_main m ρ)

end Cert.KernelIdeal.Hand

end
-- ==== Proof.KITailDefs.lean ====
/-
  The host program after the matmul region, as a term.

  Each of the seven passes reads one edge list: its row 0 holds source indices (a negative one wraps by 100000),
  its row 1 destination indices. A pass gathers the rows of the product table at the sources, cuts out its own
  128 columns and the last 128 columns, widens them, adds them up per destination (segment sum), counts the edges
  per destination (segment sum of ones), and divides the own-column sum by the larger of the count and one. The
  seven quotients are added up from zero; the last-column sums and the counts are added up from zero over the
  seven passes and divided once; the total is divided by eight. The small definitions below name these pieces,
  so that each can be read at an entry on its own.
-/
import proofs.«123275_j54631984005526_2_alg».proof.Proof.Gen.KernelIdeal.Launch
import Idealize.ShloMosaic.Lib.StableHlo.Run

noncomputable section

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]

/-- Row 0 of an edge list as a vector: the source words. -/
def srcVec (e : (⟨S2x250000, .i32⟩ : BufTy).Contents (Elt F)) : (⟨S250000, .i32⟩ : BufTy).Contents (Elt F) :=
  shapeCast _ (extractStridedSlice S1x250000 ![0, 0] e slices_S2x250000_S1x250000_0_0) shapeCasts_S1x250000_S250000

/-- Row 1 of an edge list as a vector: the destination words. -/
def dstVec (e : (⟨S2x250000, .i32⟩ : BufTy).Contents (Elt F)) : (⟨S250000, .i32⟩ : BufTy).Contents (Elt F) :=
  shapeCast _ (extractStridedSlice S1x250000 ![1, 0] e slices_S2x250000_S1x250000_1_0) shapeCasts_S1x250000_S250000

/-- The vector of zeros the source words are compared with. -/
def zerosI : (⟨S250000, .i32⟩ : BufTy).Contents (Elt F) := broadcastInDim S250000 ![] bcast_S_S250000 (constantI S_ 32 0#32)

/-- The vector holding the number of nodes, added to a negative source word. -/
def nodesI : (⟨S250000, .i32⟩ : BufTy).Contents (Elt F) := broadcastInDim S250000 ![] bcast_S_S250000 (constantI S_ 32 100000#32)

/-- Which source words are negative. -/
def srcNeg (s : (⟨S250000, .i32⟩ : BufTy).Contents (Elt F)) : (⟨S250000, .i1⟩ : BufTy).Contents (Elt F) := cmpi .slt s (zerosI (F := F))

/-- The column of start indices from the source words `s`, the flags `c` and the wrap amounts `n`. -/
def srcColOf (s : (⟨S250000, .i32⟩ : BufTy).Contents (Elt F)) (c : (⟨S250000, .i1⟩ : BufTy).Contents (Elt F)) (n : (⟨S250000, .i32⟩ : BufTy).Contents (Elt F)) : (⟨S250000x1, .i32⟩ : BufTy).Contents (Elt F) :=
  broadcastInDim S250000x1 ![0] bcast_S250000_S250000x1_0 (select c (addi s n) s)

/-- The column of start indices of an edge list: a negative source word wraps by the number of nodes. -/
def srcCol (e : (⟨S2x250000, .i32⟩ : BufTy).Contents (Elt F)) : (⟨S250000x1, .i32⟩ : BufTy).Contents (Elt F) :=
  srcColOf (srcVec e) (srcNeg (srcVec e)) (nodesI (F := F))

/-- The column of destination indices from the destination words. -/
def dstColOf (v : (⟨S250000, .i32⟩ : BufTy).Contents (Elt F)) : (⟨S250000x1, .i32⟩ : BufTy).Contents (Elt F) :=
  broadcastInDim S250000x1 ![0] bcast_S250000_S250000x1_0 v

/-- The column of destination indices of an edge list. -/
def dstCol (e : (⟨S2x250000, .i32⟩ : BufTy).Contents (Elt F)) : (⟨S250000x1, .i32⟩ : BufTy).Contents (Elt F) := dstColOf (dstVec e)

/-- The rows of the table `H` at a column of start indices. -/
def rowsOf (H : (⟨S100000x1024, .bf16⟩ : BufTy).Contents (Elt F)) (c : (⟨S250000x1, .i32⟩ : BufTy).Contents (Elt F)) : (⟨S250000x1024, .bf16⟩ : BufTy).Contents (Elt F) :=
  Host.gather gather_S100000x1024_S250000x1_S250000x1024_1_0_n_n_0_1_11024 H c

/-- The rows of the table `H` at the sources of an edge list. -/
def rows (H : (⟨S100000x1024, .bf16⟩ : BufTy).Contents (Elt F)) (e : (⟨S2x250000, .i32⟩ : BufTy).Contents (Elt F)) : (⟨S250000x1024, .bf16⟩ : BufTy).Contents (Elt F) :=
  rowsOf H (srcCol e)

/-- The 128 columns of the gathered rows from column `off 1` on, widened. -/
def msgsAt (off : Fin 2 → Nat) (h : S250000x1024.Slices off S250000x128) (R : (⟨S250000x1024, .bf16⟩ : BufTy).Contents (Elt F)) : (⟨S250000x128, .f32⟩ : BufTy).Contents (Elt F) :=
  extf .f32 (extractStridedSlice S250000x128 off R h) bitsLt_bf16_f32

/-- The last 128 columns of the gathered rows, widened: the messages of the pass over all lists. -/
def msgsG (R : (⟨S250000x1024, .bf16⟩ : BufTy).Contents (Elt F)) : (⟨S250000x128, .f32⟩ : BufTy).Contents (Elt F) :=
  msgsAt ![0, 896] slices_S250000x1024_S250000x128_0_896 R

/-- The zero tables and vectors the sums start from, the ones counted, the ones compared with, the eights. -/
def zeros2 : (⟨S100000x128, .f32⟩ : BufTy).Contents (Elt F) := broadcastInDim S100000x128 ![] bcast_S_S100000x128 (constant S_ .f32 0x00000000#32)
def zeros1 : (⟨S100000, .f32⟩ : BufTy).Contents (Elt F) := broadcastInDim S100000 ![] bcast_S_S100000 (constant S_ .f32 0x00000000#32)
def onesE : (⟨S250000, .f32⟩ : BufTy).Contents (Elt F) := broadcastInDim S250000 ![] bcast_S_S250000 (constant S_ .f32 0x3F800000#32)
def ones1 : (⟨S100000, .f32⟩ : BufTy).Contents (Elt F) := broadcastInDim S100000 ![] bcast_S_S100000 (constant S_ .f32 0x3F800000#32)
def eights : (⟨S100000x128, .f32⟩ : BufTy).Contents (Elt F) := broadcastInDim S100000x128 ![] bcast_S_S100000x128 (constant S_ .f32 0x41000000#32)

/-- The segment sum of the messages `m` at the destination column `d`. -/
def segS (d : (⟨S250000x1, .i32⟩ : BufTy).Contents (Elt F)) (m : (⟨S250000x128, .f32⟩ : BufTy).Contents (Elt F)) : (⟨S100000x128, .f32⟩ : BufTy).Contents (Elt F) :=
  Host.scatterAdd scatter_S100000x128_S250000x1_S250000x128_1_0_0_1 zeros2 d m

/-- The segment count at the destination column `d`: the segment sum of ones. -/
def segC (d : (⟨S250000x1, .i32⟩ : BufTy).Contents (Elt F)) : (⟨S100000, .f32⟩ : BufTy).Contents (Elt F) :=
  Host.scatterAdd scatter_S100000_S250000x1_S250000_n_0_0_1 zeros1 d onesE

/-- The divisor table of a count vector: the larger of the count and one, repeated along the features. -/
def denom (C : (⟨S100000, .f32⟩ : BufTy).Contents (Elt F)) : (⟨S100000x128, .f32⟩ : BufTy).Contents (Elt F) :=
  broadcastInDim S100000x128 ![0, 1] bcast_S100000x1_S100000x128_0_1 (broadcastInDim S100000x1 ![0] bcast_S100000_S100000x1_0 (maximumf C ones1))

/-- The mean of a sum table and a count vector. -/
def meanOf (S : (⟨S100000x128, .f32⟩ : BufTy).Contents (Elt F)) (C : (⟨S100000, .f32⟩ : BufTy).Contents (Elt F)) : (⟨S100000x128, .f32⟩ : BufTy).Contents (Elt F) := Host.divf S (denom C)

/-- A pass's own mean: its own 128 columns summed per destination, over the count. -/
def pmean (H : (⟨S100000x1024, .bf16⟩ : BufTy).Contents (Elt F)) (e : (⟨S2x250000, .i32⟩ : BufTy).Contents (Elt F)) (off : Fin 2 → Nat) (h : S250000x1024.Slices off S250000x128) : (⟨S100000x128, .f32⟩ : BufTy).Contents (Elt F) :=
  meanOf (segS (dstCol e) (msgsAt off h (rows H e))) (segC (dstCol e))

/-- A pass's contribution to the sum over all lists: the last 128 columns summed per destination. -/
def pglob (H : (⟨S100000x1024, .bf16⟩ : BufTy).Contents (Elt F)) (e : (⟨S2x250000, .i32⟩ : BufTy).Contents (Elt F)) : (⟨S100000x128, .f32⟩ : BufTy).Contents (Elt F) :=
  segS (dstCol e) (msgsG (rows H e))

/-- A pass's count vector. -/
def pcnt (e : (⟨S2x250000, .i32⟩ : BufTy).Contents (Elt F)) : (⟨S100000, .f32⟩ : BufTy).Contents (Elt F) := segC (dstCol e)

/-- The first 1 own mean added up from zero, in order. -/
def outSum1 (H : (⟨S100000x1024, .bf16⟩ : BufTy).Contents (Elt F)) (e0 : (⟨S2x250000, .i32⟩ : BufTy).Contents (Elt F)) : (⟨S100000x128, .f32⟩ : BufTy).Contents (Elt F) :=
  addf (zeros2) (pmean H e0 ![0, 0] slices_S250000x1024_S250000x128_0_0)

/-- The first 2 own means added up from zero, in order. -/
def outSum2 (H : (⟨S100000x1024, .bf16⟩ : BufTy).Contents (Elt F)) (e0 e1 : (⟨S2x250000, .i32⟩ : BufTy).Contents (Elt F)) : (⟨S100000x128, .f32⟩ : BufTy).Contents (Elt F) :=
  addf (outSum1 H e0) (pmean H e1 ![0, 128] slices_S250000x1024_S250000x128_0_128)

/-- The first 3 own means added up from zero, in order. -/
def outSum3 (H : (⟨S100000x1024, .bf16⟩ : BufTy).Contents (Elt F)) (e0 e1 e2 : (⟨S2x250000, .i32⟩ : BufTy).Contents (Elt F)) : (⟨S100000x128, .f32⟩ : BufTy).Contents (Elt F) :=
  addf (outSum2 H e0 e1) (pmean H e2 ![0, 256] slices_S250000x1024_S250000x128_0_256)

/-- The first 4 own means added up from zero, in order. -/
def outSum4 (H : (⟨S100000x1024, .bf16⟩ : BufTy).Contents (Elt F)) (e0 e1 e2 e3 : (⟨S2x250000, .i32⟩ : BufTy).Contents (Elt F)) : (⟨S100000x128, .f32⟩ : BufTy).Contents (Elt F) :=
  addf (outSum3 H e0 e1 e2) (pmean H e3 ![0, 384] slices_S250000x1024_S250000x128_0_384)

/-- The first 5 own means added up from zero, in order. -/
def outSum5 (H : (⟨S100000x1024, .bf16⟩ : BufTy).Contents (Elt F)) (e0 e1 e2 e3 e4 : (⟨S2x250000, .i32⟩ : BufTy).Contents (Elt F)) : (⟨S100000x128, .f32⟩ : BufTy).Contents (Elt F) :=
  addf (outSum4 H e0 e1 e2 e3) (pmean H e4 ![0, 512] slices_S250000x1024_S250000x128_0_512)

/-- The first 6 own means added up from zero, in order. -/
def outSum6 (H : (⟨S100000x1024, .bf16⟩ : BufTy).Contents (Elt F)) (e0 e1 e2 e3 e4 e5 : (⟨S2x250000, .i32⟩ : BufTy).Contents (Elt F)) : (⟨S100000x128, .f32⟩ : BufTy).Contents (Elt F) :=
  addf (outSum5 H e0 e1 e2 e3 e4) (pmean H e5 ![0, 640] slices_S250000x1024_S250000x128_0_640)

/-- The first 7 own means added up from zero, in order. -/
def outSum7 (H : (⟨S100000x1024, .bf16⟩ : BufTy).Contents (Elt F)) (e0 e1 e2 e3 e4 e5 e6 : (⟨S2x250000, .i32⟩ : BufTy).Contents (Elt F)) : (⟨S100000x128, .f32⟩ : BufTy).Contents (Elt F) :=
  addf (outSum6 H e0 e1 e2 e3 e4 e5) (pmean H e6 ![0, 768] slices_S250000x1024_S250000x128_0_768)

/-- The first 1 last-column sum added up from zero, in order. -/
def gSum1 (H : (⟨S100000x1024, .bf16⟩ : BufTy).Contents (Elt F)) (e0 : (⟨S2x250000, .i32⟩ : BufTy).Contents (Elt F)) : (⟨S100000x128, .f32⟩ : BufTy).Contents (Elt F) :=
  addf (zeros2) (pglob H e0)

/-- The first 2 last-column sums added up from zero, in order. -/
def gSum2 (H : (⟨S100000x1024, .bf16⟩ : BufTy).Contents (Elt F)) (e0 e1 : (⟨S2x250000, .i32⟩ : BufTy).Contents (Elt F)) : (⟨S100000x128, .f32⟩ : BufTy).Contents (Elt F) :=
  addf (gSum1 H e0) (pglob H e1)

/-- The first 3 last-column sums added up from zero, in order. -/
def gSum3 (H : (⟨S100000x1024, .bf16⟩ : BufTy).Contents (Elt F)) (e0 e1 e2 : (⟨S2x250000, .i32⟩ : BufTy).Contents (Elt F)) : (⟨S100000x128, .f32⟩ : BufTy).Contents (Elt F) :=
  addf (gSum2 H e0 e1) (pglob H e2)

/-- The first 4 last-column sums added up from zero, in order. -/
def gSum4 (H : (⟨S100000x1024, .bf16⟩ : BufTy).Contents (Elt F)) (e0 e1 e2 e3 : (⟨S2x250000, .i32⟩ : BufTy).Contents (Elt F)) : (⟨S100000x128, .f32⟩ : BufTy).Contents (Elt F) :=
  addf (gSum3 H e0 e1 e2) (pglob H e3)

/-- The first 5 last-column sums added up from zero, in order. -/
def gSum5 (H : (⟨S100000x1024, .bf16⟩ : BufTy).Contents (Elt F)) (e0 e1 e2 e3 e4 : (⟨S2x250000, .i32⟩ : BufTy).Contents (Elt F)) : (⟨S100000x128, .f32⟩ : BufTy).Contents (Elt F) :=
  addf (gSum4 H e0 e1 e2 e3) (pglob H e4)

/-- The first 6 last-column sums added up from zero, in order. -/
def gSum6 (H : (⟨S100000x1024, .bf16⟩ : BufTy).Contents (Elt F)) (e0 e1 e2 e3 e4 e5 : (⟨S2x250000, .i32⟩ : BufTy).Contents (Elt F)) : (⟨S100000x128, .f32⟩ : BufTy).Contents (Elt F) :=
  addf (gSum5 H e0 e1 e2 e3 e4) (pglob H e5)

/-- The first 7 last-column sums added up from zero, in order. -/
def gSum7 (H : (⟨S100000x1024, .bf16⟩ : BufTy).Contents (Elt F)) (e0 e1 e2 e3 e4 e5 e6 : (⟨S2x250000, .i32⟩ : BufTy).Contents (Elt F)) : (⟨S100000x128, .f32⟩ : BufTy).Contents (Elt F) :=
  addf (gSum6 H e0 e1 e2 e3 e4 e5) (pglob H e6)

/-- The first 1 count vector added up from zero, in order. -/
def gCnt1 (e0 : (⟨S2x250000, .i32⟩ : BufTy).Contents (Elt F)) : (⟨S100000, .f32⟩ : BufTy).Contents (Elt F) :=
  addf (zeros1) (pcnt e0)

/-- The first 2 count vectors added up from zero, in order. -/
def gCnt2 (e0 e1 : (⟨S2x250000, .i32⟩ : BufTy).Contents (Elt F)) : (⟨S100000, .f32⟩ : BufTy).Contents (Elt F) :=
  addf (gCnt1 e0) (pcnt e1)

/-- The first 3 count vectors added up from zero, in order. -/
def gCnt3 (e0 e1 e2 : (⟨S2x250000, .i32⟩ : BufTy).Contents (Elt F)) : (⟨S100000, .f32⟩ : BufTy).Contents (Elt F) :=
  addf (gCnt2 e0 e1) (pcnt e2)

/-- The first 4 count vectors added up from zero, in order. -/
def gCnt4 (e0 e1 e2 e3 : (⟨S2x250000, .i32⟩ : BufTy).Contents (Elt F)) : (⟨S100000, .f32⟩ : BufTy).Contents (Elt F) :=
  addf (gCnt3 e0 e1 e2) (pcnt e3)

/-- The first 5 count vectors added up from zero, in order. -/
def gCnt5 (e0 e1 e2 e3 e4 : (⟨S2x250000, .i32⟩ : BufTy).Contents (Elt F)) : (⟨S100000, .f32⟩ : BufTy).Contents (Elt F) :=
  addf (gCnt4 e0 e1 e2 e3) (pcnt e4)

/-- The first 6 count vectors added up from zero, in order. -/
def gCnt6 (e0 e1 e2 e3 e4 e5 : (⟨S2x250000, .i32⟩ : BufTy).Contents (Elt F)) : (⟨S100000, .f32⟩ : BufTy).Contents (Elt F) :=
  addf (gCnt5 e0 e1 e2 e3 e4) (pcnt e5)

/-- The first 7 count vectors added up from zero, in order. -/
def gCnt7 (e0 e1 e2 e3 e4 e5 e6 : (⟨S2x250000, .i32⟩ : BufTy).Contents (Elt F)) : (⟨S100000, .f32⟩ : BufTy).Contents (Elt F) :=
  addf (gCnt6 e0 e1 e2 e3 e4 e5) (pcnt e6)

/-- THE TAIL: the result buffer's contents as a term of the product table and the seven edge lists: the seven
    own means and the mean over all lists, added up and divided by eight. -/
def tailK (H : (⟨S100000x1024, .bf16⟩ : BufTy).Contents (Elt F)) (e0 e1 e2 e3 e4 e5 e6 : (⟨S2x250000, .i32⟩ : BufTy).Contents (Elt F)) : (⟨S100000x128, .f32⟩ : BufTy).Contents (Elt F) :=
  Host.divf (addf (outSum7 H e0 e1 e2 e3 e4 e5 e6) (meanOf (gSum7 H e0 e1 e2 e3 e4 e5 e6) (gCnt7 e0 e1 e2 e3 e4 e5 e6))) eights

end Cert.KernelIdeal.Tail

end
-- ==== Proof.KITailRun0.lean ====
/-
  Stretch 0 of the host program after the matmul region, read back: from ANY buffer contents `V`, each buffer a
  later stretch reads holds, after the stretch's operations, the stated term of the contents `V` gives to the
  buffers the stretch itself reads.
-/
import proofs.«123275_j54631984005526_2_alg».proof.Proof.KITailDefs

noncomputable section

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]

set_option maxRecDepth 8192

set_option maxHeartbeats 4000000 in
theorem run0_main_v35 (V : Valuation τ sig (Elt F)) :
    after (main_part0_ops1 : List (HloOp τ sig (Elt F))) V (no_index (Proc.devRef .tc main_v35)) = outSum1 (V (Proc.devRef .tc main_v2)) (V (Proc.devRef .tc main_arg2)) := by
  simp only [main_part0_ops1]
  after_results_simp
  all_goals rfl

set_option maxHeartbeats 4000000 in
theorem run0_main_v41 (V : Valuation τ sig (Elt F)) :
    after (main_part0_ops1 : List (HloOp τ sig (Elt F))) V (no_index (Proc.devRef .tc main_v41)) = gSum1 (V (Proc.devRef .tc main_v2)) (V (Proc.devRef .tc main_arg2)) := by
  simp only [main_part0_ops1]
  after_results_simp
  all_goals rfl

set_option maxHeartbeats 4000000 in
theorem run0_main_v42 (V : Valuation τ sig (Elt F)) :
    after (main_part0_ops1 : List (HloOp τ sig (Elt F))) V (no_index (Proc.devRef .tc main_v42)) = gCnt1 (V (Proc.devRef .tc main_arg2)) := by
  simp only [main_part0_ops1]
  after_results_simp
  all_goals rfl

set_option maxHeartbeats 4000000 in
theorem run0_main_v44 (V : Valuation τ sig (Elt F)) :
    after (main_part0_ops1 : List (HloOp τ sig (Elt F))) V (no_index (Proc.devRef .tc main_v44)) = srcVec (V (Proc.devRef .tc main_arg3)) := by
  simp only [main_part0_ops1]
  after_results_simp
  all_goals rfl

set_option maxHeartbeats 4000000 in
theorem run0_main_v46 (V : Valuation τ sig (Elt F)) :
    after (main_part0_ops1 : List (HloOp τ sig (Elt F))) V (no_index (Proc.devRef .tc main_v46)) = srcNeg (srcVec (V (Proc.devRef .tc main_arg3))) := by
  simp only [main_part0_ops1]
  after_results_simp
  all_goals rfl

set_option maxHeartbeats 4000000 in
theorem run0_main_v47 (V : Valuation τ sig (Elt F)) :
    after (main_part0_ops1 : List (HloOp τ sig (Elt F))) V (no_index (Proc.devRef .tc main_v47)) = nodesI (F := F) := by
  simp only [main_part0_ops1]
  after_results_simp
  all_goals rfl

end Cert.KernelIdeal.Tail

end
-- ==== Proof.KITailRun1.lean ====
/-
  Stretch 1 of the host program after the matmul region, read back: from ANY buffer contents `V`, each buffer a
  later stretch reads holds, after the stretch's operations, the stated term of the contents `V` gives to the
  buffers the stretch itself reads.
-/
import proofs.«123275_j54631984005526_2_alg».proof.Proof.KITailDefs

noncomputable section

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]

set_option maxRecDepth 8192

set_option maxHeartbeats 4000000 in
theorem run1_main_v72 (V : Valuation τ sig (Elt F)) :
    after (main_part1_ops0 : List (HloOp τ sig (Elt F))) V (no_index (Proc.devRef .tc main_v72)) = addf (V (Proc.devRef .tc main_v35)) (meanOf (segS (dstCol (V (Proc.devRef .tc main_arg3))) (msgsAt ![0, 128] slices_S250000x1024_S250000x128_0_128 (rowsOf (V (Proc.devRef .tc main_v2)) (srcColOf (V (Proc.devRef .tc main_v44)) (V (Proc.devRef .tc main_v46)) (V (Proc.devRef .tc main_v47)))))) (segC (dstCol (V (Proc.devRef .tc main_arg3))))) := by
  simp only [main_part1_ops0]
  after_results_simp
  all_goals rfl

set_option maxHeartbeats 4000000 in
theorem run1_main_v78 (V : Valuation τ sig (Elt F)) :
    after (main_part1_ops0 : List (HloOp τ sig (Elt F))) V (no_index (Proc.devRef .tc main_v78)) = addf (V (Proc.devRef .tc main_v41)) (segS (dstCol (V (Proc.devRef .tc main_arg3))) (msgsG (rowsOf (V (Proc.devRef .tc main_v2)) (srcColOf (V (Proc.devRef .tc main_v44)) (V (Proc.devRef .tc main_v46)) (V (Proc.devRef .tc main_v47)))))) := by
  simp only [main_part1_ops0]
  after_results_simp
  all_goals rfl

set_option maxHeartbeats 4000000 in
theorem run1_main_v79 (V : Valuation τ sig (Elt F)) :
    after (main_part1_ops0 : List (HloOp τ sig (Elt F))) V (no_index (Proc.devRef .tc main_v79)) = addf (V (Proc.devRef .tc main_v42)) (segC (dstCol (V (Proc.devRef .tc main_arg3)))) := by
  simp only [main_part1_ops0]
  after_results_simp
  all_goals rfl

set_option maxHeartbeats 4000000 in
theorem run1_main_v92 (V : Valuation τ sig (Elt F)) :
    after (main_part1_ops0 : List (HloOp τ sig (Elt F))) V (no_index (Proc.devRef .tc main_v92)) = msgsG (rows (V (Proc.devRef .tc main_v2)) (V (Proc.devRef .tc main_arg4))) := by
  simp only [main_part1_ops0]
  after_results_simp
  all_goals rfl

set_option maxHeartbeats 4000000 in
theorem run1_main_v97 (V : Valuation τ sig (Elt F)) :
    after (main_part1_ops0 : List (HloOp τ sig (Elt F))) V (no_index (Proc.devRef .tc main_v97)) = segS (dstCol (V (Proc.devRef .tc main_arg4))) (msgsAt ![0, 256] slices_S250000x1024_S250000x128_0_256 (rows (V (Proc.devRef .tc main_v2)) (V (Proc.devRef .tc main_arg4)))) := by
  simp only [main_part1_ops0]
  after_results_simp
  all_goals rfl

set_option maxHeartbeats 4000000 in
theorem run1_main_v98 (V : Valuation τ sig (Elt F)) :
    after (main_part1_ops0 : List (HloOp τ sig (Elt F))) V (no_index (Proc.devRef .tc main_v98)) = onesE (F := F) := by
  simp only [main_part1_ops0]
  after_results_simp
  all_goals rfl

end Cert.KernelIdeal.Tail

end
-- ==== Proof.KITailRun2.lean ====
/-
  Stretch 2 of the host program after the matmul region, read back: from ANY buffer contents `V`, each buffer a
  later stretch reads holds, after the stretch's operations, the stated term of the contents `V` gives to the
  buffers the stretch itself reads.
-/
import proofs.«123275_j54631984005526_2_alg».proof.Proof.KITailDefs

noncomputable section

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]

set_option maxRecDepth 8192

set_option maxHeartbeats 4000000 in
theorem run2_main_v146 (V : Valuation τ sig (Elt F)) :
    after (main_part2_ops0 : List (HloOp τ sig (Elt F))) V (no_index (Proc.devRef .tc main_v146)) = addf (addf (V (Proc.devRef .tc main_v72)) (Host.divf (V (Proc.devRef .tc main_v97)) (denom (Host.scatterAdd scatter_S100000_S250000x1_S250000_n_0_0_1 zeros1 (dstCol (V (Proc.devRef .tc main_arg4))) (V (Proc.devRef .tc main_v98)))))) (pmean (V (Proc.devRef .tc main_v2)) (V (Proc.devRef .tc main_arg5)) ![0, 384] slices_S250000x1024_S250000x128_0_384) := by
  simp only [main_part2_ops0]
  after_results_simp
  all_goals rfl

set_option maxHeartbeats 4000000 in
theorem run2_main_v115 (V : Valuation τ sig (Elt F)) :
    after (main_part2_ops0 : List (HloOp τ sig (Elt F))) V (no_index (Proc.devRef .tc main_v115)) = addf (V (Proc.devRef .tc main_v78)) (segS (dstCol (V (Proc.devRef .tc main_arg4))) (V (Proc.devRef .tc main_v92))) := by
  simp only [main_part2_ops0]
  after_results_simp
  all_goals rfl

set_option maxHeartbeats 4000000 in
theorem run2_main_v116 (V : Valuation τ sig (Elt F)) :
    after (main_part2_ops0 : List (HloOp τ sig (Elt F))) V (no_index (Proc.devRef .tc main_v116)) = addf (V (Proc.devRef .tc main_v79)) (Host.scatterAdd scatter_S100000_S250000x1_S250000_n_0_0_1 zeros1 (dstCol (V (Proc.devRef .tc main_arg4))) (V (Proc.devRef .tc main_v98))) := by
  simp only [main_part2_ops0]
  after_results_simp
  all_goals rfl

set_option maxHeartbeats 4000000 in
theorem run2_main_v129 (V : Valuation τ sig (Elt F)) :
    after (main_part2_ops0 : List (HloOp τ sig (Elt F))) V (no_index (Proc.devRef .tc main_v129)) = msgsG (rows (V (Proc.devRef .tc main_v2)) (V (Proc.devRef .tc main_arg5))) := by
  simp only [main_part2_ops0]
  after_results_simp
  all_goals rfl

set_option maxHeartbeats 4000000 in
theorem run2_main_v140 (V : Valuation τ sig (Elt F)) :
    after (main_part2_ops0 : List (HloOp τ sig (Elt F))) V (no_index (Proc.devRef .tc main_v140)) = pcnt (V (Proc.devRef .tc main_arg5)) := by
  simp only [main_part2_ops0]
  after_results_simp
  all_goals rfl

set_option maxHeartbeats 4000000 in
theorem run2_main_v148 (V : Valuation τ sig (Elt F)) :
    after (main_part2_ops0 : List (HloOp τ sig (Elt F))) V (no_index (Proc.devRef .tc main_v148)) = dstVec (V (Proc.devRef .tc main_arg5)) := by
  simp only [main_part2_ops0]
  after_results_simp
  all_goals rfl

set_option maxHeartbeats 4000000 in
theorem run2_main_cst_28 (V : Valuation τ sig (Elt F)) :
    after (main_part2_ops0 : List (HloOp τ sig (Elt F))) V (no_index (Proc.devRef .tc main_cst_28)) = constant S_ .f32 0x00000000#32 := by
  simp only [main_part2_ops0]
  after_results_simp
  all_goals rfl

end Cert.KernelIdeal.Tail

end
-- ==== Proof.KITailRun3.lean ====
/-
  Stretch 3 of the host program after the matmul region, read back: from ANY buffer contents `V`, each buffer a
  later stretch reads holds, after the stretch's operations, the stated term of the contents `V` gives to the
  buffers the stretch itself reads.
-/
import proofs.«123275_j54631984005526_2_alg».proof.Proof.KITailDefs

noncomputable section

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]

set_option maxRecDepth 8192

set_option maxHeartbeats 4000000 in
theorem run3_main_v183 (V : Valuation τ sig (Elt F)) :
    after (main_part3_ops0 : List (HloOp τ sig (Elt F))) V (no_index (Proc.devRef .tc main_v183)) = addf (V (Proc.devRef .tc main_v146)) (pmean (V (Proc.devRef .tc main_v2)) (V (Proc.devRef .tc main_arg6)) ![0, 512] slices_S250000x1024_S250000x128_0_512) := by
  simp only [main_part3_ops0]
  after_results_simp
  all_goals rfl

set_option maxHeartbeats 4000000 in
theorem run3_main_v189 (V : Valuation τ sig (Elt F)) :
    after (main_part3_ops0 : List (HloOp τ sig (Elt F))) V (no_index (Proc.devRef .tc main_v189)) = addf (addf (V (Proc.devRef .tc main_v115)) (Host.scatterAdd scatter_S100000x128_S250000x1_S250000x128_1_0_0_1 (broadcastInDim S100000x128 ![] bcast_S_S100000x128 (V (Proc.devRef .tc main_cst_28))) (dstColOf (V (Proc.devRef .tc main_v148))) (V (Proc.devRef .tc main_v129)))) (pglob (V (Proc.devRef .tc main_v2)) (V (Proc.devRef .tc main_arg6))) := by
  simp only [main_part3_ops0]
  after_results_simp
  all_goals rfl

set_option maxHeartbeats 4000000 in
theorem run3_main_v190 (V : Valuation τ sig (Elt F)) :
    after (main_part3_ops0 : List (HloOp τ sig (Elt F))) V (no_index (Proc.devRef .tc main_v190)) = addf (addf (V (Proc.devRef .tc main_v116)) (V (Proc.devRef .tc main_v140))) (pcnt (V (Proc.devRef .tc main_arg6))) := by
  simp only [main_part3_ops0]
  after_results_simp
  all_goals rfl

set_option maxHeartbeats 4000000 in
theorem run3_main_v199 (V : Valuation τ sig (Elt F)) :
    after (main_part3_ops0 : List (HloOp τ sig (Elt F))) V (no_index (Proc.devRef .tc main_v199)) = rows (V (Proc.devRef .tc main_v2)) (V (Proc.devRef .tc main_arg7)) := by
  simp only [main_part3_ops0]
  after_results_simp
  all_goals rfl

end Cert.KernelIdeal.Tail

end
-- ==== Proof.KITailRun4.lean ====
/-
  Stretch 4 of the host program after the matmul region, read back: from ANY buffer contents `V`, each buffer a
  later stretch reads holds, after the stretch's operations, the stated term of the contents `V` gives to the
  buffers the stretch itself reads.
-/
import proofs.«123275_j54631984005526_2_alg».proof.Proof.KITailDefs

noncomputable section

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]

set_option maxRecDepth 8192

set_option maxHeartbeats 4000000 in
theorem run4_main_v220 (V : Valuation τ sig (Elt F)) :
    after (main_part4_ops0 : List (HloOp τ sig (Elt F))) V (no_index (Proc.devRef .tc main_v220)) = addf (V (Proc.devRef .tc main_v183)) (meanOf (segS (dstCol (V (Proc.devRef .tc main_arg7))) (msgsAt ![0, 640] slices_S250000x1024_S250000x128_0_640 (V (Proc.devRef .tc main_v199)))) (segC (dstCol (V (Proc.devRef .tc main_arg7))))) := by
  simp only [main_part4_ops0]
  after_results_simp
  all_goals rfl

set_option maxHeartbeats 4000000 in
theorem run4_main_v226 (V : Valuation τ sig (Elt F)) :
    after (main_part4_ops0 : List (HloOp τ sig (Elt F))) V (no_index (Proc.devRef .tc main_v226)) = addf (V (Proc.devRef .tc main_v189)) (segS (dstCol (V (Proc.devRef .tc main_arg7))) (msgsG (V (Proc.devRef .tc main_v199)))) := by
  simp only [main_part4_ops0]
  after_results_simp
  all_goals rfl

set_option maxHeartbeats 4000000 in
theorem run4_main_v227 (V : Valuation τ sig (Elt F)) :
    after (main_part4_ops0 : List (HloOp τ sig (Elt F))) V (no_index (Proc.devRef .tc main_v227)) = addf (V (Proc.devRef .tc main_v190)) (segC (dstCol (V (Proc.devRef .tc main_arg7)))) := by
  simp only [main_part4_ops0]
  after_results_simp
  all_goals rfl

set_option maxHeartbeats 4000000 in
theorem run4_main_v240 (V : Valuation τ sig (Elt F)) :
    after (main_part4_ops0 : List (HloOp τ sig (Elt F))) V (no_index (Proc.devRef .tc main_v240)) = msgsG (rows (V (Proc.devRef .tc main_v2)) (V (Proc.devRef .tc main_arg8))) := by
  simp only [main_part4_ops0]
  after_results_simp
  all_goals rfl

set_option maxHeartbeats 4000000 in
theorem run4_main_v245 (V : Valuation τ sig (Elt F)) :
    after (main_part4_ops0 : List (HloOp τ sig (Elt F))) V (no_index (Proc.devRef .tc main_v245)) = segS (dstCol (V (Proc.devRef .tc main_arg8))) (msgsAt ![0, 768] slices_S250000x1024_S250000x128_0_768 (rows (V (Proc.devRef .tc main_v2)) (V (Proc.devRef .tc main_arg8)))) := by
  simp only [main_part4_ops0]
  after_results_simp
  all_goals rfl

set_option maxHeartbeats 4000000 in
theorem run4_main_v246 (V : Valuation τ sig (Elt F)) :
    after (main_part4_ops0 : List (HloOp τ sig (Elt F))) V (no_index (Proc.devRef .tc main_v246)) = onesE (F := F) := by
  simp only [main_part4_ops0]
  after_results_simp
  all_goals rfl

set_option maxHeartbeats 4000000 in
theorem run4_main_v248 (V : Valuation τ sig (Elt F)) :
    after (main_part4_ops0 : List (HloOp τ sig (Elt F))) V (no_index (Proc.devRef .tc main_v248)) = dstVec (V (Proc.devRef .tc main_arg8)) := by
  simp only [main_part4_ops0]
  after_results_simp
  all_goals rfl

set_option maxHeartbeats 4000000 in
theorem run4_main_v249 (V : Valuation τ sig (Elt F)) :
    after (main_part4_ops0 : List (HloOp τ sig (Elt F))) V (no_index (Proc.devRef .tc main_v249)) = zeros1 (F := F) := by
  simp only [main_part4_ops0]
  after_results_simp
  all_goals rfl

end Cert.KernelIdeal.Tail

end
-- ==== Proof.KITailRun5.lean ====
/-
  Stretch 5 of the host program after the matmul region, read back: from ANY buffer contents `V`, each buffer a
  later stretch reads holds, after the stretch's operations, the stated term of the contents `V` gives to the
  buffers the stretch itself reads.
-/
import proofs.«123275_j54631984005526_2_alg».proof.Proof.KITailDefs

noncomputable section

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]

set_option maxRecDepth 8192

set_option maxHeartbeats 4000000 in
theorem run5_main_v272 (V : Valuation τ sig (Elt F)) :
    after (main_part5_ops0 : List (HloOp τ sig (Elt F))) V (no_index (Proc.devRef .tc main_v272)) = Host.divf (addf (addf (V (Proc.devRef .tc main_v220)) (Host.divf (V (Proc.devRef .tc main_v245)) (denom (Host.scatterAdd scatter_S100000_S250000x1_S250000_n_0_0_1 (V (Proc.devRef .tc main_v249)) (dstColOf (V (Proc.devRef .tc main_v248))) (V (Proc.devRef .tc main_v246)))))) (meanOf (addf (V (Proc.devRef .tc main_v226)) (segS (dstCol (V (Proc.devRef .tc main_arg8))) (V (Proc.devRef .tc main_v240)))) (addf (V (Proc.devRef .tc main_v227)) (Host.scatterAdd scatter_S100000_S250000x1_S250000_n_0_0_1 (V (Proc.devRef .tc main_v249)) (dstColOf (V (Proc.devRef .tc main_v248))) (V (Proc.devRef .tc main_v246)))))) eights := by
  simp only [main_part5_ops0]
  after_results_simp
  all_goals rfl

end Cert.KernelIdeal.Tail

end
-- ==== Proof.KITailResult.lean ====
/-
  The six stretches of the host program after the matmul region, composed: the result buffer holds `tailK` of
  the product table and the seven edge lists.

  `VJ Wv` is the buffer contents after the first `J` stretches from contents `Wv`. Stage by stage, each buffer a
  later stretch reads is identified with a term of `Wv` at the product table and the edge lists: a buffer the stage's
  stretch does not write keeps its contents, a buffer it writes is read by the stretch's own lemma and the previous
  stage's identifications.
-/
import proofs.«123275_j54631984005526_2_alg».proof.Proof.KITailWrites
import Idealize.ShloMosaic.Lib.Pipeline.Frame
import proofs.«123275_j54631984005526_2_alg».proof.Proof.KITailRun0
import proofs.«123275_j54631984005526_2_alg».proof.Proof.KITailRun1
import proofs.«123275_j54631984005526_2_alg».proof.Proof.KITailRun2
import proofs.«123275_j54631984005526_2_alg».proof.Proof.KITailRun3
import proofs.«123275_j54631984005526_2_alg».proof.Proof.KITailRun4
import proofs.«123275_j54631984005526_2_alg».proof.Proof.KITailRun5

noncomputable section

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]

set_option maxRecDepth 8192

/-- The buffer contents after the first 1 stretch. -/
def V1 (Wv : Valuation τ sig (Elt F)) : Valuation τ sig (Elt F) := after (main_part0_ops1 : List (HloOp τ sig (Elt F))) Wv
/-- A buffer stretch 0 does not write keeps its contents through it. -/
theorem V1_keep (Wv : Valuation τ sig (Elt F)) (r : Ref sig .tc) (h : r ∉ W0) :
    V1 Wv (Proc.devRef .tc r) = Wv (Proc.devRef .tc r) :=
  after_of_writes_sub _ _ writes0 h
theorem V1_main_v2 (Wv : Valuation τ sig (Elt F)) : V1 Wv (no_index (Proc.devRef .tc main_v2)) = (Wv (Proc.devRef .tc main_v2)) :=
  V1_keep Wv main_v2 (by decide)
theorem V1_main_arg2 (Wv : Valuation τ sig (Elt F)) : V1 Wv (no_index (Proc.devRef .tc main_arg2)) = (Wv (Proc.devRef .tc main_arg2)) :=
  V1_keep Wv main_arg2 (by decide)
theorem V1_main_arg3 (Wv : Valuation τ sig (Elt F)) : V1 Wv (no_index (Proc.devRef .tc main_arg3)) = (Wv (Proc.devRef .tc main_arg3)) :=
  V1_keep Wv main_arg3 (by decide)
theorem V1_main_arg4 (Wv : Valuation τ sig (Elt F)) : V1 Wv (no_index (Proc.devRef .tc main_arg4)) = (Wv (Proc.devRef .tc main_arg4)) :=
  V1_keep Wv main_arg4 (by decide)
theorem V1_main_arg5 (Wv : Valuation τ sig (Elt F)) : V1 Wv (no_index (Proc.devRef .tc main_arg5)) = (Wv (Proc.devRef .tc main_arg5)) :=
  V1_keep Wv main_arg5 (by decide)
theorem V1_main_arg6 (Wv : Valuation τ sig (Elt F)) : V1 Wv (no_index (Proc.devRef .tc main_arg6)) = (Wv (Proc.devRef .tc main_arg6)) :=
  V1_keep Wv main_arg6 (by decide)
theorem V1_main_arg7 (Wv : Valuation τ sig (Elt F)) : V1 Wv (no_index (Proc.devRef .tc main_arg7)) = (Wv (Proc.devRef .tc main_arg7)) :=
  V1_keep Wv main_arg7 (by decide)
theorem V1_main_arg8 (Wv : Valuation τ sig (Elt F)) : V1 Wv (no_index (Proc.devRef .tc main_arg8)) = (Wv (Proc.devRef .tc main_arg8)) :=
  V1_keep Wv main_arg8 (by decide)
set_option maxHeartbeats 1000000 in
theorem V1_main_v35 (Wv : Valuation τ sig (Elt F)) : V1 Wv (no_index (Proc.devRef .tc main_v35)) = outSum1 (Wv (Proc.devRef .tc main_v2)) (Wv (Proc.devRef .tc main_arg2)) :=
  run0_main_v35 Wv
set_option maxHeartbeats 1000000 in
theorem V1_main_v41 (Wv : Valuation τ sig (Elt F)) : V1 Wv (no_index (Proc.devRef .tc main_v41)) = gSum1 (Wv (Proc.devRef .tc main_v2)) (Wv (Proc.devRef .tc main_arg2)) :=
  run0_main_v41 Wv
set_option maxHeartbeats 1000000 in
theorem V1_main_v42 (Wv : Valuation τ sig (Elt F)) : V1 Wv (no_index (Proc.devRef .tc main_v42)) = gCnt1 (Wv (Proc.devRef .tc main_arg2)) :=
  run0_main_v42 Wv
set_option maxHeartbeats 1000000 in
theorem V1_main_v44 (Wv : Valuation τ sig (Elt F)) : V1 Wv (no_index (Proc.devRef .tc main_v44)) = srcVec (Wv (Proc.devRef .tc main_arg3)) :=
  run0_main_v44 Wv
set_option maxHeartbeats 1000000 in
theorem V1_main_v46 (Wv : Valuation τ sig (Elt F)) : V1 Wv (no_index (Proc.devRef .tc main_v46)) = srcNeg (srcVec (Wv (Proc.devRef .tc main_arg3))) :=
  run0_main_v46 Wv
set_option maxHeartbeats 1000000 in
theorem V1_main_v47 (Wv : Valuation τ sig (Elt F)) : V1 Wv (no_index (Proc.devRef .tc main_v47)) = nodesI (F := F) :=
  run0_main_v47 Wv

/-- The buffer contents after the first 2 stretches. -/
def V2 (Wv : Valuation τ sig (Elt F)) : Valuation τ sig (Elt F) := after (main_part1_ops0 : List (HloOp τ sig (Elt F))) (V1 Wv)
/-- A buffer stretch 1 does not write keeps its contents through it. -/
theorem V2_keep (Wv : Valuation τ sig (Elt F)) (r : Ref sig .tc) (h : r ∉ W1) :
    V2 Wv (Proc.devRef .tc r) = (V1 Wv) (Proc.devRef .tc r) :=
  after_of_writes_sub _ _ writes1 h
theorem V2_main_v2 (Wv : Valuation τ sig (Elt F)) : V2 Wv (no_index (Proc.devRef .tc main_v2)) = (Wv (Proc.devRef .tc main_v2)) :=
  (V2_keep Wv main_v2 (by decide)).trans (V1_main_v2 Wv)
theorem V2_main_arg2 (Wv : Valuation τ sig (Elt F)) : V2 Wv (no_index (Proc.devRef .tc main_arg2)) = (Wv (Proc.devRef .tc main_arg2)) :=
  (V2_keep Wv main_arg2 (by decide)).trans (V1_main_arg2 Wv)
theorem V2_main_arg3 (Wv : Valuation τ sig (Elt F)) : V2 Wv (no_index (Proc.devRef .tc main_arg3)) = (Wv (Proc.devRef .tc main_arg3)) :=
  (V2_keep Wv main_arg3 (by decide)).trans (V1_main_arg3 Wv)
theorem V2_main_arg4 (Wv : Valuation τ sig (Elt F)) : V2 Wv (no_index (Proc.devRef .tc main_arg4)) = (Wv (Proc.devRef .tc main_arg4)) :=
  (V2_keep Wv main_arg4 (by decide)).trans (V1_main_arg4 Wv)
theorem V2_main_arg5 (Wv : Valuation τ sig (Elt F)) : V2 Wv (no_index (Proc.devRef .tc main_arg5)) = (Wv (Proc.devRef .tc main_arg5)) :=
  (V2_keep Wv main_arg5 (by decide)).trans (V1_main_arg5 Wv)
theorem V2_main_arg6 (Wv : Valuation τ sig (Elt F)) : V2 Wv (no_index (Proc.devRef .tc main_arg6)) = (Wv (Proc.devRef .tc main_arg6)) :=
  (V2_keep Wv main_arg6 (by decide)).trans (V1_main_arg6 Wv)
theorem V2_main_arg7 (Wv : Valuation τ sig (Elt F)) : V2 Wv (no_index (Proc.devRef .tc main_arg7)) = (Wv (Proc.devRef .tc main_arg7)) :=
  (V2_keep Wv main_arg7 (by decide)).trans (V1_main_arg7 Wv)
theorem V2_main_arg8 (Wv : Valuation τ sig (Elt F)) : V2 Wv (no_index (Proc.devRef .tc main_arg8)) = (Wv (Proc.devRef .tc main_arg8)) :=
  (V2_keep Wv main_arg8 (by decide)).trans (V1_main_arg8 Wv)
set_option maxHeartbeats 1000000 in
theorem V2_main_v72 (Wv : Valuation τ sig (Elt F)) : V2 Wv (no_index (Proc.devRef .tc main_v72)) = outSum2 (Wv (Proc.devRef .tc main_v2)) (Wv (Proc.devRef .tc main_arg2)) (Wv (Proc.devRef .tc main_arg3)) :=
  (run1_main_v72 (V1 Wv)).trans (by simp only [V1_main_v35, V1_main_v41, V1_main_v42, V1_main_v44, V1_main_v46, V1_main_v47, V1_main_v2, V1_main_arg2, V1_main_arg3, V1_main_arg4, V1_main_arg5, V1_main_arg6, V1_main_arg7, V1_main_arg8] <;> rfl)
set_option maxHeartbeats 1000000 in
theorem V2_main_v78 (Wv : Valuation τ sig (Elt F)) : V2 Wv (no_index (Proc.devRef .tc main_v78)) = gSum2 (Wv (Proc.devRef .tc main_v2)) (Wv (Proc.devRef .tc main_arg2)) (Wv (Proc.devRef .tc main_arg3)) :=
  (run1_main_v78 (V1 Wv)).trans (by simp only [V1_main_v35, V1_main_v41, V1_main_v42, V1_main_v44, V1_main_v46, V1_main_v47, V1_main_v2, V1_main_arg2, V1_main_arg3, V1_main_arg4, V1_main_arg5, V1_main_arg6, V1_main_arg7, V1_main_arg8] <;> rfl)
set_option maxHeartbeats 1000000 in
theorem V2_main_v79 (Wv : Valuation τ sig (Elt F)) : V2 Wv (no_index (Proc.devRef .tc main_v79)) = gCnt2 (Wv (Proc.devRef .tc main_arg2)) (Wv (Proc.devRef .tc main_arg3)) :=
  (run1_main_v79 (V1 Wv)).trans (by simp only [V1_main_v35, V1_main_v41, V1_main_v42, V1_main_v44, V1_main_v46, V1_main_v47, V1_main_v2, V1_main_arg2, V1_main_arg3, V1_main_arg4, V1_main_arg5, V1_main_arg6, V1_main_arg7, V1_main_arg8] <;> rfl)
set_option maxHeartbeats 1000000 in
theorem V2_main_v92 (Wv : Valuation τ sig (Elt F)) : V2 Wv (no_index (Proc.devRef .tc main_v92)) = msgsG (rows (Wv (Proc.devRef .tc main_v2)) (Wv (Proc.devRef .tc main_arg4))) :=
  (run1_main_v92 (V1 Wv)).trans (by simp only [V1_main_v35, V1_main_v41, V1_main_v42, V1_main_v44, V1_main_v46, V1_main_v47, V1_main_v2, V1_main_arg2, V1_main_arg3, V1_main_arg4, V1_main_arg5, V1_main_arg6, V1_main_arg7, V1_main_arg8] <;> rfl)
set_option maxHeartbeats 1000000 in
theorem V2_main_v97 (Wv : Valuation τ sig (Elt F)) : V2 Wv (no_index (Proc.devRef .tc main_v97)) = segS (dstCol (Wv (Proc.devRef .tc main_arg4))) (msgsAt ![0, 256] slices_S250000x1024_S250000x128_0_256 (rows (Wv (Proc.devRef .tc main_v2)) (Wv (Proc.devRef .tc main_arg4)))) :=
  (run1_main_v97 (V1 Wv)).trans (by simp only [V1_main_v35, V1_main_v41, V1_main_v42, V1_main_v44, V1_main_v46, V1_main_v47, V1_main_v2, V1_main_arg2, V1_main_arg3, V1_main_arg4, V1_main_arg5, V1_main_arg6, V1_main_arg7, V1_main_arg8] <;> rfl)
set_option maxHeartbeats 1000000 in
theorem V2_main_v98 (Wv : Valuation τ sig (Elt F)) : V2 Wv (no_index (Proc.devRef .tc main_v98)) = onesE (F := F) :=
  (run1_main_v98 (V1 Wv)).trans (by simp only [V1_main_v35, V1_main_v41, V1_main_v42, V1_main_v44, V1_main_v46, V1_main_v47, V1_main_v2, V1_main_arg2, V1_main_arg3, V1_main_arg4, V1_main_arg5, V1_main_arg6, V1_main_arg7, V1_main_arg8] <;> rfl)

/-- The buffer contents after the first 3 stretches. -/
def V3 (Wv : Valuation τ sig (Elt F)) : Valuation τ sig (Elt F) := after (main_part2_ops0 : List (HloOp τ sig (Elt F))) (V2 Wv)
/-- A buffer stretch 2 does not write keeps its contents through it. -/
theorem V3_keep (Wv : Valuation τ sig (Elt F)) (r : Ref sig .tc) (h : r ∉ W2) :
    V3 Wv (Proc.devRef .tc r) = (V2 Wv) (Proc.devRef .tc r) :=
  after_of_writes_sub _ _ writes2 h
theorem V3_main_v2 (Wv : Valuation τ sig (Elt F)) : V3 Wv (no_index (Proc.devRef .tc main_v2)) = (Wv (Proc.devRef .tc main_v2)) :=
  (V3_keep Wv main_v2 (by decide)).trans (V2_main_v2 Wv)
theorem V3_main_arg2 (Wv : Valuation τ sig (Elt F)) : V3 Wv (no_index (Proc.devRef .tc main_arg2)) = (Wv (Proc.devRef .tc main_arg2)) :=
  (V3_keep Wv main_arg2 (by decide)).trans (V2_main_arg2 Wv)
theorem V3_main_arg3 (Wv : Valuation τ sig (Elt F)) : V3 Wv (no_index (Proc.devRef .tc main_arg3)) = (Wv (Proc.devRef .tc main_arg3)) :=
  (V3_keep Wv main_arg3 (by decide)).trans (V2_main_arg3 Wv)
theorem V3_main_arg4 (Wv : Valuation τ sig (Elt F)) : V3 Wv (no_index (Proc.devRef .tc main_arg4)) = (Wv (Proc.devRef .tc main_arg4)) :=
  (V3_keep Wv main_arg4 (by decide)).trans (V2_main_arg4 Wv)
theorem V3_main_arg5 (Wv : Valuation τ sig (Elt F)) : V3 Wv (no_index (Proc.devRef .tc main_arg5)) = (Wv (Proc.devRef .tc main_arg5)) :=
  (V3_keep Wv main_arg5 (by decide)).trans (V2_main_arg5 Wv)
theorem V3_main_arg6 (Wv : Valuation τ sig (Elt F)) : V3 Wv (no_index (Proc.devRef .tc main_arg6)) = (Wv (Proc.devRef .tc main_arg6)) :=
  (V3_keep Wv main_arg6 (by decide)).trans (V2_main_arg6 Wv)
theorem V3_main_arg7 (Wv : Valuation τ sig (Elt F)) : V3 Wv (no_index (Proc.devRef .tc main_arg7)) = (Wv (Proc.devRef .tc main_arg7)) :=
  (V3_keep Wv main_arg7 (by decide)).trans (V2_main_arg7 Wv)
theorem V3_main_arg8 (Wv : Valuation τ sig (Elt F)) : V3 Wv (no_index (Proc.devRef .tc main_arg8)) = (Wv (Proc.devRef .tc main_arg8)) :=
  (V3_keep Wv main_arg8 (by decide)).trans (V2_main_arg8 Wv)
set_option maxHeartbeats 1000000 in
theorem V3_main_v146 (Wv : Valuation τ sig (Elt F)) : V3 Wv (no_index (Proc.devRef .tc main_v146)) = outSum4 (Wv (Proc.devRef .tc main_v2)) (Wv (Proc.devRef .tc main_arg2)) (Wv (Proc.devRef .tc main_arg3)) (Wv (Proc.devRef .tc main_arg4)) (Wv (Proc.devRef .tc main_arg5)) :=
  (run2_main_v146 (V2 Wv)).trans (by simp only [V2_main_v72, V2_main_v78, V2_main_v79, V2_main_v92, V2_main_v97, V2_main_v98, V2_main_v2, V2_main_arg2, V2_main_arg3, V2_main_arg4, V2_main_arg5, V2_main_arg6, V2_main_arg7, V2_main_arg8] <;> rfl)
set_option maxHeartbeats 1000000 in
theorem V3_main_v115 (Wv : Valuation τ sig (Elt F)) : V3 Wv (no_index (Proc.devRef .tc main_v115)) = gSum3 (Wv (Proc.devRef .tc main_v2)) (Wv (Proc.devRef .tc main_arg2)) (Wv (Proc.devRef .tc main_arg3)) (Wv (Proc.devRef .tc main_arg4)) :=
  (run2_main_v115 (V2 Wv)).trans (by simp only [V2_main_v72, V2_main_v78, V2_main_v79, V2_main_v92, V2_main_v97, V2_main_v98, V2_main_v2, V2_main_arg2, V2_main_arg3, V2_main_arg4, V2_main_arg5, V2_main_arg6, V2_main_arg7, V2_main_arg8] <;> rfl)
set_option maxHeartbeats 1000000 in
theorem V3_main_v116 (Wv : Valuation τ sig (Elt F)) : V3 Wv (no_index (Proc.devRef .tc main_v116)) = gCnt3 (Wv (Proc.devRef .tc main_arg2)) (Wv (Proc.devRef .tc main_arg3)) (Wv (Proc.devRef .tc main_arg4)) :=
  (run2_main_v116 (V2 Wv)).trans (by simp only [V2_main_v72, V2_main_v78, V2_main_v79, V2_main_v92, V2_main_v97, V2_main_v98, V2_main_v2, V2_main_arg2, V2_main_arg3, V2_main_arg4, V2_main_arg5, V2_main_arg6, V2_main_arg7, V2_main_arg8] <;> rfl)
set_option maxHeartbeats 1000000 in
theorem V3_main_v129 (Wv : Valuation τ sig (Elt F)) : V3 Wv (no_index (Proc.devRef .tc main_v129)) = msgsG (rows (Wv (Proc.devRef .tc main_v2)) (Wv (Proc.devRef .tc main_arg5))) :=
  (run2_main_v129 (V2 Wv)).trans (by simp only [V2_main_v72, V2_main_v78, V2_main_v79, V2_main_v92, V2_main_v97, V2_main_v98, V2_main_v2, V2_main_arg2, V2_main_arg3, V2_main_arg4, V2_main_arg5, V2_main_arg6, V2_main_arg7, V2_main_arg8] <;> rfl)
set_option maxHeartbeats 1000000 in
theorem V3_main_v140 (Wv : Valuation τ sig (Elt F)) : V3 Wv (no_index (Proc.devRef .tc main_v140)) = pcnt (Wv (Proc.devRef .tc main_arg5)) :=
  (run2_main_v140 (V2 Wv)).trans (by simp only [V2_main_v72, V2_main_v78, V2_main_v79, V2_main_v92, V2_main_v97, V2_main_v98, V2_main_v2, V2_main_arg2, V2_main_arg3, V2_main_arg4, V2_main_arg5, V2_main_arg6, V2_main_arg7, V2_main_arg8] <;> rfl)
set_option maxHeartbeats 1000000 in
theorem V3_main_v148 (Wv : Valuation τ sig (Elt F)) : V3 Wv (no_index (Proc.devRef .tc main_v148)) = dstVec (Wv (Proc.devRef .tc main_arg5)) :=
  (run2_main_v148 (V2 Wv)).trans (by simp only [V2_main_v72, V2_main_v78, V2_main_v79, V2_main_v92, V2_main_v97, V2_main_v98, V2_main_v2, V2_main_arg2, V2_main_arg3, V2_main_arg4, V2_main_arg5, V2_main_arg6, V2_main_arg7, V2_main_arg8] <;> rfl)
set_option maxHeartbeats 1000000 in
theorem V3_main_cst_28 (Wv : Valuation τ sig (Elt F)) : V3 Wv (no_index (Proc.devRef .tc main_cst_28)) = constant S_ .f32 0x00000000#32 :=
  (run2_main_cst_28 (V2 Wv)).trans (by simp only [V2_main_v72, V2_main_v78, V2_main_v79, V2_main_v92, V2_main_v97, V2_main_v98, V2_main_v2, V2_main_arg2, V2_main_arg3, V2_main_arg4, V2_main_arg5, V2_main_arg6, V2_main_arg7, V2_main_arg8] <;> rfl)

/-- The buffer contents after the first 4 stretches. -/
def V4 (Wv : Valuation τ sig (Elt F)) : Valuation τ sig (Elt F) := after (main_part3_ops0 : List (HloOp τ sig (Elt F))) (V3 Wv)
/-- A buffer stretch 3 does not write keeps its contents through it. -/
theorem V4_keep (Wv : Valuation τ sig (Elt F)) (r : Ref sig .tc) (h : r ∉ W3) :
    V4 Wv (Proc.devRef .tc r) = (V3 Wv) (Proc.devRef .tc r) :=
  after_of_writes_sub _ _ writes3 h
theorem V4_main_v2 (Wv : Valuation τ sig (Elt F)) : V4 Wv (no_index (Proc.devRef .tc main_v2)) = (Wv (Proc.devRef .tc main_v2)) :=
  (V4_keep Wv main_v2 (by decide)).trans (V3_main_v2 Wv)
theorem V4_main_arg2 (Wv : Valuation τ sig (Elt F)) : V4 Wv (no_index (Proc.devRef .tc main_arg2)) = (Wv (Proc.devRef .tc main_arg2)) :=
  (V4_keep Wv main_arg2 (by decide)).trans (V3_main_arg2 Wv)
theorem V4_main_arg3 (Wv : Valuation τ sig (Elt F)) : V4 Wv (no_index (Proc.devRef .tc main_arg3)) = (Wv (Proc.devRef .tc main_arg3)) :=
  (V4_keep Wv main_arg3 (by decide)).trans (V3_main_arg3 Wv)
theorem V4_main_arg4 (Wv : Valuation τ sig (Elt F)) : V4 Wv (no_index (Proc.devRef .tc main_arg4)) = (Wv (Proc.devRef .tc main_arg4)) :=
  (V4_keep Wv main_arg4 (by decide)).trans (V3_main_arg4 Wv)
theorem V4_main_arg5 (Wv : Valuation τ sig (Elt F)) : V4 Wv (no_index (Proc.devRef .tc main_arg5)) = (Wv (Proc.devRef .tc main_arg5)) :=
  (V4_keep Wv main_arg5 (by decide)).trans (V3_main_arg5 Wv)
theorem V4_main_arg6 (Wv : Valuation τ sig (Elt F)) : V4 Wv (no_index (Proc.devRef .tc main_arg6)) = (Wv (Proc.devRef .tc main_arg6)) :=
  (V4_keep Wv main_arg6 (by decide)).trans (V3_main_arg6 Wv)
theorem V4_main_arg7 (Wv : Valuation τ sig (Elt F)) : V4 Wv (no_index (Proc.devRef .tc main_arg7)) = (Wv (Proc.devRef .tc main_arg7)) :=
  (V4_keep Wv main_arg7 (by decide)).trans (V3_main_arg7 Wv)
theorem V4_main_arg8 (Wv : Valuation τ sig (Elt F)) : V4 Wv (no_index (Proc.devRef .tc main_arg8)) = (Wv (Proc.devRef .tc main_arg8)) :=
  (V4_keep Wv main_arg8 (by decide)).trans (V3_main_arg8 Wv)
set_option maxHeartbeats 1000000 in
theorem V4_main_v183 (Wv : Valuation τ sig (Elt F)) : V4 Wv (no_index (Proc.devRef .tc main_v183)) = outSum5 (Wv (Proc.devRef .tc main_v2)) (Wv (Proc.devRef .tc main_arg2)) (Wv (Proc.devRef .tc main_arg3)) (Wv (Proc.devRef .tc main_arg4)) (Wv (Proc.devRef .tc main_arg5)) (Wv (Proc.devRef .tc main_arg6)) :=
  (run3_main_v183 (V3 Wv)).trans (by simp only [V3_main_v146, V3_main_v115, V3_main_v116, V3_main_v129, V3_main_v140, V3_main_v148, V3_main_cst_28, V3_main_v2, V3_main_arg2, V3_main_arg3, V3_main_arg4, V3_main_arg5, V3_main_arg6, V3_main_arg7, V3_main_arg8] <;> rfl)
set_option maxHeartbeats 1000000 in
theorem V4_main_v189 (Wv : Valuation τ sig (Elt F)) : V4 Wv (no_index (Proc.devRef .tc main_v189)) = gSum5 (Wv (Proc.devRef .tc main_v2)) (Wv (Proc.devRef .tc main_arg2)) (Wv (Proc.devRef .tc main_arg3)) (Wv (Proc.devRef .tc main_arg4)) (Wv (Proc.devRef .tc main_arg5)) (Wv (Proc.devRef .tc main_arg6)) :=
  (run3_main_v189 (V3 Wv)).trans (by simp only [V3_main_v146, V3_main_v115, V3_main_v116, V3_main_v129, V3_main_v140, V3_main_v148, V3_main_cst_28, V3_main_v2, V3_main_arg2, V3_main_arg3, V3_main_arg4, V3_main_arg5, V3_main_arg6, V3_main_arg7, V3_main_arg8] <;> rfl)
set_option maxHeartbeats 1000000 in
theorem V4_main_v190 (Wv : Valuation τ sig (Elt F)) : V4 Wv (no_index (Proc.devRef .tc main_v190)) = gCnt5 (Wv (Proc.devRef .tc main_arg2)) (Wv (Proc.devRef .tc main_arg3)) (Wv (Proc.devRef .tc main_arg4)) (Wv (Proc.devRef .tc main_arg5)) (Wv (Proc.devRef .tc main_arg6)) :=
  (run3_main_v190 (V3 Wv)).trans (by simp only [V3_main_v146, V3_main_v115, V3_main_v116, V3_main_v129, V3_main_v140, V3_main_v148, V3_main_cst_28, V3_main_v2, V3_main_arg2, V3_main_arg3, V3_main_arg4, V3_main_arg5, V3_main_arg6, V3_main_arg7, V3_main_arg8] <;> rfl)
set_option maxHeartbeats 1000000 in
theorem V4_main_v199 (Wv : Valuation τ sig (Elt F)) : V4 Wv (no_index (Proc.devRef .tc main_v199)) = rows (Wv (Proc.devRef .tc main_v2)) (Wv (Proc.devRef .tc main_arg7)) :=
  (run3_main_v199 (V3 Wv)).trans (by simp only [V3_main_v146, V3_main_v115, V3_main_v116, V3_main_v129, V3_main_v140, V3_main_v148, V3_main_cst_28, V3_main_v2, V3_main_arg2, V3_main_arg3, V3_main_arg4, V3_main_arg5, V3_main_arg6, V3_main_arg7, V3_main_arg8] <;> rfl)

/-- The buffer contents after the first 5 stretches. -/
def V5 (Wv : Valuation τ sig (Elt F)) : Valuation τ sig (Elt F) := after (main_part4_ops0 : List (HloOp τ sig (Elt F))) (V4 Wv)
/-- A buffer stretch 4 does not write keeps its contents through it. -/
theorem V5_keep (Wv : Valuation τ sig (Elt F)) (r : Ref sig .tc) (h : r ∉ W4) :
    V5 Wv (Proc.devRef .tc r) = (V4 Wv) (Proc.devRef .tc r) :=
  after_of_writes_sub _ _ writes4 h
theorem V5_main_v2 (Wv : Valuation τ sig (Elt F)) : V5 Wv (no_index (Proc.devRef .tc main_v2)) = (Wv (Proc.devRef .tc main_v2)) :=
  (V5_keep Wv main_v2 (by decide)).trans (V4_main_v2 Wv)
theorem V5_main_arg2 (Wv : Valuation τ sig (Elt F)) : V5 Wv (no_index (Proc.devRef .tc main_arg2)) = (Wv (Proc.devRef .tc main_arg2)) :=
  (V5_keep Wv main_arg2 (by decide)).trans (V4_main_arg2 Wv)
theorem V5_main_arg3 (Wv : Valuation τ sig (Elt F)) : V5 Wv (no_index (Proc.devRef .tc main_arg3)) = (Wv (Proc.devRef .tc main_arg3)) :=
  (V5_keep Wv main_arg3 (by decide)).trans (V4_main_arg3 Wv)
theorem V5_main_arg4 (Wv : Valuation τ sig (Elt F)) : V5 Wv (no_index (Proc.devRef .tc main_arg4)) = (Wv (Proc.devRef .tc main_arg4)) :=
  (V5_keep Wv main_arg4 (by decide)).trans (V4_main_arg4 Wv)
theorem V5_main_arg5 (Wv : Valuation τ sig (Elt F)) : V5 Wv (no_index (Proc.devRef .tc main_arg5)) = (Wv (Proc.devRef .tc main_arg5)) :=
  (V5_keep Wv main_arg5 (by decide)).trans (V4_main_arg5 Wv)
theorem V5_main_arg6 (Wv : Valuation τ sig (Elt F)) : V5 Wv (no_index (Proc.devRef .tc main_arg6)) = (Wv (Proc.devRef .tc main_arg6)) :=
  (V5_keep Wv main_arg6 (by decide)).trans (V4_main_arg6 Wv)
theorem V5_main_arg7 (Wv : Valuation τ sig (Elt F)) : V5 Wv (no_index (Proc.devRef .tc main_arg7)) = (Wv (Proc.devRef .tc main_arg7)) :=
  (V5_keep Wv main_arg7 (by decide)).trans (V4_main_arg7 Wv)
theorem V5_main_arg8 (Wv : Valuation τ sig (Elt F)) : V5 Wv (no_index (Proc.devRef .tc main_arg8)) = (Wv (Proc.devRef .tc main_arg8)) :=
  (V5_keep Wv main_arg8 (by decide)).trans (V4_main_arg8 Wv)
set_option maxHeartbeats 1000000 in
theorem V5_main_v220 (Wv : Valuation τ sig (Elt F)) : V5 Wv (no_index (Proc.devRef .tc main_v220)) = outSum6 (Wv (Proc.devRef .tc main_v2)) (Wv (Proc.devRef .tc main_arg2)) (Wv (Proc.devRef .tc main_arg3)) (Wv (Proc.devRef .tc main_arg4)) (Wv (Proc.devRef .tc main_arg5)) (Wv (Proc.devRef .tc main_arg6)) (Wv (Proc.devRef .tc main_arg7)) :=
  (run4_main_v220 (V4 Wv)).trans (by simp only [V4_main_v183, V4_main_v189, V4_main_v190, V4_main_v199, V4_main_v2, V4_main_arg2, V4_main_arg3, V4_main_arg4, V4_main_arg5, V4_main_arg6, V4_main_arg7, V4_main_arg8] <;> rfl)
set_option maxHeartbeats 1000000 in
theorem V5_main_v226 (Wv : Valuation τ sig (Elt F)) : V5 Wv (no_index (Proc.devRef .tc main_v226)) = gSum6 (Wv (Proc.devRef .tc main_v2)) (Wv (Proc.devRef .tc main_arg2)) (Wv (Proc.devRef .tc main_arg3)) (Wv (Proc.devRef .tc main_arg4)) (Wv (Proc.devRef .tc main_arg5)) (Wv (Proc.devRef .tc main_arg6)) (Wv (Proc.devRef .tc main_arg7)) :=
  (run4_main_v226 (V4 Wv)).trans (by simp only [V4_main_v183, V4_main_v189, V4_main_v190, V4_main_v199, V4_main_v2, V4_main_arg2, V4_main_arg3, V4_main_arg4, V4_main_arg5, V4_main_arg6, V4_main_arg7, V4_main_arg8] <;> rfl)
set_option maxHeartbeats 1000000 in
theorem V5_main_v227 (Wv : Valuation τ sig (Elt F)) : V5 Wv (no_index (Proc.devRef .tc main_v227)) = gCnt6 (Wv (Proc.devRef .tc main_arg2)) (Wv (Proc.devRef .tc main_arg3)) (Wv (Proc.devRef .tc main_arg4)) (Wv (Proc.devRef .tc main_arg5)) (Wv (Proc.devRef .tc main_arg6)) (Wv (Proc.devRef .tc main_arg7)) :=
  (run4_main_v227 (V4 Wv)).trans (by simp only [V4_main_v183, V4_main_v189, V4_main_v190, V4_main_v199, V4_main_v2, V4_main_arg2, V4_main_arg3, V4_main_arg4, V4_main_arg5, V4_main_arg6, V4_main_arg7, V4_main_arg8] <;> rfl)
set_option maxHeartbeats 1000000 in
theorem V5_main_v240 (Wv : Valuation τ sig (Elt F)) : V5 Wv (no_index (Proc.devRef .tc main_v240)) = msgsG (rows (Wv (Proc.devRef .tc main_v2)) (Wv (Proc.devRef .tc main_arg8))) :=
  (run4_main_v240 (V4 Wv)).trans (by simp only [V4_main_v183, V4_main_v189, V4_main_v190, V4_main_v199, V4_main_v2, V4_main_arg2, V4_main_arg3, V4_main_arg4, V4_main_arg5, V4_main_arg6, V4_main_arg7, V4_main_arg8] <;> rfl)
set_option maxHeartbeats 1000000 in
theorem V5_main_v245 (Wv : Valuation τ sig (Elt F)) : V5 Wv (no_index (Proc.devRef .tc main_v245)) = segS (dstCol (Wv (Proc.devRef .tc main_arg8))) (msgsAt ![0, 768] slices_S250000x1024_S250000x128_0_768 (rows (Wv (Proc.devRef .tc main_v2)) (Wv (Proc.devRef .tc main_arg8)))) :=
  (run4_main_v245 (V4 Wv)).trans (by simp only [V4_main_v183, V4_main_v189, V4_main_v190, V4_main_v199, V4_main_v2, V4_main_arg2, V4_main_arg3, V4_main_arg4, V4_main_arg5, V4_main_arg6, V4_main_arg7, V4_main_arg8] <;> rfl)
set_option maxHeartbeats 1000000 in
theorem V5_main_v246 (Wv : Valuation τ sig (Elt F)) : V5 Wv (no_index (Proc.devRef .tc main_v246)) = onesE (F := F) :=
  (run4_main_v246 (V4 Wv)).trans (by simp only [V4_main_v183, V4_main_v189, V4_main_v190, V4_main_v199, V4_main_v2, V4_main_arg2, V4_main_arg3, V4_main_arg4, V4_main_arg5, V4_main_arg6, V4_main_arg7, V4_main_arg8] <;> rfl)
set_option maxHeartbeats 1000000 in
theorem V5_main_v248 (Wv : Valuation τ sig (Elt F)) : V5 Wv (no_index (Proc.devRef .tc main_v248)) = dstVec (Wv (Proc.devRef .tc main_arg8)) :=
  (run4_main_v248 (V4 Wv)).trans (by simp only [V4_main_v183, V4_main_v189, V4_main_v190, V4_main_v199, V4_main_v2, V4_main_arg2, V4_main_arg3, V4_main_arg4, V4_main_arg5, V4_main_arg6, V4_main_arg7, V4_main_arg8] <;> rfl)
set_option maxHeartbeats 1000000 in
theorem V5_main_v249 (Wv : Valuation τ sig (Elt F)) : V5 Wv (no_index (Proc.devRef .tc main_v249)) = zeros1 (F := F) :=
  (run4_main_v249 (V4 Wv)).trans (by simp only [V4_main_v183, V4_main_v189, V4_main_v190, V4_main_v199, V4_main_v2, V4_main_arg2, V4_main_arg3, V4_main_arg4, V4_main_arg5, V4_main_arg6, V4_main_arg7, V4_main_arg8] <;> rfl)

/-- The buffer contents after the first 6 stretches. -/
def V6 (Wv : Valuation τ sig (Elt F)) : Valuation τ sig (Elt F) := after (main_part5_ops0 : List (HloOp τ sig (Elt F))) (V5 Wv)
/-- A buffer stretch 5 does not write keeps its contents through it. -/
theorem V6_keep (Wv : Valuation τ sig (Elt F)) (r : Ref sig .tc) (h : r ∉ W5) :
    V6 Wv (Proc.devRef .tc r) = (V5 Wv) (Proc.devRef .tc r) :=
  after_of_writes_sub _ _ writes5 h
set_option maxHeartbeats 1000000 in
theorem V6_main_v272 (Wv : Valuation τ sig (Elt F)) : V6 Wv (no_index (Proc.devRef .tc main_v272)) = tailK (Wv (Proc.devRef .tc main_v2)) (Wv (Proc.devRef .tc main_arg2)) (Wv (Proc.devRef .tc main_arg3)) (Wv (Proc.devRef .tc main_arg4)) (Wv (Proc.devRef .tc main_arg5)) (Wv (Proc.devRef .tc main_arg6)) (Wv (Proc.devRef .tc main_arg7)) (Wv (Proc.devRef .tc main_arg8)) :=
  (run5_main_v272 (V5 Wv)).trans (by simp only [V5_main_v220, V5_main_v226, V5_main_v227, V5_main_v240, V5_main_v245, V5_main_v246, V5_main_v248, V5_main_v249, V5_main_v2, V5_main_arg2, V5_main_arg3, V5_main_arg4, V5_main_arg5, V5_main_arg6, V5_main_arg7, V5_main_arg8] <;> rfl)

/-- The six stretches run one after the other are the sixth stage. -/
theorem after_tail (Wv : Valuation τ sig (Elt F)) :
    after (List.flatten [(main_part0_ops1 : List (HloOp τ sig (Elt F))), main_part1_ops0, main_part2_ops0, main_part3_ops0, main_part4_ops0, main_part5_ops0]) Wv = V6 Wv := by
  simp only [List.flatten_cons, List.flatten_nil, List.append_nil, after_append]
  rfl

/-- THE TAIL READ BACK: after the 324 host operations, the result buffer holds `tailK` of the product table and the
    seven edge lists as they stood before. -/
theorem tail_result (Wv : Valuation τ sig (Elt F)) :
    StableHlo.after (List.flatten [main_part0_ops1, main_part1_ops0, main_part2_ops0, main_part3_ops0, main_part4_ops0, main_part5_ops0]) Wv (Proc.devRef .tc main_v272)
      = tailK (Wv (Proc.devRef .tc main_v2)) (Wv (Proc.devRef .tc main_arg2)) (Wv (Proc.devRef .tc main_arg3)) (Wv (Proc.devRef .tc main_arg4)) (Wv (Proc.devRef .tc main_arg5)) (Wv (Proc.devRef .tc main_arg6)) (Wv (Proc.devRef .tc main_arg7)) (Wv (Proc.devRef .tc main_arg8)) := by
  rw [after_tail]
  exact V6_main_v272 Wv

end Cert.KernelIdeal.Tail

end
-- ==== Proof.Spec.lean ====
/-
  The mathematics both programs compute, entry by entry, over the extended reals.

  Inputs: node features `x : [100000, 128]`, eight relation matrices `W : [8, 128, 128]`, and seven edge lists
  `e t : [2, 250000]` of 32-bit words (row 0 the source node of each edge, row 1 its destination).
  For relation `t` the transformed feature of node `i` is `xw t i f = Σ k, x (i, k) · W (t, k, f)`.
  A source word is read as a signed integer, a negative one wraps by 100000, and the result is clamped into
  `[0, 99999]`; a destination word is read as a signed integer and an edge whose destination is no node is dropped.
  The segment sum of a feature table over an edge list adds, at destination `b`, the table's rows at the sources of
  the edges that end at `b`; the segment count counts those edges. A pass's mean is the segment sum divided by the
  larger of the count and one. The result is the sum of the seven per-relation means (relation `t` over list `t`) and
  of the mean of relation 7 over ALL seven lists together, divided by eight.
-/
import Idealize.ShloMosaic.PureOps
import Idealize.ShloMosaic.PureOps.Ideal
import Idealize.ShloMosaic.Lib.ValueIdx

noncomputable section

open Idealize.ShloMosaic Idealize.ShloMosaic.ValueIdx

namespace Cert.Spec

abbrev SX : Shape := ⟨2, ![100000, 128]⟩
abbrev SW : Shape := ⟨3, ![8, 128, 128]⟩
abbrev SE : Shape := ⟨2, ![2, 250000]⟩
abbrev SO : Shape := ⟨2, ![100000, 128]⟩

/-- The float words the programs spell: one and eight. -/
abbrev one : EReal := Ideal.ofBits .f32 0x3F800000#32
abbrev eight : EReal := Ideal.ofBits .f32 0x41000000#32

/-- Relation `t` applied to node `i`, feature `f`. -/
def xw (x : SX.Idx → EReal) (W : SW.Idx → EReal) (t : Fin 8) (i : Fin 100000) (f : Fin 128) : EReal :=
  ∑ k : Fin 128, x (ix2 i k) * W (ix3 t k f)

/-- A source word after the wrap of a negative index. -/
def wrap (s : BitVec 32) : BitVec 32 := if s.slt 0#32 then s + 100000#32 else s

/-- The source node of edge `r`: wrapped, read signed, clamped into the node range. -/
def src (e : SE.Idx → BitVec 32) (r : Fin 250000) : Fin 100000 :=
  ⟨min (wrap (e (ix2 (0 : Fin 2) r))).toInt.toNat (100000 - 1), by omega⟩

/-- The destination of edge `r`, read signed. -/
def dst (e : SE.Idx → BitVec 32) (r : Fin 250000) : Int := (e (ix2 (1 : Fin 2) r)).toInt

/-- The segment sum of the table `h` over the list `e`, at destination `b`, feature `f`. -/
def segSum (e : SE.Idx → BitVec 32) (h : Fin 100000 → Fin 128 → EReal) (b : Fin 100000) (f : Fin 128) : EReal :=
  ∑ r : Fin 250000, if dst e r = (b.val : Int) then h (src e r) f else 0

/-- The number of edges of `e` that end at `b`, as the sum of the programs' ones. -/
def segCnt (e : SE.Idx → BitVec 32) (b : Fin 100000) : EReal :=
  ∑ r : Fin 250000, if dst e r = (b.val : Int) then one else 0

/-- The seven edge lists as one family. -/
def edges (e0 e1 e2 e3 e4 e5 e6 : SE.Idx → BitVec 32) : Fin 7 → SE.Idx → BitVec 32 := ![e0, e1, e2, e3, e4, e5, e6]

/-- A pass's mean from its sum and count. -/
def mean (S C : EReal) : EReal := Ideal.div S (max C one)

/-- The per-relation mean of pass `t < 7`. -/
def passMean (x : SX.Idx → EReal) (W : SW.Idx → EReal) (e : Fin 7 → SE.Idx → BitVec 32) (t : Fin 7)
    (b : Fin 100000) (f : Fin 128) : EReal :=
  mean (segSum (e t) (xw x W t.castSucc) b f) (segCnt (e t) b)

/-- The mean of the global pass: relation 7 over all seven lists. -/
def globalMean (x : SX.Idx → EReal) (W : SW.Idx → EReal) (e : Fin 7 → SE.Idx → BitVec 32)
    (b : Fin 100000) (f : Fin 128) : EReal :=
  mean (∑ t : Fin 7, segSum (e t) (xw x W (Fin.last 7)) b f) (∑ t : Fin 7, segCnt (e t) b)

/-- THE RESULT at node `b`, feature `f`: the passes' means added in order, from zero, and divided by eight. -/
def out (x : SX.Idx → EReal) (W : SW.Idx → EReal) (e : Fin 7 → SE.Idx → BitVec 32) : SO.Idx → EReal := fun j =>
  Ideal.div
    ((((((((0 + passMean x W e 0 (j 0) (j 1)) + passMean x W e 1 (j 0) (j 1)) + passMean x W e 2 (j 0) (j 1))
      + passMean x W e 3 (j 0) (j 1)) + passMean x W e 4 (j 0) (j 1)) + passMean x W e 5 (j 0) (j 1))
      + passMean x W e 6 (j 0) (j 1)) + globalMean x W e (j 0) (j 1))
    eight

end Cert.Spec

end
-- ==== Proof.LibHostGather.lean ====
/-
  Two gathers through a column of start indices, read at an index.

  `table[idx]` for `table : [B, F]` and an integer vector `idx : [N]` is printed as a gather whose start indices are
  the column `[N, 1]`: the operand's first axis is collapsed (slice size one) and driven by the start index, the second
  is an offset axis taken whole. Result entry `(r, f)` is therefore `table` at row `idx r` — read as a signed integer
  and clamped into `[0, B − 1]`, as every start index of a gather is — and column `f`. The rank-one form, `v[idx]`
  for `v : [B]`, is the same without the offset axis.
-/
import Idealize.ShloMosaic.PureOps
import Idealize.ShloMosaic.Lib.ValueIdx

noncomputable section

open Idealize.ShloMosaic Idealize.ShloMosaic.ValueIdx

namespace Cert.HostInt

variable {α : Type}

/-- The dimension numbers of `table[idx]`: operand `[B, F]`, start indices `[N, 1]`, result `[N, F]`. -/
abbrev rowGatherDims (B F N : Nat)
    (wf : GatherDims.WF ⟨2, ![B, F]⟩ ⟨2, ![N, 1]⟩ ⟨2, ![N, F]⟩ [1] [0] [] [0] [] 1 ![1, F]) :
    GatherDims ⟨2, ![B, F]⟩ ⟨2, ![N, 1]⟩ ⟨2, ![N, F]⟩ where
  offsetDims := [1]
  collapsedSliceDims := [0]
  operandBatchingDims := []
  startIndicesBatchingDims := []
  startIndexMap := [0]
  indexVectorDim := 1
  sliceSizes := ![1, F]
  wf := wf

/-- The start-indices entry that result row `r` reads. -/
abbrev colIdx {N : Nat} (r : Fin N) : (⟨2, ![N, 1]⟩ : Shape).Idx := ix2 r ⟨0, Nat.one_pos⟩

/-- ROWS GATHERED: entry `(r, f)` is the operand at row `idx r`, read signed and clamped into `[0, B − 1]`, column `f`. -/
theorem gather_rows_apply {B F N w : Nat} (hB : 0 < B)
    (wf : GatherDims.WF ⟨2, ![B, F]⟩ ⟨2, ![N, 1]⟩ ⟨2, ![N, F]⟩ [1] [0] [] [0] [] 1 ![1, F])
    (x : (⟨2, ![B, F]⟩ : Shape).Idx → α) (idx : IVec ⟨2, ![N, 1]⟩ w) (r : Fin N) (f : Fin F) :
    Host.gather (rowGatherDims B F N wf) x idx (ix2 r f)
      = x (ix2 ⟨min (idx (colIdx r)).toInt.toNat (B - 1), by omega⟩ f) := by
  unfold Host.gather
  congr 1
  funext a
  refine Fin.ext ?_
  match a with
  | ⟨0, _⟩ =>
    show (rowGatherDims B F N wf).start (ix2 r f) idx 0 + (rowGatherDims B F N wf).batchCoord (ix2 r f) 0
      + (rowGatherDims B F N wf).offCoord (ix2 r f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims B F N wf).startIndexMap from List.mem_singleton.mpr rfl)]
    have hsi : (rowGatherDims B F N wf).siIdx (ix2 r f) ⟨List.idxOf (0 : Fin 2) (rowGatherDims B F N wf).startIndexMap,
        List.idxOf_lt_length_iff.2 (List.mem_singleton.mpr rfl)⟩ = colIdx r := by
      funext b; refine Fin.ext ?_
      match b with
      | ⟨0, _⟩ => rfl
      | ⟨1, _⟩ => rfl
    rw [hsi]
    rfl
  | ⟨1, _⟩ =>
    show (rowGatherDims B F N wf).start (ix2 r f) idx 1 + (rowGatherDims B F N wf).batchCoord (ix2 r f) 1
      + (rowGatherDims B F N wf).offCoord (ix2 r f) 1 = f.val
    rw [GatherDims.batchCoord_eq_zero _ _ _ List.not_mem_nil]
    unfold GatherDims.start
    rw [dif_neg (show (1 : Fin 2) ∉ (rowGatherDims B F N wf).startIndexMap from
      fun h => absurd (show (1 : Nat) = 0 from congrArg Fin.val (List.mem_singleton.mp h)) Nat.one_ne_zero)]
    simp only [Nat.add_zero, Nat.zero_add]
    rfl

/-- The dimension numbers of `v[idx]`: operand `[B]`, start indices `[N, 1]`, result `[N]`. -/
abbrev takeColDims (B N : Nat)
    (wf : GatherDims.WF ⟨1, ![B]⟩ ⟨2, ![N, 1]⟩ ⟨1, ![N]⟩ [] [0] [] [0] [] 1 ![1]) :
    GatherDims ⟨1, ![B]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

/-- ENTRIES TAKEN: entry `r` is the operand at `idx r`, read signed and clamped into `[0, B − 1]`. -/
theorem gather_take_col_apply {B N w : Nat} (hB : 0 < B)
    (wf : GatherDims.WF ⟨1, ![B]⟩ ⟨2, ![N, 1]⟩ ⟨1, ![N]⟩ [] [0] [] [0] [] 1 ![1])
    (x : (⟨1, ![B]⟩ : Shape).Idx → α) (idx : IVec ⟨2, ![N, 1]⟩ w) (r : Fin N) :
    Host.gather (takeColDims B N wf) x idx (ix1 r)
      = x (ix1 ⟨min (idx (colIdx r)).toInt.toNat (B - 1), by omega⟩) := by
  unfold Host.gather
  congr 1
  funext a
  obtain rfl : a = 0 := Subsingleton.elim _ _
  refine Fin.ext ?_
  show (takeColDims B N wf).start (ix1 r) idx 0 + (takeColDims B N wf).batchCoord (ix1 r) 0
    + (takeColDims B N wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeColDims B N wf).startIndexMap from List.mem_singleton.mpr rfl)]
  have hsi : (takeColDims B N wf).siIdx (ix1 r) ⟨List.idxOf (0 : Fin 1) (takeColDims B N wf).startIndexMap,
      List.idxOf_lt_length_iff.2 (List.mem_singleton.mpr rfl)⟩ = colIdx r := by
    funext b; refine Fin.ext ?_
    match b with
    | ⟨0, _⟩ => rfl
    | ⟨1, _⟩ => rfl
  rw [hsi]
  rfl

end Cert.HostInt

end
-- ==== Proof.LibHostSegmentSum.lean ====
/-
  `segment_sum` as it is printed, read at an entry of its result at the ideal instance.

  `operand.at[idx].add(updates)` for `operand : [B, F]`, `updates : [N, F]` and an integer vector `idx : [N]` is
  printed as a float scatter-add whose scatter indices are the column `[N, 1]`: update row `r` is one window
  `[1, F]` placed at operand row `idx r`, the start index read as a signed integer and NOT clamped, and dropped
  altogether when that row is outside `[0, B)`. So update entry `(r, f)` lands on operand entry `(idx r, f)` or
  nowhere, and at the ideal instance, where the accumulation is the exact sum, result entry `(b, f)` is the operand's
  entry plus the sum over the rows `r` with `idx r = b` of `updates (r, f)`.
-/
import Idealize.ShloMosaic.PureOps
import Idealize.ShloMosaic.PureOps.Ideal
import Idealize.ShloMosaic.Lib.ValueIdx

noncomputable section

open Idealize.ShloMosaic Idealize.ShloMosaic.ValueIdx

namespace Cert.HostInt

/-- The dimension numbers of `operand.at[idx].add(updates)`: operand `[B, F]`, scatter indices `[N, 1]`, updates `[N, F]`. -/
abbrev segSumDims (B F N : Nat)
    (wf : ScatterDims.WF ⟨2, ![B, F]⟩ ⟨2, ![N, 1]⟩ ⟨2, ![N, F]⟩ [1] [0] [0] 1) :
    ScatterDims ⟨2, ![B, F]⟩ ⟨2, ![N, 1]⟩ ⟨2, ![N, F]⟩ where
  updateWindowDims := [1]
  insertedWindowDims := [0]
  scatterDimsToOperandDims := [0]
  indexVectorDim := 1
  wf := wf

/-- The scatter-indices entry that update row `r` reads. -/
abbrev rowIdx {N : Nat} (r : Fin N) : (⟨2, ![N, 1]⟩ : Shape).Idx := ix2 r ⟨0, Nat.one_pos⟩

section
variable {B F N w : Nat} (wf : ScatterDims.WF ⟨2, ![B, F]⟩ ⟨2, ![N, 1]⟩ ⟨2, ![N, F]⟩ [1] [0] [0] 1)
  (idx : IVec ⟨2, ![N, 1]⟩ w) (r : Fin N) (f : Fin F)

theorem mem_sKept_iff (a : Fin 2) : a ∈ (segSumDims B F N wf).sKept ↔ a ∉ (segSumDims B F N wf).insertedWindowDims := by
  simp [ScatterDims.sKept, Shape.kept, List.mem_filter, List.mem_finRange]

/-- On the row axis the window starts at the row's start index, read signed. -/
theorem start_row : (segSumDims B F N wf).start (ix2 r f) idx 0 = (idx (rowIdx r)).toInt := by
  unfold ScatterDims.start
  rw [dif_pos (show (0 : Fin 2) ∈ (segSumDims B F N wf).scatterDimsToOperandDims from List.mem_singleton.mpr rfl)]
  have hsi : (segSumDims B F N wf).siIdx (ix2 r f)
      ⟨List.idxOf (0 : Fin 2) (segSumDims B F N wf).scatterDimsToOperandDims,
        List.idxOf_lt_length_iff.2 (List.mem_singleton.mpr rfl)⟩ = rowIdx r := by
    funext b; refine Fin.ext ?_
    match b with
    | ⟨0, _⟩ => rfl
    | ⟨1, _⟩ => rfl
  rw [hsi]

/-- On the column axis it starts at zero. -/
theorem start_col : (segSumDims B F N wf).start (ix2 r f) idx 1 = 0 := by
  unfold ScatterDims.start
  rw [dif_neg (show (1 : Fin 2) ∉ (segSumDims B F N wf).scatterDimsToOperandDims from
    fun h => absurd (show (1 : Nat) = 0 from congrArg Fin.val (List.mem_singleton.mp h)) Nat.one_ne_zero)]

/-- The row axis is inserted: no window coordinate on it. -/
theorem window_row : (segSumDims B F N wf).window (ix2 r f) 0 = 0 := by
  unfold ScatterDims.window
  rw [dif_neg (fun h => ((mem_sKept_iff wf 0).mp h) (List.mem_singleton.mpr rfl))]

/-- The column axis carries the update's column. -/
theorem window_col : (segSumDims B F N wf).window (ix2 r f) 1 = f.val := by
  unfold ScatterDims.window
  rw [dif_pos ((mem_sKept_iff wf 1).mpr fun h =>
    absurd (show (1 : Nat) = 0 from congrArg Fin.val (List.mem_singleton.mp h)) Nat.one_ne_zero)]
  rfl

/-- WHERE AN UPDATE LANDS: entry `(r, f)` lands on `(idx r, f)` when `idx r`, read signed, is a row of the operand,
    and is dropped otherwise. -/
theorem resultIdx?_rows :
    (segSumDims B F N wf).resultIdx? (ix2 r f) idx
      = if h : 0 ≤ (idx (rowIdx r)).toInt ∧ (idx (rowIdx r)).toInt < B then
          some (ix2 ⟨(idx (rowIdx r)).toInt.toNat, by omega⟩ f)
        else none := by
  unfold ScatterDims.resultIdx?
  by_cases h : 0 ≤ (idx (rowIdx r)).toInt ∧ (idx (rowIdx r)).toInt < B
  · have hall : ∀ a : Fin 2, 0 ≤ (segSumDims B F N wf).start (ix2 r f) idx a + (segSumDims B F N wf).window (ix2 r f) a
        ∧ (segSumDims B F N wf).start (ix2 r f) idx a + (segSumDims B F N wf).window (ix2 r f) a
          < ((⟨2, ![B, F]⟩ : Shape).size a : Int) := by
      intro a
      match a with
      | ⟨0, _⟩ =>
        show 0 ≤ (segSumDims B F N wf).start (ix2 r f) idx 0 + (segSumDims B F N wf).window (ix2 r f) 0
          ∧ (segSumDims B F N wf).start (ix2 r f) idx 0 + (segSumDims B F N wf).window (ix2 r f) 0 < (B : Int)
        rw [start_row, window_row]
        simpa using h
      | ⟨1, _⟩ =>
        show 0 ≤ (segSumDims B F N wf).start (ix2 r f) idx 1 + (segSumDims B F N wf).window (ix2 r f) 1
          ∧ (segSumDims B F N wf).start (ix2 r f) idx 1 + (segSumDims B F N wf).window (ix2 r f) 1 < (F : Int)
        rw [start_col, window_col]
        have := f.isLt
        omega
    rw [dif_pos hall, dif_pos h]
    refine congrArg some (funext fun a => Fin.ext ?_)
    match a with
    | ⟨0, _⟩ =>
      show ((segSumDims B F N wf).start (ix2 r f) idx 0 + (segSumDims B F N wf).window (ix2 r f) 0).toNat
        = (idx (rowIdx r)).toInt.toNat
      rw [start_row, window_row]
      simp
    | ⟨1, _⟩ =>
      show ((segSumDims B F N wf).start (ix2 r f) idx 1 + (segSumDims B F N wf).window (ix2 r f) 1).toNat = f.val
      rw [start_col, window_col]
      simp
  · rw [dif_neg h, dif_neg]
    intro hall
    have h0 := hall 0
    have h0' : 0 ≤ (segSumDims B F N wf).start (ix2 r f) idx 0 + (segSumDims B F N wf).window (ix2 r f) 0
        ∧ (segSumDims B F N wf).start (ix2 r f) idx 0 + (segSumDims B F N wf).window (ix2 r f) 0 < (B : Int) := h0
    rw [start_row, window_row] at h0'
    exact h (by simpa using h0')

end

/-- Two rank-two indices agree exactly when their coordinates do. -/
theorem ix2_eq_iff {n0 n1 : Nat} (a a' : Fin n0) (b b' : Fin n1) : ix2 a b = ix2 a' b' ↔ a = a' ∧ b = b' :=
  ⟨fun h => ⟨congrFun h 0, congrFun h 1⟩, fun ⟨h1, h2⟩ => by rw [h1, h2]⟩

/-- THE SEGMENT SUM AT AN ENTRY, at the ideal instance: the operand's entry plus the updates of the rows whose start
    index, read signed, is `b`. -/
theorem scatterAdd_rows_apply {B F N w : Nat} {φ : FTy}
    (wf : ScatterDims.WF ⟨2, ![B, F]⟩ ⟨2, ![N, 1]⟩ ⟨2, ![N, F]⟩ [1] [0] [0] 1)
    (x : FVec Ideal ⟨2, ![B, F]⟩ φ) (idx : IVec ⟨2, ![N, 1]⟩ w) (upd : FVec Ideal ⟨2, ![N, F]⟩ φ)
    (b : Fin B) (f : Fin F) :
    Host.scatterAdd (F := Ideal) (segSumDims B F N wf) x idx upd (ix2 b f)
      = x (ix2 b f) + ∑ r : Fin N, if (idx (rowIdx r)).toInt = (b.val : Int) then upd (ix2 r f) else 0 := by
  show Ideal.hostScatterAdd (segSumDims B F N wf) x idx upd (ix2 b f) = _
  unfold Ideal.hostScatterAdd
  refine congrArg (x (ix2 b f) + ·) ?_
  rw [Finset.sum_filter, sum_idx2]
  refine Finset.sum_congr rfl fun r _ => ?_
  simp only [resultIdx?_rows]
  have hb := b.isLt
  by_cases h : 0 ≤ (idx (rowIdx r)).toInt ∧ (idx (rowIdx r)).toInt < B
  · simp only [dif_pos h, Option.some.injEq, ix2_eq_iff]
    by_cases ht : (idx (rowIdx r)).toInt = (b.val : Int)
    · rw [if_pos ht, Finset.sum_eq_single f]
      · rw [if_pos ⟨Fin.ext (by show (idx (rowIdx r)).toInt.toNat = b.val; omega), rfl⟩]
      · intro f' _ hf'
        rw [if_neg fun hh => hf' hh.2]
      · intro hf
        exact absurd (Finset.mem_univ _) hf
    · rw [if_neg ht]
      refine Finset.sum_eq_zero fun f' _ => ?_
      rw [if_neg]
      intro hh
      have : (idx (rowIdx r)).toInt.toNat = b.val := congrArg Fin.val hh.1
      omega
  · simp only [dif_neg h]
    rw [if_neg (by omega)]
    refine Finset.sum_eq_zero fun f' _ => ?_
    rw [if_neg (by simp)]

end Cert.HostInt

end
-- ==== Proof.LibHostScatterAdd.lean ====
/-
  An accumulating scatter (`.at[idx].add(v)`) as it is printed, read at an entry.

  The printed scatter is a left fold over the update entries in row-major order: an entry whose result index is inside
  the operand replaces the operand's element there by the body applied to it and the update, an entry landing outside
  is dropped. When the body is addition in a commutative monoid the order is immaterial and the fold reads, at every
  entry `i` and for ANY dimension numbers, as the operand's entry plus the sum of the updates whose result index is `i`.
  The rank-one case with a column `[B, 1]` of scatter indices — `zeros(N).at[idx].add(v)` — then has update `j` landing
  at `idx j`, read as a signed integer and not clamped, when that is inside `[0, N)`.
-/
import Idealize.ShloMosaic.PureOps
import Idealize.ShloMosaic.Lib.ValueIdx
import Mathlib.Data.BitVec

noncomputable section

open Idealize.ShloMosaic Idealize.ShloMosaic.ValueIdx

namespace Cert.HostInt

/-- One step of the fold, read at an entry: the entry gains the update exactly when the update lands on it. -/
theorem scatter_step_apply {α : Type} [AddCommMonoid α] {s : Shape} (r : s.Idx → α) (o : Option s.Idx) (v : α) (i : s.Idx) :
    (match o with
      | some i0 => fun i' => if i' = i0 then r i0 + v else r i'
      | none => r) i = r i + if o = some i then v else 0 := by
  cases o with
  | none => simp
  | some i0 =>
    show (if i = i0 then r i0 + v else r i) = r i + if some i0 = some i then v else 0
    by_cases h : i = i0
    · subst h; simp
    · rw [if_neg h, if_neg (fun hh => h (Option.some.inj hh).symm), add_zero]

/-- THE ACCUMULATING SCATTER AT AN ENTRY, for any dimension numbers: the operand's entry plus the updates landing on it. -/
theorem scatter_add_apply {α : Type} [AddCommMonoid α] {s si u : Shape} {w : Nat} (d : ScatterDims s si u)
    (x : s.Idx → α) (idx : IVec si w) (upd : u.Idx → α) (i : s.Idx) :
    Host.scatter d (· + ·) x idx upd i = x i + ∑ j : u.Idx, if d.resultIdx? j idx = some i then upd j else 0 := by
  unfold Host.scatter
  have h : ∀ (l : List (Fin u.numel)) (r : s.Idx → α),
      (l.foldl (fun r n =>
        match d.resultIdx? (u.rowMajor.symm n) idx with
        | some i0 => fun i' => if i' = i0 then r i0 + upd (u.rowMajor.symm n) else r i'
        | none => r) r) i
      = r i + (l.map fun n => if d.resultIdx? (u.rowMajor.symm n) idx = some i then upd (u.rowMajor.symm n) else 0).sum := by
    intro l
    induction l with
    | nil => intro r; simp
    | cons n l ih =>
      intro r
      rw [List.foldl_cons, ih, scatter_step_apply, List.map_cons, List.sum_cons, add_assoc]
  refine (h (List.finRange u.numel) x).trans ?_
  rw [← Fin.sum_univ_def]
  refine congrArg (x i + ·) ?_
  exact Equiv.sum_comp u.rowMajor.symm fun j => if d.resultIdx? j idx = some i then upd j else 0

/-- The dimension numbers of `operand.at[idx].add(v)`: operand `[N]`, scatter indices `[B, 1]`, updates `[B]`. -/
abbrev colScatterDims (N B : Nat) (wf : ScatterDims.WF ⟨1, ![N]⟩ ⟨2, ![B, 1]⟩ ⟨1, ![B]⟩ [] [0] [0] 1) :
    ScatterDims ⟨1, ![N]⟩ ⟨2, ![B, 1]⟩ ⟨1, ![B]⟩ where
  updateWindowDims := []
  insertedWindowDims := [0]
  scatterDimsToOperandDims := [0]
  indexVectorDim := 1
  wf := wf

/-- The scatter-indices entry that update `j` reads. -/
abbrev colEntry {B : Nat} (j : Fin B) : (⟨2, ![B, 1]⟩ : Shape).Idx := ix2 j ⟨0, Nat.one_pos⟩

section
variable {N B w : Nat} (wf : ScatterDims.WF ⟨1, ![N]⟩ ⟨2, ![B, 1]⟩ ⟨1, ![B]⟩ [] [0] [0] 1)
  (idx : IVec ⟨2, ![B, 1]⟩ w) (j : Fin B)

theorem col_start : (colScatterDims N B wf).start (ix1 j) idx 0 = (idx (colEntry j)).toInt := by
  unfold ScatterDims.start
  rw [dif_pos (show (0 : Fin 1) ∈ (colScatterDims N B wf).scatterDimsToOperandDims from List.mem_singleton.mpr rfl)]
  have hsi : (colScatterDims N B wf).siIdx (ix1 j)
      ⟨List.idxOf (0 : Fin 1) (colScatterDims N B wf).scatterDimsToOperandDims,
        List.idxOf_lt_length_iff.2 (List.mem_singleton.mpr rfl)⟩ = colEntry j := by
    funext b; refine Fin.ext ?_
    match b with
    | ⟨0, _⟩ => rfl
    | ⟨1, _⟩ => rfl
  rw [hsi]

theorem col_window : (colScatterDims N B wf).window (ix1 j) 0 = 0 := by
  unfold ScatterDims.window
  rw [dif_neg]
  simp [ScatterDims.sKept, Shape.kept, List.mem_filter, List.mem_finRange]

/-- WHERE UPDATE `j` LANDS: at `idx j`, read signed, when that is an index of the operand; nowhere otherwise. -/
theorem resultIdx?_col :
    (colScatterDims N B wf).resultIdx? (ix1 j) idx
      = if h : 0 ≤ (idx (colEntry j)).toInt ∧ (idx (colEntry j)).toInt < N then
          some (ix1 ⟨(idx (colEntry j)).toInt.toNat, by omega⟩)
        else none := by
  unfold ScatterDims.resultIdx?
  by_cases h : 0 ≤ (idx (colEntry j)).toInt ∧ (idx (colEntry j)).toInt < N
  · have hall : ∀ a : Fin 1, 0 ≤ (colScatterDims N B wf).start (ix1 j) idx a + (colScatterDims N B wf).window (ix1 j) a
        ∧ (colScatterDims N B wf).start (ix1 j) idx a + (colScatterDims N B wf).window (ix1 j) a
          < ((⟨1, ![N]⟩ : Shape).size a : Int) := by
      intro a
      obtain rfl : a = 0 := Subsingleton.elim _ _
      show 0 ≤ (colScatterDims N B wf).start (ix1 j) idx 0 + (colScatterDims N B wf).window (ix1 j) 0
        ∧ (colScatterDims N B wf).start (ix1 j) idx 0 + (colScatterDims N B wf).window (ix1 j) 0 < (N : Int)
      rw [col_start, col_window]
      simpa using h
    rw [dif_pos hall, dif_pos h]
    refine congrArg some (funext fun a => Fin.ext ?_)
    obtain rfl : a = 0 := Subsingleton.elim _ _
    show ((colScatterDims N B wf).start (ix1 j) idx 0 + (colScatterDims N B wf).window (ix1 j) 0).toNat
      = (idx (colEntry j)).toInt.toNat
    rw [col_start, col_window]
    simp
  · rw [dif_neg h, dif_neg]
    intro hall
    have h0 : 0 ≤ (colScatterDims N B wf).start (ix1 j) idx 0 + (colScatterDims N B wf).window (ix1 j) 0
        ∧ (colScatterDims N B wf).start (ix1 j) idx 0 + (colScatterDims N B wf).window (ix1 j) 0 < (N : Int) := hall 0
    rw [col_start, col_window] at h0
    exact h (by simpa using h0)

end

/-- THE RANK-ONE ACCUMULATING SCATTER AT AN ENTRY: the operand's entry plus the updates whose start index, read
    signed, is `i`. -/
theorem scatter_add_col_apply {α : Type} [AddCommMonoid α] {N B w : Nat}
    (wf : ScatterDims.WF ⟨1, ![N]⟩ ⟨2, ![B, 1]⟩ ⟨1, ![B]⟩ [] [0] [0] 1)
    (x : (⟨1, ![N]⟩ : Shape).Idx → α) (idx : IVec ⟨2, ![B, 1]⟩ w) (upd : (⟨1, ![B]⟩ : Shape).Idx → α) (i : Fin N) :
    Host.scatter (colScatterDims N B wf) (· + ·) x idx upd (ix1 i)
      = x (ix1 i) + ∑ j : Fin B, if (idx (colEntry j)).toInt = (i.val : Int) then upd (ix1 j) else 0 := by
  rw [scatter_add_apply]
  refine congrArg (x (ix1 i) + ·) ?_
  have hi := i.isLt
  rw [← Equiv.sum_comp (⟨fun j : Fin B => (ix1 j : (⟨1, ![B]⟩ : Shape).Idx), fun y => y 0, fun _ => rfl,
    fun y => (eq_ix1 y).symm⟩ : Fin B ≃ (⟨1, ![B]⟩ : Shape).Idx)]
  refine Finset.sum_congr rfl fun j _ => ?_
  show (if (colScatterDims N B wf).resultIdx? (ix1 j) idx = some (ix1 i) then upd (ix1 j) else 0) = _
  rw [resultIdx?_col]
  by_cases h : 0 ≤ (idx (colEntry j)).toInt ∧ (idx (colEntry j)).toInt < N
  · rw [dif_pos h]
    by_cases ht : (idx (colEntry j)).toInt = (i.val : Int)
    · rw [if_pos ht, if_pos]
      refine congrArg some (funext fun a => Fin.ext ?_)
      obtain rfl : a = 0 := Subsingleton.elim _ _
      show (idx (colEntry j)).toInt.toNat = i.val
      omega
    · rw [if_neg ht, if_neg]
      intro hh
      have : (idx (colEntry j)).toInt.toNat = i.val := congrArg (fun y : (⟨1, ![N]⟩ : Shape).Idx => (y 0).val) (Option.some.inj hh)
      omega
  · rw [dif_neg h, if_neg (by simp), if_neg (by omega)]

end Cert.HostInt

end
-- ==== Proof.LibIdealEntries.lean ====
/-
  The rank-one accumulating float scatter at the ideal instance, read at an entry.

  `zeros(N).at[idx].add(v)` for a float vector `v : [B]` and a column `[B, 1]` of scatter indices is printed as the
  float scatter-add. At the ideal instance its value at entry `i` is the operand's entry plus the exact sum of the
  updates landing on `i`; update `j` lands at `idx j`, read as a signed integer and not clamped, when that is an index
  of the operand, and is dropped otherwise. So entry `i` is the operand's entry plus the sum of `v j` over the `j` whose
  index word, read signed, is `i` — with `v` all ones, the segment count.
-/
import proofs.«123275_j54631984005526_2_alg».proof.Proof.LibHostScatterAdd
import Idealize.ShloMosaic.PureOps.Ideal

noncomputable section

open Idealize.ShloMosaic Idealize.ShloMosaic.ValueIdx

namespace Cert.HostInt

/-- THE RANK-ONE FLOAT SCATTER-ADD AT AN ENTRY, at the ideal instance: the operand's entry plus the updates whose start
    index, read signed, is `i`. -/
theorem scatterAdd_col_apply {N B w : Nat} {φ : FTy}
    (wf : ScatterDims.WF ⟨1, ![N]⟩ ⟨2, ![B, 1]⟩ ⟨1, ![B]⟩ [] [0] [0] 1)
    (x : FVec Ideal ⟨1, ![N]⟩ φ) (idx : IVec ⟨2, ![B, 1]⟩ w) (upd : FVec Ideal ⟨1, ![B]⟩ φ) (i : Fin N) :
    Host.scatterAdd (F := Ideal) (colScatterDims N B wf) x idx upd (ix1 i)
      = x (ix1 i) + ∑ j : Fin B, if (idx (colEntry j)).toInt = (i.val : Int) then upd (ix1 j) else 0 := by
  show Ideal.hostScatterAdd (colScatterDims N B wf) x idx upd (ix1 i) = _
  unfold Ideal.hostScatterAdd
  refine congrArg (x (ix1 i) + ·) ?_
  rw [Finset.sum_filter]
  have hi := i.isLt
  rw [← Equiv.sum_comp (⟨fun j : Fin B => (ix1 j : (⟨1, ![B]⟩ : Shape).Idx), fun y => y 0, fun _ => rfl,
    fun y => (eq_ix1 y).symm⟩ : Fin B ≃ (⟨1, ![B]⟩ : Shape).Idx)]
  refine Finset.sum_congr rfl fun j _ => ?_
  show (if (colScatterDims N B wf).resultIdx? (ix1 j) idx = some (ix1 i) then upd (ix1 j) else 0) = _
  rw [resultIdx?_col]
  by_cases h : 0 ≤ (idx (colEntry j)).toInt ∧ (idx (colEntry j)).toInt < N
  · rw [dif_pos h]
    by_cases ht : (idx (colEntry j)).toInt = (i.val : Int)
    · rw [if_pos ht, if_pos]
      refine congrArg some (funext fun a => Fin.ext ?_)
      obtain rfl : a = 0 := Subsingleton.elim _ _
      show (idx (colEntry j)).toInt.toNat = i.val
      omega
    · rw [if_neg ht, if_neg]
      intro hh
      have : (idx (colEntry j)).toInt.toNat = i.val :=
        congrArg (fun y : (⟨1, ![N]⟩ : Shape).Idx => (y 0).val) (Option.some.inj hh)
      omega
  · rw [dif_neg h, if_neg (by simp), if_neg (by omega)]

end Cert.HostInt

end
-- ==== Proof.KITailEntries.lean ====
/-
  The pieces of the host tail read at an entry, at the ideal instance.

  Row 0 / row 1 of an edge list as a column of indices; the wrapped source word; the gathered rows; the 128-column
  cut; the segment sum and the segment count as sums over the edges; the mean as a quotient by the larger of the
  count and one.
-/
import proofs.«123275_j54631984005526_2_alg».proof.Proof.KITailDefs
import proofs.«123275_j54631984005526_2_alg».proof.Proof.Spec
import proofs.«123275_j54631984005526_2_alg».proof.Proof.LibHostGather
import proofs.«123275_j54631984005526_2_alg».proof.Proof.LibHostSegmentSum
import proofs.«123275_j54631984005526_2_alg».proof.Proof.LibIdealEntries
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tail

open Cert.KernelIdeal Cert.KernelIdeal.Gen Idealize.ShloMosaic Idealize.ShloMosaic.ValueIdx Idealize.ShloMosaic.TcCoe

/-- Row 0 of an edge list as a vector, at an entry. -/
theorem srcVec_apply (e : IVec S2x250000 32) (r : Fin 250000) :
    srcVec (F := Ideal) e (ix1 r) = e (ix2 (0 : Fin 2) r) := by
  unfold srcVec
  refine (shapeCast_1a_a_apply _ _ r).trans ?_
  refine extractStridedSlice_apply _ _ _ _ (ix2 (0 : Fin 2) r) (fun a => ?_)
  match a with
  | ⟨0, _⟩ => rfl
  | ⟨1, _⟩ => exact (Nat.zero_add _).symm

/-- Row 1 of an edge list as a vector, at an entry. -/
theorem dstVec_apply (e : IVec S2x250000 32) (r : Fin 250000) :
    dstVec (F := Ideal) e (ix1 r) = e (ix2 (1 : Fin 2) r) := by
  unfold dstVec
  refine (shapeCast_1a_a_apply _ _ r).trans ?_
  refine extractStridedSlice_apply _ _ _ _ (ix2 (1 : Fin 2) r) (fun a => ?_)
  match a with
  | ⟨0, _⟩ => rfl
  | ⟨1, _⟩ => exact (Nat.zero_add _).symm

/-- A vector as a one-column table, at an entry. -/
theorem col_apply (v : IVec S250000 32) (r : Fin 250000) :
    broadcastInDim S250000x1 ![0] bcast_S250000_S250000x1_0 v (ix2 r (⟨0, Nat.one_pos⟩ : Fin 1)) = v (ix1 r) := by
  refine broadcastInDim_apply _ _ _ _ (ix1 r) (fun a => ?_)
  match a with
  | ⟨0, _⟩ => exact (if_neg (show ¬ (250000 : Nat) = 1 by decide)).symm

/-- The column of destination indices of an edge list, at an entry: the word in row 1. -/
theorem dstCol_apply (e : IVec S2x250000 32) (r : Fin 250000) :
    dstCol (F := Ideal) e (ix2 r (⟨0, Nat.one_pos⟩ : Fin 1)) = e (ix2 (1 : Fin 2) r) := by
  unfold dstCol dstColOf
  exact (col_apply _ r).trans (dstVec_apply e r)

/-- The wrap of a negative word, as the programs spell it. -/
theorem wrap_eq (s : BitVec 32) :
    Scalar.select (IntOp.cmpi .slt s 0#32) (IntOp.addi s 100000#32) s = Cert.Spec.wrap s := by
  unfold Cert.Spec.wrap Scalar.select IntOp.cmpi IntOp.addi
  show (if BitVec.ofBool (s.slt 0#32) = 1 then s + 100000#32 else s) = if s.slt 0#32 = true then s + 100000#32 else s
  generalize s.slt 0#32 = c
  cases c <;> rfl

/-- The column of start indices of an edge list, at an entry: the word in row 0, wrapped. -/
theorem srcCol_apply (e : IVec S2x250000 32) (r : Fin 250000) :
    srcCol (F := Ideal) e (ix2 r (⟨0, Nat.one_pos⟩ : Fin 1)) = Cert.Spec.wrap (e (ix2 (0 : Fin 2) r)) := by
  unfold srcCol srcColOf
  refine (col_apply _ r).trans ?_
  show Scalar.select (IntOp.cmpi .slt (srcVec (F := Ideal) e (ix1 r)) 0#32) (IntOp.addi (srcVec (F := Ideal) e (ix1 r)) 100000#32) (srcVec (F := Ideal) e (ix1 r)) = _
  rw [srcVec_apply]
  exact wrap_eq _

/-- The gathered rows at an entry: the table at the edge's source node. -/
theorem rows_apply (H : FVec Ideal S100000x1024 .bf16) (e : IVec S2x250000 32) (r : Fin 250000) (c : Fin 1024) :
    rows (F := Ideal) H e (ix2 r c) = H (ix2 (Cert.Spec.src e r) c) := by
  unfold rows rowsOf
  refine (Cert.HostInt.gather_rows_apply (B := 100000) (F := 1024) (N := 250000) (by decide)
    gather_S100000x1024_S250000x1_S250000x1024_1_0_n_n_0_1_11024_wf H (srcCol (F := Ideal) e) r c).trans ?_
  refine congrArg H (congrArg (fun i : Fin 100000 => ix2 i c) (Fin.ext ?_))
  show min (srcCol (F := Ideal) e (ix2 r (⟨0, Nat.one_pos⟩ : Fin 1))).toInt.toNat (100000 - 1) = min (Cert.Spec.wrap (e (ix2 (0 : Fin 2) r))).toInt.toNat (100000 - 1)
  rw [srcCol_apply]

/-- The 128 columns from column `o` on, widened, at an entry. -/
theorem msgsAt_apply (o : Nat) (h : S250000x1024.Slices ![0, o] S250000x128) (R : FVec Ideal S250000x1024 .bf16)
    (r : Fin 250000) (f : Fin 128) (hf : o + f.val < 1024) :
    msgsAt (F := Ideal) ![0, o] h R (ix2 r f) = R (ix2 r ⟨o + f.val, hf⟩) := by
  unfold msgsAt
  show extractStridedSlice S250000x128 ![0, o] R h (ix2 r f) = _
  refine extractStridedSlice_apply _ _ _ _ (ix2 r (⟨o + f.val, hf⟩ : Fin 1024)) (fun a => ?_)
  match a with
  | ⟨0, _⟩ => exact (Nat.zero_add _).symm
  | ⟨1, _⟩ => rfl

/-- The segment sum at an entry: the messages of the edges ending there, added up. -/
theorem segS_apply (d : IVec S250000x1 32) (m : FVec Ideal S250000x128 .f32) (b : Fin 100000) (f : Fin 128) :
    segS (F := Ideal) d m (ix2 b f)
      = ∑ r : Fin 250000, if (d (ix2 r (⟨0, Nat.one_pos⟩ : Fin 1))).toInt = (b.val : Int) then m (ix2 r f) else 0 := by
  unfold segS
  refine (Cert.HostInt.scatterAdd_rows_apply (B := 100000) (F := 128) (N := 250000)
    scatter_S100000x128_S250000x1_S250000x128_1_0_0_1_wf (zeros2 (F := Ideal)) d m b f).trans ?_
  have hz : zeros2 (F := Ideal) (ix2 b f) = 0 := Ideal.ofBits_zero_f32
  rw [hz, zero_add]

/-- The segment count at an entry: one for each edge ending there, added up. -/
theorem segC_apply (d : IVec S250000x1 32) (b : Fin 100000) :
    segC (F := Ideal) d (ix1 b)
      = ∑ r : Fin 250000, if (d (ix2 r (⟨0, Nat.one_pos⟩ : Fin 1))).toInt = (b.val : Int) then Cert.Spec.one else 0 := by
  unfold segC
  refine (Cert.HostInt.scatterAdd_col_apply (N := 100000) (B := 250000)
    scatter_S100000_S250000x1_S250000_n_0_0_1_wf (zeros1 (F := Ideal)) d (onesE (F := Ideal)) b).trans ?_
  have hz : zeros1 (F := Ideal) (ix1 b) = 0 := Ideal.ofBits_zero_f32
  rw [hz, zero_add]
  rfl

/-- The divisor table at an entry: the larger of the count and one. -/
theorem denom_apply (C : FVec Ideal S100000 .f32) (b : Fin 100000) (f : Fin 128) :
    denom (F := Ideal) C (ix2 b f) = max (C (ix1 b)) Cert.Spec.one := by
  unfold denom
  refine (broadcastInDim_apply _ _ _ _ (ix2 b (⟨0, Nat.one_pos⟩ : Fin 1)) (fun a => ?_)).trans ?_
  · match a with
    | ⟨0, _⟩ => exact (if_neg (show ¬ (100000 : Nat) = 1 by decide)).symm
    | ⟨1, _⟩ => exact (if_pos rfl).symm
  refine (broadcastInDim_apply _ _ _ _ (ix1 b) (fun a => ?_)).trans ?_
  · match a with
    | ⟨0, _⟩ => exact (if_neg (show ¬ (100000 : Nat) = 1 by decide)).symm
  rfl

/-- The mean at an entry. -/
theorem meanOf_apply (S : FVec Ideal S100000x128 .f32) (C : FVec Ideal S100000 .f32) (b : Fin 100000) (f : Fin 128) :
    meanOf (F := Ideal) S C (ix2 b f) = Cert.Spec.mean (S (ix2 b f)) (C (ix1 b)) := by
  unfold meanOf Cert.Spec.mean
  show Ideal.div (S (ix2 b f)) (denom (F := Ideal) C (ix2 b f)) = _
  rw [denom_apply]

end Cert.KernelIdeal.Tail

end
-- ==== Proof.KITailSpec.lean ====
/-
  The host tail is the specification.

  At the ideal instance, and with the product table holding relation `t`'s transformed features in its columns
  `128 t … 128 t + 127`, the tail's term equals `Cert.Spec.out` entry by entry: each pass's own mean is the
  specification's pass mean, the last-column sums and the counts added over the seven passes are the sums over the
  seven lists, and the total is divided by eight.
-/
import proofs.«123275_j54631984005526_2_alg».proof.Proof.KITailEntries

noncomputable section

namespace Cert.KernelIdeal.Tail

open Cert.KernelIdeal Cert.KernelIdeal.Gen Idealize.ShloMosaic Idealize.ShloMosaic.ValueIdx Idealize.ShloMosaic.TcCoe

open scoped BigOperators

/-- A pass's segment sum of its 128 columns from column `o` on, against the specification's segment sum of the table's
    columns. -/
theorem segS_rows_apply (H : FVec Ideal S100000x1024 .bf16) (e : IVec S2x250000 32) (o : Nat) (ho : o + 128 ≤ 1024)
    (h : S250000x1024.Slices ![0, o] S250000x128) (b : Fin 100000) (f : Fin 128) :
    segS (F := Ideal) (dstCol (F := Ideal) e) (msgsAt (F := Ideal) ![0, o] h (rows (F := Ideal) H e)) (ix2 b f)
      = Cert.Spec.segSum e (fun i g => H (ix2 i ⟨o + g.val, by have := g.isLt; omega⟩)) b f := by
  rw [segS_apply]
  unfold Cert.Spec.segSum Cert.Spec.dst
  refine Finset.sum_congr rfl fun r _ => ?_
  rw [dstCol_apply, msgsAt_apply o h _ r f (by have := f.isLt; omega), rows_apply]

/-- A pass's count vector is the specification's segment count. -/
theorem pcnt_spec (e : IVec S2x250000 32) (b : Fin 100000) :
    pcnt (F := Ideal) e (ix1 b) = Cert.Spec.segCnt e b := by
  unfold pcnt
  rw [segC_apply]
  unfold Cert.Spec.segCnt Cert.Spec.dst
  refine Finset.sum_congr rfl fun r _ => ?_
  rw [dstCol_apply]

/-- A pass's own mean is the specification's mean of relation `t` over the pass's list, when the pass cuts the
    columns from `128 t` on. -/
theorem pmean_spec (x : FVec Ideal S100000x128 .f32) (W8 : FVec Ideal S8x128x128 .f32) (H : FVec Ideal S100000x1024 .bf16) (hH : ∀ (i : Fin 100000) (t : Fin 8) (f : Fin 128), H (ix2 i ⟨128 * t.val + f.val, by omega⟩) = Cert.Spec.xw x W8 t i f)
    (e : IVec S2x250000 32) (t : Fin 7) (o : Nat) (ho : o = 128 * t.val) (h : S250000x1024.Slices ![0, o] S250000x128)
    (b : Fin 100000) (f : Fin 128) :
    pmean (F := Ideal) H e ![0, o] h (ix2 b f)
      = Cert.Spec.mean (Cert.Spec.segSum e (Cert.Spec.xw x W8 t.castSucc) b f) (Cert.Spec.segCnt e b) := by
  subst ho
  unfold pmean
  rw [meanOf_apply, segS_rows_apply H e (128 * t.val) (by have := t.isLt; omega) h b f]
  refine congrArg₂ Cert.Spec.mean (congrArg (fun T => Cert.Spec.segSum e T b f) ?_) (pcnt_spec e b)
  funext i g
  exact hH i t.castSucc g

/-- A pass's last-column sum is the specification's segment sum of relation 7 over the pass's list. -/
theorem pglob_spec (x : FVec Ideal S100000x128 .f32) (W8 : FVec Ideal S8x128x128 .f32) (H : FVec Ideal S100000x1024 .bf16) (hH : ∀ (i : Fin 100000) (t : Fin 8) (f : Fin 128), H (ix2 i ⟨128 * t.val + f.val, by omega⟩) = Cert.Spec.xw x W8 t i f)
    (e : IVec S2x250000 32) (b : Fin 100000) (f : Fin 128) :
    pglob (F := Ideal) H e (ix2 b f) = Cert.Spec.segSum e (Cert.Spec.xw x W8 (Fin.last 7)) b f := by
  unfold pglob msgsG
  rw [segS_rows_apply H e 896 (by decide) slices_S250000x1024_S250000x128_0_896 b f]
  refine congrArg (fun T => Cert.Spec.segSum e T b f) ?_
  funext i g
  exact hH i (Fin.last 7) g

/-- The seven own means added up from zero are the specification's seven pass means added up from zero. -/
theorem outSum7_spec (x : FVec Ideal S100000x128 .f32) (W8 : FVec Ideal S8x128x128 .f32) (H : FVec Ideal S100000x1024 .bf16) (hH : ∀ (i : Fin 100000) (t : Fin 8) (f : Fin 128), H (ix2 i ⟨128 * t.val + f.val, by omega⟩) = Cert.Spec.xw x W8 t i f)
    (e0 e1 e2 e3 e4 e5 e6 : IVec S2x250000 32) (b : Fin 100000) (f : Fin 128) :
    outSum7 (F := Ideal) H e0 e1 e2 e3 e4 e5 e6 (ix2 b f)
      = (((((((0 + Cert.Spec.passMean x W8 (Cert.Spec.edges e0 e1 e2 e3 e4 e5 e6) 0 b f) + Cert.Spec.passMean x W8 (Cert.Spec.edges e0 e1 e2 e3 e4 e5 e6) 1 b f) + Cert.Spec.passMean x W8 (Cert.Spec.edges e0 e1 e2 e3 e4 e5 e6) 2 b f) + Cert.Spec.passMean x W8 (Cert.Spec.edges e0 e1 e2 e3 e4 e5 e6) 3 b f) + Cert.Spec.passMean x W8 (Cert.Spec.edges e0 e1 e2 e3 e4 e5 e6) 4 b f) + Cert.Spec.passMean x W8 (Cert.Spec.edges e0 e1 e2 e3 e4 e5 e6) 5 b f) + Cert.Spec.passMean x W8 (Cert.Spec.edges e0 e1 e2 e3 e4 e5 e6) 6 b f) := by
  show (((((((zeros2 (F := Ideal) (ix2 b f) + pmean (F := Ideal) H e0 ![0, 0] slices_S250000x1024_S250000x128_0_0 (ix2 b f)) + pmean (F := Ideal) H e1 ![0, 128] slices_S250000x1024_S250000x128_0_128 (ix2 b f)) + pmean (F := Ideal) H e2 ![0, 256] slices_S250000x1024_S250000x128_0_256 (ix2 b f)) + pmean (F := Ideal) H e3 ![0, 384] slices_S250000x1024_S250000x128_0_384 (ix2 b f)) + pmean (F := Ideal) H e4 ![0, 512] slices_S250000x1024_S250000x128_0_512 (ix2 b f)) + pmean (F := Ideal) H e5 ![0, 640] slices_S250000x1024_S250000x128_0_640 (ix2 b f)) + pmean (F := Ideal) H e6 ![0, 768] slices_S250000x1024_S250000x128_0_768 (ix2 b f)) = _
  rw [pmean_spec x W8 H hH e0 0 0 rfl slices_S250000x1024_S250000x128_0_0 b f,
    pmean_spec x W8 H hH e1 1 128 rfl slices_S250000x1024_S250000x128_0_128 b f,
    pmean_spec x W8 H hH e2 2 256 rfl slices_S250000x1024_S250000x128_0_256 b f,
    pmean_spec x W8 H hH e3 3 384 rfl slices_S250000x1024_S250000x128_0_384 b f,
    pmean_spec x W8 H hH e4 4 512 rfl slices_S250000x1024_S250000x128_0_512 b f,
    pmean_spec x W8 H hH e5 5 640 rfl slices_S250000x1024_S250000x128_0_640 b f,
    pmean_spec x W8 H hH e6 6 768 rfl slices_S250000x1024_S250000x128_0_768 b f]
  have hz : zeros2 (F := Ideal) (ix2 b f) = 0 := Ideal.ofBits_zero_f32
  rw [hz]
  rfl

/-- The seven last-column sums added up from zero are the specification's sum over the seven lists. -/
theorem gSum7_spec (x : FVec Ideal S100000x128 .f32) (W8 : FVec Ideal S8x128x128 .f32) (H : FVec Ideal S100000x1024 .bf16) (hH : ∀ (i : Fin 100000) (t : Fin 8) (f : Fin 128), H (ix2 i ⟨128 * t.val + f.val, by omega⟩) = Cert.Spec.xw x W8 t i f)
    (e0 e1 e2 e3 e4 e5 e6 : IVec S2x250000 32) (b : Fin 100000) (f : Fin 128) :
    gSum7 (F := Ideal) H e0 e1 e2 e3 e4 e5 e6 (ix2 b f)
      = ∑ t : Fin 7, Cert.Spec.segSum ((Cert.Spec.edges e0 e1 e2 e3 e4 e5 e6) t) (Cert.Spec.xw x W8 (Fin.last 7)) b f := by
  show (((((((zeros2 (F := Ideal) (ix2 b f) + pglob (F := Ideal) H e0 (ix2 b f)) + pglob (F := Ideal) H e1 (ix2 b f)) + pglob (F := Ideal) H e2 (ix2 b f)) + pglob (F := Ideal) H e3 (ix2 b f)) + pglob (F := Ideal) H e4 (ix2 b f)) + pglob (F := Ideal) H e5 (ix2 b f)) + pglob (F := Ideal) H e6 (ix2 b f)) = _
  rw [pglob_spec x W8 H hH e0 b f, pglob_spec x W8 H hH e1 b f, pglob_spec x W8 H hH e2 b f, pglob_spec x W8 H hH e3 b f, pglob_spec x W8 H hH e4 b f, pglob_spec x W8 H hH e5 b f, pglob_spec x W8 H hH e6 b f]
  have hz : zeros2 (F := Ideal) (ix2 b f) = 0 := Ideal.ofBits_zero_f32
  rw [hz, zero_add, Fin.sum_univ_seven]
  rfl

/-- The seven count vectors added up from zero are the specification's count over the seven lists. -/
theorem gCnt7_spec (e0 e1 e2 e3 e4 e5 e6 : IVec S2x250000 32) (b : Fin 100000) :
    gCnt7 (F := Ideal) e0 e1 e2 e3 e4 e5 e6 (ix1 b) = ∑ t : Fin 7, Cert.Spec.segCnt ((Cert.Spec.edges e0 e1 e2 e3 e4 e5 e6) t) b := by
  show (((((((zeros1 (F := Ideal) (ix1 b) + pcnt (F := Ideal) e0 (ix1 b)) + pcnt (F := Ideal) e1 (ix1 b)) + pcnt (F := Ideal) e2 (ix1 b)) + pcnt (F := Ideal) e3 (ix1 b)) + pcnt (F := Ideal) e4 (ix1 b)) + pcnt (F := Ideal) e5 (ix1 b)) + pcnt (F := Ideal) e6 (ix1 b)) = _
  rw [pcnt_spec e0 b, pcnt_spec e1 b, pcnt_spec e2 b, pcnt_spec e3 b, pcnt_spec e4 b, pcnt_spec e5 b, pcnt_spec e6 b]
  have hz : zeros1 (F := Ideal) (ix1 b) = 0 := Ideal.ofBits_zero_f32
  rw [hz, zero_add, Fin.sum_univ_seven]
  rfl

/-- THE TAIL IS THE SPECIFICATION. -/
theorem tailK_eq_spec (x : FVec Ideal S100000x128 .f32) (W8 : FVec Ideal S8x128x128 .f32) (H : FVec Ideal S100000x1024 .bf16)
    (e0 e1 e2 e3 e4 e5 e6 : IVec S2x250000 32)
    (hH : ∀ (i : Fin 100000) (t : Fin 8) (f : Fin 128), H (ix2 i ⟨128 * t.val + f.val, by omega⟩) = Cert.Spec.xw x W8 t i f) :
    tailK (F := Ideal) H e0 e1 e2 e3 e4 e5 e6 = Cert.Spec.out x W8 (Cert.Spec.edges e0 e1 e2 e3 e4 e5 e6) := by
  funext j
  obtain ⟨b, f, rfl⟩ : ∃ (b : Fin 100000) (f : Fin 128), j = ix2 b f := ⟨j 0, j 1, eq_ix2 j⟩
  show Ideal.div (outSum7 (F := Ideal) H e0 e1 e2 e3 e4 e5 e6 (ix2 b f)
      + meanOf (F := Ideal) (gSum7 (F := Ideal) H e0 e1 e2 e3 e4 e5 e6) (gCnt7 (F := Ideal) e0 e1 e2 e3 e4 e5 e6) (ix2 b f))
      (eights (F := Ideal) (ix2 b f)) = _
  rw [outSum7_spec x W8 H hH, meanOf_apply, gSum7_spec x W8 H hH, gCnt7_spec]
  rfl

end Cert.KernelIdeal.Tail

end
-- ==== Proof.KIValuePay.lean ====
/-
  The body's one stored value, entry by entry. The body loads its point's block of node features (4000 rows of 128)
  and the whole matrix of the eight relation matrices side by side (128 rows of 1024), changes the number format of
  both (the identity over the extended reals), multiplies them into a zero accumulator and changes the format of the
  product once more. So entry (p, q) of what it stores is the sum over k of block entry (p, k) times matrix entry
  (k, q): the contraction runs over the block's second axis and the matrix's first, and a contraction index is its
  one coordinate.
-/
import proofs.«123275_j54631984005526_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Value2

open Idealize.ShloMosaic Idealize.ShloMosaic.ValueIdx
open Cert.KernelIdeal Cert.KernelIdeal.Gen

/-- The product's dimension numbers: contract axis 1 of the left operand with axis 0 of the right. -/
abbrev D := dot_S4000x128_S128x1024_S4000x1024_1_0_0_1_n_n

/-- The left operand's row coordinate is the output's row. -/
theorem lhs_row (i : S4000x1024.Idx) (κ : D.contr.Idx) : (D.lhsIdx i κ 0).val = (i 0).val := by
  unfold DotDims.lhsIdx
  rw [dif_neg (show ¬(0 : Fin S4000x128.rank) ∈ D.lhsBatch by decide),
    dif_pos (show (0 : Fin S4000x128.rank) ∈ D.lhsNonContracting by decide)]
  rfl

/-- The left operand's column coordinate is the contraction index. -/
theorem lhs_col (i : S4000x1024.Idx) (κ : D.contr.Idx) : (D.lhsIdx i κ 1).val = (κ ⟨0, by decide⟩).val :=
  D.lhsIdx_val_of_single rfl i κ

/-- The right operand's row coordinate is the contraction index. -/
theorem rhs_row (i : S4000x1024.Idx) (κ : D.contr.Idx) : (D.rhsIdx i κ 0).val = (κ ⟨0, by decide⟩).val :=
  D.rhsIdx_val_of_single rfl i κ

/-- The right operand's column coordinate is the output's column. -/
theorem rhs_col (i : S4000x1024.Idx) (κ : D.contr.Idx) : (D.rhsIdx i κ 1).val = (i 1).val := by
  unfold DotDims.rhsIdx
  rw [dif_neg (show ¬(1 : Fin S128x1024.rank) ∈ D.rhsBatch by decide),
    dif_pos (show (1 : Fin S128x1024.rank) ∈ D.rhsNonContracting by decide)]
  rfl

/-- ENTRY (p, q) OF THE STORED VALUE: row p of the features block times column q of the matrix. -/
theorem pay_apply (v0 : Vec Ideal S4000x128 .f32) (v2 : Vec Ideal S128x1024 .f32) (p : Fin 4000) (q : Fin 1024) :
    Gen.k0_pay1 (F := Ideal) v0 v2 (ix2 p q) = ∑ k : Fin 128, v0 (ix2 p k) * v2 (ix2 k q) := by
  unfold Gen.k0_pay1
  refine (Ideal.matmul_constant_zero_apply D none
    (truncf .bf16 v0 bitsLt_bf16_f32 : FVec Ideal S4000x128 .bf16)
    (truncf .bf16 (shapeCast S128x1024 v2 shapeCasts_S128x1024_S128x1024) bitsLt_bf16_f32 : FVec Ideal S128x1024 .bf16)
    (ix2 p q)).trans ?_
  rw [← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs_row _ _
    | ⟨1, _⟩ => exact (lhs_col _ _).trans hk)
  have er : D.rhsIdx (ix2 p q) ((contrEquiv1 D 128 rfl rfl).symm k) = ix2 k q := funext fun a => Fin.ext (by
    match a with
    | ⟨0, _⟩ => exact (rhs_row _ _).trans hk
    | ⟨1, _⟩ => exact rhs_col _ _)
  rw [el, er, shapeCast_self]
  rfl

end Cert.KernelIdeal.Value2

end
-- ==== Proof.KIValueArray.lean ====
/-
  From the blocks to the whole array. The grid has 25 points; at point `t` the body is given rows
  `4000 t … 4000 t + 3999` of the node features (window 0) and the whole matrix (window 1, block (0, 0) at every
  point) and leaves in the output window the product of the two, which the pipeline writes back to rows
  `4000 t … 4000 t + 3999` of the output array. Entry (p, q) of that block is row `4000 t + p` of the features times
  column `q` of the matrix, which is entry (4000 t + p, q) of the product of the two whole arrays: every point writes
  back its block of ONE array. Row `i` of the output lies in the block of point `i / 4000`, so the blocks cover the
  array and the array ends holding the product.
-/
import proofs.«123275_j54631984005526_2_alg».proof.Proof.KIFrameDefs
import proofs.«123275_j54631984005526_2_alg».proof.Proof.KIValuePay
import Idealize.ShloMosaic.Lib.Pipeline.Value
import Idealize.ShloMosaic.Lib.ValueIdx

noncomputable section

namespace Cert.KernelIdeal.Value2

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (c : Dev nD)

theorem zero_offsets : (![0, 0] : Fin 2 → Nat) = fun _ => 0 := funext fun a => by fin_cases a <;> rfl

/-- The product of a `[100000, 128]` array with a `[128, 1024]` array, entry by entry. -/
def prodArr (a0 : S100000x128.Idx → EReal) (a1 : S128x1024.Idx → EReal) : S100000x1024.Idx → EReal := fun i =>
  ∑ k : Fin 128, a0 (ix2 (⟨(i 0).val, idx2_lt0 i⟩ : Fin 100000) k) * a1 (ix2 k (⟨(i 1).val, idx2_lt1 i⟩ : Fin 1024))

theorem prodArr_apply (a0 : S100000x128.Idx → EReal) (a1 : S128x1024.Idx → EReal) (i : Fin 100000) (q : Fin 1024) :
    prodArr a0 a1 (ix2 i q) = ∑ k : Fin 128, a0 (ix2 i k) * a1 (ix2 k q) := rfl

/-- The printed index maps over the grid: the features' and the output's blocks move down one block of rows per
    point, the matrix's block is (0, 0) at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Window 0's block at point `t`: rows `4000 t …` of the features as the region finds them. -/
theorem iblk0_apply (t : Fin cfg0.N) (p : Fin 4000) (k : Fin 128) (i : Fin 100000) (hi : i.val = 4000 * t.val + p.val) :
    (Hand.iblk m c 0 t : Vec Ideal S4000x128 .f32) (ix2 p k)
      = (Hand.V m c main_arg0 : S100000x128.Idx → EReal) (ix2 i k) := by
  obtain ⟨e0, e1, -, -, -, -⟩ := idx_facts t
  unfold Hand.iblk
  rw [View.read_apply]
  show Hand.V m c main_arg0 _ = Hand.V m c main_arg0 _
  refine congrArg (Hand.V m c main_arg0) (funext fun a => Fin.ext ?_)
  match a with
  | ⟨0, _⟩ => show win0_0.index t (0 : Fin 2) * 4000 + 1 * p.val = i.val; rw [e0, hi]; omega
  | ⟨1, _⟩ => show win0_0.index t (1 : Fin 2) * 128 + 1 * k.val = k.val; rw [e1]; omega

/-- Window 1's block at every point: the whole matrix as the region finds it. -/
theorem iblk1_apply (t : Fin cfg0.N) (k : Fin 128) (q : Fin 1024) :
    (Hand.iblk m c 1 t : Vec Ideal S128x1024 .f32) (ix2 k q)
      = (Hand.V m c main_v1 : S128x1024.Idx → EReal) (ix2 k q) := by
  obtain ⟨-, -, e0, e1, -, -⟩ := idx_facts t
  unfold Hand.iblk
  rw [View.read_apply]
  show Hand.V m c main_v1 _ = Hand.V m c main_v1 _
  refine congrArg (Hand.V m c main_v1) (funext fun a => Fin.ext ?_)
  match a with
  | ⟨0, _⟩ => show win0_1.index t (0 : Fin 2) * 128 + 1 * k.val = k.val; rw [e0]; omega
  | ⟨1, _⟩ => show win0_1.index t (1 : Fin 2) * 1024 + 1 * q.val = q.val; rw [e1]; omega

/-- The output window's block of an array at point `t`: its rows `4000 t …`. -/
theorem read_blk2_apply (G : S100000x1024.Idx → EReal) (t : Fin cfg0.N) (p : Fin 4000) (q : Fin 1024) (i : Fin 100000)
    (hi : i.val = 4000 * t.val + p.val) :
    (((cfg0.win 2).blk t).view.read (Elt Ideal) G : S4000x1024.Idx → EReal) (ix2 p q) = G (ix2 i q) := by
  obtain ⟨-, -, -, -, e0, e1⟩ := idx_facts t
  rw [View.read_apply]
  show G _ = G _
  refine congrArg G (funext fun a => Fin.ext ?_)
  match a with
  | ⟨0, _⟩ => show win0_2.index t (0 : Fin 2) * 4000 + 1 * p.val = i.val; rw [e0, hi]; omega
  | ⟨1, _⟩ => show win0_2.index t (1 : Fin 2) * 1024 + 1 * q.val = q.val; rw [e1]; omega

section
variable (dat : Dat τ (Elt Ideal) Unit ℕ (UR sig nD τ) ℕ cfg0 c)

/-- WHAT POINT `t` WRITES BACK is block `t` of the product of the two arrays as the region finds them. -/
theorem flushed2_eq (hafter : ∀ t, dat.after 2 t = Hand.out0_2 (Hand.iblk m c 0 t) (Hand.iblk m c 1 t)) (t : Fin cfg0.N) :
    dat.flushed 2 t
      = ((cfg0.win 2).blk t).view.read (Elt Ideal) (prodArr (Hand.V m c main_arg0) (Hand.V m c main_v1)) := by
  have hN : grid0.N = 25 := N_0
  have ht : t.val < 25 := hN ▸ t.isLt
  show (cfg0.win 2).cut (grid0.coords t) (dat.after 2 t) = _
  rw [hafter]
  unfold Hand.out0_2
  rw [View.canon_unit_zero zero_offsets]
  simp only [View.ld_unit_zero (S := S4000x128) zero_offsets, View.ld_unit_zero (S := S128x1024) zero_offsets]
  funext j
  obtain ⟨p, q, rfl⟩ : ∃ (p : Fin 4000) (q : Fin 1024), j = ix2 p q := ⟨j 0, j 1, eq_ix2 j⟩
  refine (pay_apply (Hand.iblk m c 0 t) (Hand.iblk m c 1 t) p q).trans ?_
  refine Eq.trans ?_ (read_blk2_apply _ t p q ⟨4000 * t.val + p.val, by omega⟩ rfl).symm
  rw [prodArr_apply]
  refine Finset.sum_congr rfl fun k _ => ?_
  rw [iblk0_apply m c t p k ⟨4000 * t.val + p.val, by omega⟩ rfl, iblk1_apply m c t k q]

/-- An index of the output array is in point `t`'s block iff each coordinate is in the block's range on its axis. -/
theorem mem_blk2 (t : Fin cfg0.N) (i : S100000x1024.Idx) :
    i ∈ ((cfg0.win 2).blk t).view.set ↔ ∀ a : Fin 2, win0_2.index t a * S4000x1024.size a ≤ (i a).val
      ∧ (i a).val < win0_2.index t a * S4000x1024.size a + S4000x1024.size a := by
  show i ∈ ((View.whole main_v2).slice (win0_2.rect t)).set ↔ _
  rw [View.set_slice_whole, Rect.mem_set_unit]
  exact Iff.rfl

/-- Every index of the output array is in the block of the point its row falls to. -/
theorem cover2 (i : S100000x1024.Idx) :
    ∃ t : Fin cfg0.N, (cfg0.win 2).flush t = true ∧ i ∈ ((cfg0.win 2).blk t).view.set := by
  have hi0 : (i 0).val < 100000 := idx2_lt0 i
  have hi1 : (i 1).val < 1024 := idx2_lt1 i
  have hN : grid0.N = 25 := N_0
  obtain ⟨t, ht⟩ : ∃ t : Fin cfg0.N, t.val = (i 0).val / 4000 :=
    ⟨⟨(i 0).val / 4000, by show (i 0).val / 4000 < grid0.N; omega⟩, rfl⟩
  obtain ⟨-, -, -, -, e0, e1⟩ := idx_facts t
  refine ⟨t, flush0_2 t, ?_⟩
  rw [mem_blk2]
  intro a
  match a with
  | ⟨0, _⟩ =>
    show win0_2.index t (0 : Fin 2) * 4000 ≤ (i 0).val ∧ (i 0).val < win0_2.index t (0 : Fin 2) * 4000 + 4000
    rw [e0, ht]; omega
  | ⟨1, _⟩ =>
    show win0_2.index t (1 : Fin 2) * 1024 ≤ (i 1).val ∧ (i 1).val < win0_2.index t (1 : Fin 2) * 1024 + 1024
    rw [e1]; omega

/-- THE OUTPUT ARRAY after the region: the features as the region finds them times the matrix as the region finds
    it (`prodArr_apply` reads the product at an entry). -/
theorem final2_of (hA : ∀ w, dat.A w = Hand.V m c (Pipeline.arrRef spec0 w))
    (hafter : ∀ t, dat.after 2 t = Hand.out0_2 (Hand.iblk m c 0 t) (Hand.iblk m c 1 t)) :
    dat.arrAt 2 cfg0.N = prodArr (Hand.V m c main_arg0) (Hand.V m c main_v1) :=
  dat.arrAt_eq_of_cover 2 (prodArr (Hand.V m c main_arg0) (Hand.V m c main_v1))
    (fun t _ => flushed2_eq m c dat hafter t) cover2

/-- The same at an entry. -/
theorem final2_apply (hA : ∀ w, dat.A w = Hand.V m c (Pipeline.arrRef spec0 w))
    (hafter : ∀ t, dat.after 2 t = Hand.out0_2 (Hand.iblk m c 0 t) (Hand.iblk m c 1 t))
    (i : Fin 100000) (q : Fin 1024) :
    (dat.arrAt 2 cfg0.N : S100000x1024.Idx → EReal) (ix2 i q)
      = prodArr (Hand.V m c main_arg0) (Hand.V m c main_v1) (ix2 i q) :=
  congrFun (final2_of m c dat hA hafter) (ix2 i q)

end

end Cert.KernelIdeal.Value2

end
-- ==== Proof.KIValueEntry.lean ====
/-
  The two arrays the region reads, as it finds them. The node features are written by no line before the region, so
  the region finds them as launched. The second array is written by the two lines before the region: the relation
  matrices `W : [8, 128, 128]` are transposed to `[128, 8, 128]` (entry (k, t, f) is `W (t, k, f)`) and the result
  is reshaped to `[128, 1024]`; row-major, entry (k, t, f) of the transposed array sits at position
  (k · 8 + t) · 128 + f = k · 1024 + (128 · t + f), so entry (k, 128 · t + f) of the matrix is `W (t, k, f)`: the
  eight matrices stand side by side.
-/
import proofs.«123275_j54631984005526_2_alg».proof.Proof.KIFrameDefs
import Idealize.ShloMosaic.Lib.Pipeline.Value
import Idealize.ShloMosaic.Lib.ValueIdx

noncomputable section

namespace Cert.KernelIdeal.Value2

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- No line before the region writes the node features: the region finds them as launched. -/
theorem V_main_arg0 (c : Dev nD) : Hand.V m c main_arg0 = m ((c : Thread nD τ).loc main_arg0) :=
  StableHlo.after_of_forall_not_mem (b := Proc.devRef .tc main_arg0) _ _ (List.forall_iff_forall_mem.mp (by
    simp only [main_part0_ops0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

/-- The matrix the region finds is the reshape of the transpose of the launched relation matrices. -/
theorem V_main_v1_eq (c : Dev nD) :
    (Hand.V m c main_v1 : S128x1024.Idx → Elt F .f32)
      = shapeCast S128x1024
          (transpose S128x8x128 [1, 0, 2] (m ((c : Thread nD τ).loc main_arg1) : S8x128x128.Idx → Elt F .f32)
            transposes_S8x128x128_S128x8x128_1_0_2)
          shapeCasts_S128x8x128_S128x1024 := by
  dsimp only [Hand.V, Hand.V0, Hand.headOps]
  simp only [main_part0_ops0, List.flatten_cons, List.flatten_nil, List.append_nil]
  after_results
  rfl

/-- ENTRY (k, 128 · t + f) OF THE MATRIX is entry (t, k, f) of the relation matrices. -/
theorem V_main_v1 (c : Dev nD) (t : Fin 8) (k f : Fin 128) :
    (Hand.V m c main_v1 : S128x1024.Idx → Elt F .f32) (ix2 k (⟨128 * t.val + f.val, by omega⟩ : Fin 1024))
      = (m ((c : Thread nD τ).loc main_arg1) : S8x128x128.Idx → Elt F .f32) (ix3 t k f) := by
  rw [V_main_v1_eq]
  rw [shapeCast_apply _ shapeCasts_S128x8x128_S128x1024 (ix2 k (⟨128 * t.val + f.val, by omega⟩ : Fin 1024)) (ix3 k t f) (by
    rw [Shape.rowMajor_val_three, Shape.rowMajor_val_two]
    show (k.val * 8 + t.val) * 128 + f.val = k.val * 1024 + (128 * t.val + f.val)
    omega)]
  exact transpose_apply [1, 0, 2] _ transposes_S8x128x128_S128x8x128_1_0_2 (ix3 k t f) (ix3 t k f) (fun b => by
    match b with
    | ⟨0, _⟩ => rfl
    | ⟨1, _⟩ => rfl
    | ⟨2, _⟩ => rfl)

end Cert.KernelIdeal.Value2

end
-- ==== Proof.KIValueH.lean ====
/-
  The kernel's matrix product against the specification. The output array of the region holds, at row `i` and column
  `128 · t + f`, the sum over `k` of feature `(i, k)` times matrix entry `(k, 128 · t + f)`; the features are the
  launched ones and the matrix entry is `W (t, k, f)`, so the entry is relation `t` applied to node `i` at feature `f`.
-/
import proofs.«123275_j54631984005526_2_alg».proof.Proof.KIValueArray
import proofs.«123275_j54631984005526_2_alg».proof.Proof.KIValueEntry
import proofs.«123275_j54631984005526_2_alg».proof.Proof.Spec

noncomputable section

namespace Cert.KernelIdeal.Value2

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (c : Dev nD)
variable (dat : Dat τ (Elt Ideal) Unit ℕ (UR sig nD τ) ℕ cfg0 c)

/-- ENTRY (i, 128 · t + f) OF THE REGION'S OUTPUT ARRAY is relation `t` applied to node `i`, feature `f`, of the
    launched node features and relation matrices. -/
theorem H_entry (hA : ∀ w, dat.A w = Hand.V m c (Pipeline.arrRef spec0 w))
    (hafter : ∀ t, dat.after 2 t = Hand.out0_2 (Hand.iblk m c 0 t) (Hand.iblk m c 1 t))
    (i : Fin 100000) (t : Fin 8) (f : Fin 128) :
    (dat.arrAt 2 cfg0.N : S100000x1024.Idx → EReal) (ix2 i (⟨128 * t.val + f.val, by omega⟩ : Fin 1024))
      = Cert.Spec.xw (m ((c : Thread nD τ).loc main_arg0)) (m ((c : Thread nD τ).loc main_arg1)) t i f := by
  have h : prodArr (Hand.V m c main_arg0) (Hand.V m c main_v1) (ix2 i (⟨128 * t.val + f.val, by omega⟩ : Fin 1024))
      = Cert.Spec.xw (m ((c : Thread nD τ).loc main_arg0)) (m ((c : Thread nD τ).loc main_arg1)) t i f := by
    rw [prodArr_apply]
    unfold Cert.Spec.xw
    refine Finset.sum_congr rfl fun k _ => ?_
    rw [V_main_arg0 m c, V_main_v1 m c t k f]
  exact (final2_apply m c dat hA hafter i _).trans h

end Cert.KernelIdeal.Value2

end
-- ==== Proof.KIValueRun.lean ====
/-
  What the idealized kernel's result array holds when @main ends, over the extended reals: the later host lines'
  composed function of the product array and the seven edge lists, at what the region's exit holds — the product array
  as the write-backs left it, entry `(i, 128 t + f)` being `Σ k, x (i, k) · W (t, k, f)`, and the edge lists as
  launched — which is the specification `Cert.Spec.out` of the launched arguments.
-/
import proofs.«123275_j54631984005526_2_alg».proof.Proof.KIFrameRun
import proofs.«123275_j54631984005526_2_alg».proof.Proof.KITailResult
import proofs.«123275_j54631984005526_2_alg».proof.Proof.KITailSpec
import proofs.«123275_j54631984005526_2_alg».proof.Proof.KIValueH

set_option maxRecDepth 16384

noncomputable section

namespace Cert.KernelIdeal.Hand

open Idealize.ShloMosaic Idealize.ShloMosaic.TcCoe
open Idealize.SL Idealize.SL.Sem
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

/-- An edge list, no array of the region and written by no line, holds at the region's exit what was launched. -/
theorem exit_arg (c : Dev nD) (A : (w : Fin 3) → Buf (Elt Ideal) ((spec0 w).arr.view.loc (c.tc : Thread nD τ)))
    (r : Ref sig .tc) (h0 : main_arg0 ≠ r) (h1 : main_v1 ≠ r) (h2 : main_v2 ≠ r) (hh : r ∉ headW) :
    Pipeline.withArrays spec0 c (V0 m c) A (Proc.devRef .tc r) = m ((c : Thread nD τ).loc r) :=
  (Pipeline.withArrays_of_ne spec0 c (V0 m c) A r (arr_ne r h0 h1 h2)).trans (V_keep m c r hh)

/-- THE RESULT: the buffer of the last line holds the specification of the launched arguments. -/
theorem result_eq (c : Dev nD) :
    Pipeline.afterTail₀ cfgs (dats m) 0 (V0 m) tailOps c main_v272
      = Cert.Spec.out (m ((c.tc : Thread nD τ).loc main_arg0)) (m ((c.tc : Thread nD τ).loc main_arg1))
          (Cert.Spec.edges (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6))
            (m ((c.tc : Thread nD τ).loc main_arg7)) (m ((c.tc : Thread nD τ).loc main_arg8))) := by
  unfold Pipeline.afterTail₀
  refine (Tail.tail_result _).trans ?_
  rw [show Pipeline.withArrays (cfgs 0).spec c (V0 m c) (fun w => (dats m 0 c).arrAt w (cfgs 0).N) (Proc.devRef .tc main_v2)
        = (dats m 0 c).arrAt 2 cfg0.N from Pipeline.withArrays_arr spec0 launch0.win.arr_inj c _ _ 2,
    exit_arg m c _ main_arg2 (by decide) (by decide) (by decide) (by decide),
    exit_arg m c _ main_arg3 (by decide) (by decide) (by decide) (by decide),
    exit_arg m c _ main_arg4 (by decide) (by decide) (by decide) (by decide),
    exit_arg m c _ main_arg5 (by decide) (by decide) (by decide) (by decide),
    exit_arg m c _ main_arg6 (by decide) (by decide) (by decide) (by decide),
    exit_arg m c _ main_arg7 (by decide) (by decide) (by decide) (by decide),
    exit_arg m c _ main_arg8 (by decide) (by decide) (by decide) (by decide)]
  exact Tail.tailK_eq_spec _ _ _ _ _ _ _ _ _ _
    (fun i t f => Value2.H_entry m c (dats m 0 c) (A_eq m c) (after0_2 m c) i t f)

/-- The idealized kernel's run: it terminates with the result array at the specification of the launched arguments,
    the nine arguments as launched. -/
theorem run_spec : θ_run (defs (F := Ideal)) (onTc (τ := τ) (main (F := Ideal))) ⟨m, fun _ => 0, ρ⟩ (fun r => ∀ c : Dev nD,
      r.2.mem ((c.tc : Thread nD τ).loc main_v272)
        = Cert.Spec.out (m ((c.tc : Thread nD τ).loc main_arg0)) (m ((c.tc : Thread nD τ).loc main_arg1))
          (Cert.Spec.edges (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6))
            (m ((c.tc : Thread nD τ).loc main_arg7)) (m ((c.tc : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_v272 (Pipeline.mem_restRefs_of main_v272 (by decide) (by decide))).trans (result_eq m c),
      ((h c).1 0).trans (((dats m 0 c).arrAt_in 0 rfl _).trans ((A_eq m c 0).trans (V_keep m c main_arg0 (by decide)))),
      ((h c).2 main_arg1 (Pipeline.mem_restRefs_of main_arg1 (by decide) (by decide))).trans (arg_keep m c main_arg1 (arr_ne _ (by decide) (by decide) (by decide)) (by decide) (by decide) (by decide) (by decide) (by decide) (by decide) (by decide)),
      ((h c).2 main_arg2 (Pipeline.mem_restRefs_of main_arg2 (by decide) (by decide))).trans (arg_keep m c main_arg2 (arr_ne _ (by decide) (by decide) (by decide)) (by decide) (by decide) (by decide) (by decide) (by decide) (by decide) (by decide)),
      ((h c).2 main_arg3 (Pipeline.mem_restRefs_of main_arg3 (by decide) (by decide))).trans (arg_keep m c main_arg3 (arr_ne _ (by decide) (by decide) (by decide)) (by decide) (by decide) (by decide) (by decide) (by decide) (by decide) (by decide)),
      ((h c).2 main_arg4 (Pipeline.mem_restRefs_of main_arg4 (by decide) (by decide))).trans (arg_keep m c main_arg4 (arr_ne _ (by decide) (by decide) (by decide)) (by decide) (by decide) (by decide) (by decide) (by decide) (by decide) (by decide)),
      ((h c).2 main_arg5 (Pipeline.mem_restRefs_of main_arg5 (by decide) (by decide))).trans (arg_keep m c main_arg5 (arr_ne _ (by decide) (by decide) (by decide)) (by decide) (by decide) (by decide) (by decide) (by decide) (by decide) (by decide)),
      ((h c).2 main_arg6 (Pipeline.mem_restRefs_of main_arg6 (by decide) (by decide))).trans (arg_keep m c main_arg6 (arr_ne _ (by decide) (by decide) (by decide)) (by decide) (by decide) (by decide) (by decide) (by decide) (by decide) (by decide)),
      ((h c).2 main_arg7 (Pipeline.mem_restRefs_of main_arg7 (by decide) (by decide))).trans (arg_keep m c main_arg7 (arr_ne _ (by decide) (by decide) (by decide)) (by decide) (by decide) (by decide) (by decide) (by decide) (by decide) (by decide)),
      ((h c).2 main_arg8 (Pipeline.mem_restRefs_of main_arg8 (by decide) (by decide))).trans (arg_keep m c main_arg8 (arr_ne _ (by decide) (by decide) (by decide)) (by decide) (by decide) (by decide) (by decide) (by decide) (by decide) (by decide))⟩)
    (run_main m ρ)

end Cert.KernelIdeal.Hand

end
-- ==== Proof.RefSpecDot.lean ====
/-
  The reference's transformed features, read at an entry.

  Relation `t` of the stacked matrices `W : [8, 128, 128]` is taken as the slice `[t : t + 1, :, :]` with its leading
  unit axis dropped, so its entry `(k, f)` is `W (t, k, f)`. The product of the node features `x : [100000, 128]` with
  it contracts the features' second axis against the matrix's first: entry `(i, f)` is `Σ k, x (i, k) · W (t, k, f)`.
-/
import proofs.«123275_j54631984005526_2_alg».proof.Proof.Gen.ReferenceIdeal
import proofs.«123275_j54631984005526_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx Idealize.SL.Sem
open Cert.ReferenceIdeal Cert.ReferenceIdeal.Gen

namespace Cert.ReferenceIdeal.RefValue

/-- Relation `o` of the stacked matrices at `(k, f)`. -/
theorem slice_W_apply (o : Nat) (ho : o < 8) (hs : S8x128x128.Slices ![o, 0, 0] S1x128x128)
    (W8 : FVec Ideal S8x128x128 .f32) (k f : Fin 128) :
    shapeCast S128x128 (extractStridedSlice S1x128x128 ![o, 0, 0] W8 hs) shapeCasts_S1x128x128_S128x128 (ix2 k f)
      = W8 (ix3 ⟨o, ho⟩ k f) := by
  rw [shapeCast_1ab_ab_apply]
  refine extractStridedSlice_apply _ _ _ _ _ ?_
  intro a
  match a with
  | ⟨0, _⟩ => rfl
  | ⟨1, _⟩ => show k.val = 0 + k.val; omega
  | ⟨2, _⟩ => show f.val = 0 + f.val; omega

/-- THE TRANSFORMED FEATURES AT AN ENTRY: relation `o` applied to node `i`, feature `f`. -/
theorem xw_entry (o : Nat) (ho : o < 8) (hs : S8x128x128.Slices ![o, 0, 0] S1x128x128)
    (x : FVec Ideal S100000x128 .f32) (W8 : FVec Ideal S8x128x128 .f32) (i : Fin 100000) (f : Fin 128) :
    Host.dotGeneral (F := Ideal) dot_S100000x128_S128x128_S100000x128_1_0_0_1_n_n none x
        (shapeCast S128x128 (extractStridedSlice S1x128x128 ![o, 0, 0] W8 hs) shapeCasts_S1x128x128_S128x128) (ix2 i f)
      = Cert.Spec.xw x W8 ⟨o, ho⟩ i f := by
  simp only [Host.dotGeneral]
  rw [Ideal.dotGeneral_apply]
  unfold Cert.Spec.xw
  rw [← Equiv.sum_comp (contrEquiv1 dot_S100000x128_S128x128_S100000x128_1_0_0_1_n_n 128 rfl rfl)]
  refine Finset.sum_congr rfl fun q _ => ?_
  have hl : dot_S100000x128_S128x128_S100000x128_1_0_0_1_n_n.lhsIdx (ix2 i f) q
      = ix2 i (contrEquiv1 dot_S100000x128_S128x128_S100000x128_1_0_0_1_n_n 128 rfl rfl q) := by
    funext a
    match a with
    | ⟨0, _⟩ => rfl
    | ⟨1, _⟩ => rfl
  have hr : dot_S100000x128_S128x128_S100000x128_1_0_0_1_n_n.rhsIdx (ix2 i f) q
      = ix2 (contrEquiv1 dot_S100000x128_S128x128_S100000x128_1_0_0_1_n_n 128 rfl rfl q) f := by
    funext a
    match a with
    | ⟨0, _⟩ => rfl
    | ⟨1, _⟩ => rfl
  rw [hl, hr, slice_W_apply o ho hs]

end Cert.ReferenceIdeal.RefValue

end
-- ==== Proof.RefSpecPass.lean ====
/-
  One pass of the reference — gather the transformed rows at the edges' sources, add them up at the edges'
  destinations, count the edges per destination, divide — read at an entry, for an edge list of any length `N`.

  The source vector is wrapped (a negative word gains 100000) and becomes the column of start indices of the row
  gather, which reads it signed and clamps it into the table's rows. The destination vector becomes the column of
  scatter indices of the two accumulating scatters, which read it signed and drop an update whose destination is no
  row. So entry `(b, f)` of the pass is the sum, over the edges ending at `b`, of the table's row at the edge's source,
  divided by the larger of the number of those edges and one.
-/
import proofs.«123275_j54631984005526_2_alg».proof.Proof.Gen.ReferenceIdeal
import proofs.«123275_j54631984005526_2_alg».proof.Proof.Spec
import proofs.«123275_j54631984005526_2_alg».proof.Proof.LibHostGather
import proofs.«123275_j54631984005526_2_alg».proof.Proof.LibHostSegmentSum
import proofs.«123275_j54631984005526_2_alg».proof.Proof.LibIdealEntries
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx Idealize.SL.Sem
open Cert.ReferenceIdeal Cert.ReferenceIdeal.Gen

namespace Cert.ReferenceIdeal.RefValue

open Cert.HostInt

/-- A vector made the column of a `[N, 1]` array, read at row `r`. -/
theorem bcast_col_apply {α : Type} {N : Nat} (h : (⟨1, ![N]⟩ : Shape).BroadcastsInDim ⟨2, ![N, 1]⟩ ![0])
    (v : (⟨1, ![N]⟩ : Shape).Idx → α) (r : Fin N) :
    broadcastInDim (⟨2, ![N, 1]⟩ : Shape) ![0] h v (ix2 r ⟨0, Nat.one_pos⟩) = v (ix1 r) := by
  refine broadcastInDim_apply _ _ _ _ _ ?_
  intro a
  obtain rfl : a = 0 := Subsingleton.elim _ _
  show r.val = if N = 1 then 0 else r.val
  have := r.isLt
  split <;> omega

/-- A scalar spread over a shape, read anywhere. -/
theorem bcast_scalar_apply {α : Type} {t : Shape} (h : S_.BroadcastsInDim t ![]) (v : S_.Idx → α) (j : t.Idx) :
    broadcastInDim t ![] h v j = v ix0 :=
  broadcastInDim_apply _ _ _ _ _ (fun a => a.elim0)

/-- The wrap of a negative source word, as the program selects it. -/
theorem wrap_word (s : BitVec 32) :
    Scalar.select (IntOp.cmpi .slt s 0#32) (IntOp.addi s 100000#32) s = Cert.Spec.wrap s := by
  unfold Scalar.select IntOp.cmpi IntOp.addi Cert.Spec.wrap
  cases h : s.slt 0#32 <;> simp

/-- The source node of a word: wrapped, read signed, clamped into the node range. -/
def srcOf (s : BitVec 32) : Fin 100000 := ⟨min (Cert.Spec.wrap s).toInt.toNat (100000 - 1), by omega⟩

section
variable {N : Nat}
  (gwf : GatherDims.WF ⟨2, ![100000, 128]⟩ ⟨2, ![N, 1]⟩ ⟨2, ![N, 128]⟩ [1] [0] [] [0] [] 1 ![1, 128])
  (swf : ScatterDims.WF ⟨2, ![100000, 128]⟩ ⟨2, ![N, 1]⟩ ⟨2, ![N, 128]⟩ [1] [0] [0] 1)
  (cwf : ScatterDims.WF ⟨1, ![100000]⟩ ⟨2, ![N, 1]⟩ ⟨1, ![N]⟩ [] [0] [0] 1)
  (bN : S_.BroadcastsInDim (⟨1, ![N]⟩ : Shape) ![])
  (bN1 : (⟨1, ![N]⟩ : Shape).BroadcastsInDim ⟨2, ![N, 1]⟩ ![0])
  (h : FVec Ideal S100000x128 .f32) (sv dv : IVec ⟨1, ![N]⟩ 32)

/-- The gathered rows: row `r` is the table's row at the source of edge `r`. -/
theorem gathered_apply (r : Fin N) (f : Fin 128) :
    Host.gather (rowGatherDims 100000 128 N gwf) h
        (broadcastInDim (⟨2, ![N, 1]⟩ : Shape) ![0] bN1
          (select (cmpi .slt sv (broadcastInDim (⟨1, ![N]⟩ : Shape) ![] bN (constantI S_ 32 0#32)))
            (addi sv (broadcastInDim (⟨1, ![N]⟩ : Shape) ![] bN (constantI S_ 32 100000#32))) sv)) (ix2 r f)
      = h (ix2 (srcOf (sv (ix1 r))) f) := by
  rw [gather_rows_apply (by omega : 0 < 100000)]
  have e : (broadcastInDim (⟨2, ![N, 1]⟩ : Shape) ![0] bN1
      (select (cmpi .slt sv (broadcastInDim (⟨1, ![N]⟩ : Shape) ![] bN (constantI S_ 32 0#32)))
        (addi sv (broadcastInDim (⟨1, ![N]⟩ : Shape) ![] bN (constantI S_ 32 100000#32))) sv)) (colIdx r)
      = Cert.Spec.wrap (sv (ix1 r)) := by
    rw [bcast_col_apply]
    show Scalar.select (IntOp.cmpi .slt (sv (ix1 r)) (broadcastInDim (⟨1, ![N]⟩ : Shape) ![] bN (constantI S_ 32 0#32) (ix1 r)))
      (IntOp.addi (sv (ix1 r)) (broadcastInDim (⟨1, ![N]⟩ : Shape) ![] bN (constantI S_ 32 100000#32) (ix1 r))) (sv (ix1 r)) = _
    rw [bcast_scalar_apply, bcast_scalar_apply]
    exact wrap_word _
  refine congrArg (fun i => h (ix2 i f)) (Fin.ext ?_)
  show min (BitVec.toInt _).toNat (100000 - 1) = min (Cert.Spec.wrap (sv (ix1 r))).toInt.toNat (100000 - 1)
  rw [e]

/-- THE SEGMENT SUM of the pass at `(b, f)`. -/
theorem segsum_apply (upd : FVec Ideal ⟨2, ![N, 128]⟩ .f32) (b : Fin 100000) (f : Fin 128) :
    Host.scatterAdd (F := Ideal) (segSumDims 100000 128 N swf)
        (broadcastInDim S100000x128 ![] bcast_S_S100000x128 (constant S_ .f32 0x00000000#32))
        (broadcastInDim (⟨2, ![N, 1]⟩ : Shape) ![0] bN1 dv) upd (ix2 b f)
      = ∑ r : Fin N, if (dv (ix1 r)).toInt = (b.val : Int) then upd (ix2 r f) else 0 := by
  rw [scatterAdd_rows_apply, bcast_scalar_apply, constant_apply, Ideal.ofBits_zero_f32, zero_add]
  refine Finset.sum_congr rfl fun r _ => ?_
  rw [bcast_col_apply]

/-- THE SEGMENT COUNT of the pass at `b`. -/
theorem segcnt_apply (b : Fin 100000) :
    Host.scatterAdd (F := Ideal) (colScatterDims 100000 N cwf)
        (broadcastInDim S100000 ![] bcast_S_S100000 (constant S_ .f32 0x00000000#32))
        (broadcastInDim (⟨2, ![N, 1]⟩ : Shape) ![0] bN1 dv)
        (broadcastInDim (⟨1, ![N]⟩ : Shape) ![] bN (constant S_ .f32 0x3F800000#32)) (ix1 b)
      = ∑ r : Fin N, if (dv (ix1 r)).toInt = (b.val : Int) then Cert.Spec.one else 0 := by
  rw [scatterAdd_col_apply, bcast_scalar_apply, constant_apply, Ideal.ofBits_zero_f32, zero_add]
  refine Finset.sum_congr rfl fun r _ => ?_
  rw [bcast_col_apply, bcast_scalar_apply, constant_apply]

/-- The divisor: a vector over the nodes spread along the features, read at `(b, f)`. -/
theorem spread_apply (v : FVec Ideal S100000 .f32) (b : Fin 100000) (f : Fin 128) :
    broadcastInDim S100000x128 ![0, 1] bcast_S100000x1_S100000x128_0_1
        (broadcastInDim S100000x1 ![0] bcast_S100000_S100000x1_0 v) (ix2 b f) = v (ix1 b) := by
  rw [broadcastInDim_apply _ _ _ _ (ix2 b (⟨0, Nat.one_pos⟩ : Fin 1)) (by
    intro a
    match a with
    | ⟨0, _⟩ => rfl
    | ⟨1, _⟩ => rfl)]
  exact bcast_col_apply _ _ _

/-- ONE PASS AT AN ENTRY: the mean, over the edges ending at `b`, of the table's rows at their sources. -/
theorem pass_apply (b : Fin 100000) (f : Fin 128) :
    Host.divf
        (Host.scatterAdd (F := Ideal) (segSumDims 100000 128 N swf)
          (broadcastInDim S100000x128 ![] bcast_S_S100000x128 (constant S_ .f32 0x00000000#32))
          (broadcastInDim (⟨2, ![N, 1]⟩ : Shape) ![0] bN1 dv)
          (Host.gather (rowGatherDims 100000 128 N gwf) h
            (broadcastInDim (⟨2, ![N, 1]⟩ : Shape) ![0] bN1
              (select (cmpi .slt sv (broadcastInDim (⟨1, ![N]⟩ : Shape) ![] bN (constantI S_ 32 0#32)))
                (addi sv (broadcastInDim (⟨1, ![N]⟩ : Shape) ![] bN (constantI S_ 32 100000#32))) sv))))
        (broadcastInDim S100000x128 ![0, 1] bcast_S100000x1_S100000x128_0_1
          (broadcastInDim S100000x1 ![0] bcast_S100000_S100000x1_0
            (maximumf
              (Host.scatterAdd (F := Ideal) (colScatterDims 100000 N cwf)
                (broadcastInDim S100000 ![] bcast_S_S100000 (constant S_ .f32 0x00000000#32))
                (broadcastInDim (⟨2, ![N, 1]⟩ : Shape) ![0] bN1 dv)
                (broadcastInDim (⟨1, ![N]⟩ : Shape) ![] bN (constant S_ .f32 0x3F800000#32)))
              (broadcastInDim S100000 ![] bcast_S_S100000 (constant S_ .f32 0x3F800000#32))))) (ix2 b f)
      = Cert.Spec.mean
          (∑ r : Fin N, if (dv (ix1 r)).toInt = (b.val : Int) then h (ix2 (srcOf (sv (ix1 r))) f) else 0)
          (∑ r : Fin N, if (dv (ix1 r)).toInt = (b.val : Int) then Cert.Spec.one else 0) := by
  show Ideal.div _ _ = _
  rw [segsum_apply, spread_apply, maximumf_apply, segcnt_apply, bcast_scalar_apply, constant_apply]
  unfold Cert.Spec.mean
  refine congrArg (fun S => Ideal.div S _) ?_
  refine Finset.sum_congr rfl fun r _ => ?_
  rw [gathered_apply]

end

end Cert.ReferenceIdeal.RefValue

end
-- ==== Proof.RefSpecGlobal.lean ====
/-
  The seven edge lists laid side by side, read at an entry, and a sum over all their edges split by list.

  The concatenation along the edge axis of seven `[2, 250000]` lists is a `[2, 1750000]` array whose entry
  `(a, 250000 · t + r)` is entry `(a, r)` of list `t`. A sum over its 1750000 columns is therefore the sum over the
  seven lists of the sums over each list's 250000 columns.
-/
import proofs.«123275_j54631984005526_2_alg».proof.Proof.Gen.ReferenceIdeal
import proofs.«123275_j54631984005526_2_alg».proof.Proof.Spec
import Idealize.ShloMosaic.Lib.ValueIdx
import Idealize.ShloMosaic.Lib.ValueLayout
import Idealize.ShloMosaic.Lib.Pipeline.Value
import Mathlib.Algebra.BigOperators.Fin
import Mathlib.Logic.Equiv.Fin.Basic

noncomputable section

open Idealize.ShloMosaic Idealize.ShloMosaic.ValueIdx Idealize.SL.Sem
open Cert.ReferenceIdeal Cert.ReferenceIdeal.Gen

namespace Cert.ReferenceIdeal.RefValue

/-- Column `250000 · t + r` of the concatenation. -/
abbrev catCol (t : Fin 7) (r : Fin 250000) : Fin 1750000 := ⟨250000 * t.val + r.val, by have := t.isLt; have := r.isLt; omega⟩

/-- THE CONCATENATION AT AN ENTRY: entry `(a, 250000 · t + r)` is list `t` at `(a, r)`. -/
theorem concat_apply (e0 e1 e2 e3 e4 e5 e6 : IVec S2x250000 32)
    (hc : Shape.Concatenates [S2x250000, S2x250000, S2x250000, S2x250000, S2x250000, S2x250000, S2x250000] S2x1750000 1)
    (a : Fin 2) (t : Fin 7) (r : Fin 250000) :
    concatenate S2x1750000 1 [⟨S2x250000, e0⟩, ⟨S2x250000, e1⟩, ⟨S2x250000, e2⟩, ⟨S2x250000, e3⟩, ⟨S2x250000, e4⟩,
        ⟨S2x250000, e5⟩, ⟨S2x250000, e6⟩] hc (ix2 a (catCol t r))
      = Cert.Spec.edges e0 e1 e2 e3 e4 e5 e6 t (ix2 a r) := by
  have ht := t.isLt
  have hr := r.isLt
  show concatenate S2x1750000 1
    (List.ofFn fun n : Fin 7 => (⟨S2x250000, Cert.Spec.edges e0 e1 e2 e3 e4 e5 e6 n⟩ : (s : Shape) × (s.Idx → BitVec 32))) hc _ = _
  refine concatenate_ofFn_apply (t := S2x1750000) (s₁ := S2x250000) (α := BitVec 32) (1 : Fin 2) (N := 7)
    (fun n => Cert.Spec.edges e0 e1 e2 e3 e4 e5 e6 n) hc rfl 250000 rfl (ix2 a (catCol t r)) t ?_
    (ix2 a r) ?_ ?_
  · show (250000 * t.val + r.val) / 250000 = t.val
    omega
  · show r.val = (250000 * t.val + r.val) % 250000
    omega
  · intro b hb
    match b with
    | ⟨0, _⟩ => rfl
    | ⟨1, _⟩ => exact absurd rfl hb

/-- A SUM OVER ALL THE EDGES, split by list. -/
theorem sum_catCol {M : Type} [AddCommMonoid M] (g : Fin 1750000 → M) :
    ∑ q : Fin 1750000, g q = ∑ t : Fin 7, ∑ r : Fin 250000, g (catCol t r) := by
  rw [← Equiv.sum_comp (finProdFinEquiv.trans (finCongr (by norm_num : 7 * 250000 = 1750000))) g, Fintype.sum_prod_type]
  refine Finset.sum_congr rfl fun t _ => Finset.sum_congr rfl fun r _ => congrArg g (Fin.ext ?_)
  show r.val + 250000 * t.val = 250000 * t.val + r.val
  omega

end Cert.ReferenceIdeal.RefValue

end
-- ==== Proof.RefSpecTerms.lean ====
/-
  The reference's passes as named terms, each read at an entry as the specification's mean.

  A per-relation pass takes relation `o` of the stacked matrices, the node features, and the two rows of one edge list
  (row 0 the sources, row 1 the destinations); its entry `(b, f)` is the specification's per-relation mean. The global
  pass takes relation 7 and the two rows of the concatenation of the seven lists; its sums over all 1750000 edges
  split by list, which gives the specification's global mean.
-/
import proofs.«123275_j54631984005526_2_alg».proof.Proof.RefSpecDot
import proofs.«123275_j54631984005526_2_alg».proof.Proof.RefSpecPass
import proofs.«123275_j54631984005526_2_alg».proof.Proof.RefSpecGlobal

noncomputable section

open Idealize.ShloMosaic Idealize.ShloMosaic.ValueIdx Idealize.SL.Sem
open Cert.ReferenceIdeal Cert.ReferenceIdeal.Gen

namespace Cert.ReferenceIdeal.RefValue

open Cert.HostInt

/-- Row `0` of an edge list as a vector: the sources. -/
theorem row0_apply (e : IVec S2x250000 32) (r : Fin 250000) :
    shapeCast S250000 (extractStridedSlice S1x250000 ![0, 0] e slices_S2x250000_S1x250000_0_0) shapeCasts_S1x250000_S250000 (ix1 r)
      = e (ix2 (0 : Fin 2) r) := by
  rw [shapeCast_1a_a_apply]
  refine extractStridedSlice_apply _ _ _ _ _ ?_
  intro a
  match a with
  | ⟨0, _⟩ => rfl
  | ⟨1, _⟩ => show r.val = 0 + r.val; omega

/-- Row `1` of an edge list as a vector: the destinations. -/
theorem row1_apply (e : IVec S2x250000 32) (r : Fin 250000) :
    shapeCast S250000 (extractStridedSlice S1x250000 ![1, 0] e slices_S2x250000_S1x250000_1_0) shapeCasts_S1x250000_S250000 (ix1 r)
      = e (ix2 (1 : Fin 2) r) := by
  rw [shapeCast_1a_a_apply]
  refine extractStridedSlice_apply _ _ _ _ _ ?_
  intro a
  match a with
  | ⟨0, _⟩ => rfl
  | ⟨1, _⟩ => show r.val = 0 + r.val; omega

/-- Row `0` of the concatenated lists as a vector. -/
theorem rowG0_apply (e : IVec S2x1750000 32) (q : Fin 1750000) :
    shapeCast S1750000 (extractStridedSlice S1x1750000 ![0, 0] e slices_S2x1750000_S1x1750000_0_0) shapeCasts_S1x1750000_S1750000 (ix1 q)
      = e (ix2 (0 : Fin 2) q) := by
  rw [shapeCast_1a_a_apply]
  refine extractStridedSlice_apply _ _ _ _ _ ?_
  intro a
  match a with
  | ⟨0, _⟩ => rfl
  | ⟨1, _⟩ => show q.val = 0 + q.val; omega

/-- Row `1` of the concatenated lists as a vector. -/
theorem rowG1_apply (e : IVec S2x1750000 32) (q : Fin 1750000) :
    shapeCast S1750000 (extractStridedSlice S1x1750000 ![1, 0] e slices_S2x1750000_S1x1750000_1_0) shapeCasts_S1x1750000_S1750000 (ix1 q)
      = e (ix2 (1 : Fin 2) q) := by
  rw [shapeCast_1a_a_apply]
  refine extractStridedSlice_apply _ _ _ _ _ ?_
  intro a
  match a with
  | ⟨0, _⟩ => rfl
  | ⟨1, _⟩ => show q.val = 0 + q.val; omega

/-- A per-relation pass of the program: relation `o`, sources `sv`, destinations `dv`. -/
def passT (o : Nat) (hs : S8x128x128.Slices ![o, 0, 0] S1x128x128) (x : FVec Ideal S100000x128 .f32)
    (W8 : FVec Ideal S8x128x128 .f32) (sv dv : IVec S250000 32) : FVec Ideal S100000x128 .f32 :=
  Host.divf
    (Host.scatterAdd (F := Ideal) scatter_S100000x128_S250000x1_S250000x128_1_0_0_1
      (broadcastInDim S100000x128 ![] bcast_S_S100000x128 (constant S_ .f32 0x00000000#32))
      (broadcastInDim S250000x1 ![0] bcast_S250000_S250000x1_0 dv)
      (Host.gather gather_S100000x128_S250000x1_S250000x128_1_0_n_n_0_1_1128
        (Host.dotGeneral (F := Ideal) dot_S100000x128_S128x128_S100000x128_1_0_0_1_n_n none x
          (shapeCast S128x128 (extractStridedSlice S1x128x128 ![o, 0, 0] W8 hs) shapeCasts_S1x128x128_S128x128))
        (broadcastInDim S250000x1 ![0] bcast_S250000_S250000x1_0
          (select (cmpi .slt sv (broadcastInDim S250000 ![] bcast_S_S250000 (constantI S_ 32 0#32)))
            (addi sv (broadcastInDim S250000 ![] bcast_S_S250000 (constantI S_ 32 100000#32))) sv))))
    (broadcastInDim S100000x128 ![0, 1] bcast_S100000x1_S100000x128_0_1
      (broadcastInDim S100000x1 ![0] bcast_S100000_S100000x1_0
        (maximumf
          (Host.scatterAdd (F := Ideal) scatter_S100000_S250000x1_S250000_n_0_0_1
            (broadcastInDim S100000 ![] bcast_S_S100000 (constant S_ .f32 0x00000000#32))
            (broadcastInDim S250000x1 ![0] bcast_S250000_S250000x1_0 dv)
            (broadcastInDim S250000 ![] bcast_S_S250000 (constant S_ .f32 0x3F800000#32)))
          (broadcastInDim S100000 ![] bcast_S_S100000 (constant S_ .f32 0x3F800000#32)))))

/-- The global pass of the program: relation 7 over the concatenated lists. -/
def passG (x : FVec Ideal S100000x128 .f32) (W8 : FVec Ideal S8x128x128 .f32) (sv dv : IVec S1750000 32) :
    FVec Ideal S100000x128 .f32 :=
  Host.divf
    (Host.scatterAdd (F := Ideal) scatter_S100000x128_S1750000x1_S1750000x128_1_0_0_1
      (broadcastInDim S100000x128 ![] bcast_S_S100000x128 (constant S_ .f32 0x00000000#32))
      (broadcastInDim S1750000x1 ![0] bcast_S1750000_S1750000x1_0 dv)
      (Host.gather gather_S100000x128_S1750000x1_S1750000x128_1_0_n_n_0_1_1128
        (Host.dotGeneral (F := Ideal) dot_S100000x128_S128x128_S100000x128_1_0_0_1_n_n none x
          (shapeCast S128x128 (extractStridedSlice S1x128x128 ![7, 0, 0] W8 slices_S8x128x128_S1x128x128_7_0_0) shapeCasts_S1x128x128_S128x128))
        (broadcastInDim S1750000x1 ![0] bcast_S1750000_S1750000x1_0
          (select (cmpi .slt sv (broadcastInDim S1750000 ![] bcast_S_S1750000 (constantI S_ 32 0#32)))
            (addi sv (broadcastInDim S1750000 ![] bcast_S_S1750000 (constantI S_ 32 100000#32))) sv))))
    (broadcastInDim S100000x128 ![0, 1] bcast_S100000x1_S100000x128_0_1
      (broadcastInDim S100000x1 ![0] bcast_S100000_S100000x1_0
        (maximumf
          (Host.scatterAdd (F := Ideal) scatter_S100000_S1750000x1_S1750000_n_0_0_1
            (broadcastInDim S100000 ![] bcast_S_S100000 (constant S_ .f32 0x00000000#32))
            (broadcastInDim S1750000x1 ![0] bcast_S1750000_S1750000x1_0 dv)
            (broadcastInDim S1750000 ![] bcast_S_S1750000 (constant S_ .f32 0x3F800000#32)))
          (broadcastInDim S100000 ![] bcast_S_S100000 (constant S_ .f32 0x3F800000#32)))))

theorem passT_apply (o : Nat) (ho : o < 8) (hs : S8x128x128.Slices ![o, 0, 0] S1x128x128) (x : FVec Ideal S100000x128 .f32)
    (W8 : FVec Ideal S8x128x128 .f32) (sv dv : IVec S250000 32) (b : Fin 100000) (f : Fin 128) :
    passT o hs x W8 sv dv (ix2 b f)
      = Cert.Spec.mean
          (∑ r : Fin 250000, if (dv (ix1 r)).toInt = (b.val : Int)
            then Cert.Spec.xw x W8 ⟨o, ho⟩ (srcOf (sv (ix1 r))) f else 0)
          (∑ r : Fin 250000, if (dv (ix1 r)).toInt = (b.val : Int) then Cert.Spec.one else 0) := by
  unfold passT
  refine (pass_apply (N := 250000) gather_S100000x128_S250000x1_S250000x128_1_0_n_n_0_1_1128_wf
    scatter_S100000x128_S250000x1_S250000x128_1_0_0_1_wf scatter_S100000_S250000x1_S250000_n_0_0_1_wf
    bcast_S_S250000 bcast_S250000_S250000x1_0 _ sv dv b f).trans ?_
  simp only [xw_entry o ho hs]

theorem passG_apply (x : FVec Ideal S100000x128 .f32) (W8 : FVec Ideal S8x128x128 .f32) (sv dv : IVec S1750000 32)
    (b : Fin 100000) (f : Fin 128) :
    passG x W8 sv dv (ix2 b f)
      = Cert.Spec.mean
          (∑ q : Fin 1750000, if (dv (ix1 q)).toInt = (b.val : Int)
            then Cert.Spec.xw x W8 ⟨7, by omega⟩ (srcOf (sv (ix1 q))) f else 0)
          (∑ q : Fin 1750000, if (dv (ix1 q)).toInt = (b.val : Int) then Cert.Spec.one else 0) := by
  unfold passG
  refine (pass_apply (N := 1750000) gather_S100000x128_S1750000x1_S1750000x128_1_0_n_n_0_1_1128_wf
    scatter_S100000x128_S1750000x1_S1750000x128_1_0_0_1_wf scatter_S100000_S1750000x1_S1750000_n_0_0_1_wf
    bcast_S_S1750000 bcast_S1750000_S1750000x1_0 _ sv dv b f).trans ?_
  simp only [xw_entry 7 (by omega) slices_S8x128x128_S1x128x128_7_0_0]

/-- A PER-RELATION PASS IS THE SPECIFICATION'S: relation `o < 7` over list `o`. -/
theorem passT_spec (o : Nat) (ho : o < 7) (hs : S8x128x128.Slices ![o, 0, 0] S1x128x128) (x : FVec Ideal S100000x128 .f32)
    (W8 : FVec Ideal S8x128x128 .f32) (e : Fin 7 → IVec S2x250000 32) (ek : IVec S2x250000 32) (hek : e ⟨o, ho⟩ = ek)
    (b : Fin 100000) (f : Fin 128) :
    passT o hs x W8
        (shapeCast S250000 (extractStridedSlice S1x250000 ![0, 0] ek slices_S2x250000_S1x250000_0_0) shapeCasts_S1x250000_S250000)
        (shapeCast S250000 (extractStridedSlice S1x250000 ![1, 0] ek slices_S2x250000_S1x250000_1_0) shapeCasts_S1x250000_S250000)
        (ix2 b f)
      = Cert.Spec.passMean x W8 e ⟨o, ho⟩ b f := by
  subst hek
  rw [passT_apply o (by omega)]
  simp only [row0_apply, row1_apply]
  rfl

/-- THE GLOBAL PASS IS THE SPECIFICATION'S: relation 7 over all seven lists. -/
theorem passG_spec (x : FVec Ideal S100000x128 .f32) (W8 : FVec Ideal S8x128x128 .f32)
    (e0 e1 e2 e3 e4 e5 e6 : IVec S2x250000 32)
    (hc : Shape.Concatenates [S2x250000, S2x250000, S2x250000, S2x250000, S2x250000, S2x250000, S2x250000] S2x1750000 1)
    (b : Fin 100000) (f : Fin 128) :
    passG x W8
        (shapeCast S1750000 (extractStridedSlice S1x1750000 ![0, 0]
          (concatenate S2x1750000 1 [⟨S2x250000, e0⟩, ⟨S2x250000, e1⟩, ⟨S2x250000, e2⟩, ⟨S2x250000, e3⟩, ⟨S2x250000, e4⟩,
            ⟨S2x250000, e5⟩, ⟨S2x250000, e6⟩] hc) slices_S2x1750000_S1x1750000_0_0) shapeCasts_S1x1750000_S1750000)
        (shapeCast S1750000 (extractStridedSlice S1x1750000 ![1, 0]
          (concatenate S2x1750000 1 [⟨S2x250000, e0⟩, ⟨S2x250000, e1⟩, ⟨S2x250000, e2⟩, ⟨S2x250000, e3⟩, ⟨S2x250000, e4⟩,
            ⟨S2x250000, e5⟩, ⟨S2x250000, e6⟩] hc) slices_S2x1750000_S1x1750000_1_0) shapeCasts_S1x1750000_S1750000)
        (ix2 b f)
      = Cert.Spec.globalMean x W8 (Cert.Spec.edges e0 e1 e2 e3 e4 e5 e6) b f := by
  rw [passG_apply, sum_catCol, sum_catCol]
  simp only [rowG0_apply, rowG1_apply, concat_apply]
  rfl

end Cert.ReferenceIdeal.RefValue

end
-- ==== Proof.RefSpec.lean ====
/-
  The reference program computes the specification.

  Its result is the eight passes' means added in the program's order, from zero, and divided by eight; each
  per-relation pass read at an entry is the specification's per-relation mean and the global pass the specification's
  global mean, so the result is the specification's, entry by entry. The run of the program (a generated module)
  delivers that composed term of the arguments, the arguments unchanged.
-/
import proofs.«123275_j54631984005526_2_alg».proof.Proof.Gen.ReferenceIdeal.Run
import proofs.«123275_j54631984005526_2_alg».proof.Proof.RefSpecTerms

noncomputable section

open Idealize.ShloMosaic Idealize.ShloMosaic.ValueIdx Idealize.SL.Sem
open Cert.ReferenceIdeal Cert.ReferenceIdeal.Gen

namespace Cert.ReferenceIdeal.RefValue

open Idealize.ShloMosaic.TcCoe Idealize.ShloMosaic.StableHlo
open Cert.ReferenceIdeal.Value

/-- The host's division read at an index, at the ideal instance. -/
theorem hostDivf_apply {s : Shape} {φ : FTy} (a b : FVec Ideal s φ) (i : s.Idx) :
    Host.divf a b i = Ideal.div (a i) (b i) := rfl

/-- THE PROGRAM'S RESULT as a term of its arguments: zero, the seven per-relation passes and the global pass added in
    order, divided by eight. -/
def total (x : FVec Ideal S100000x128 .f32) (W8 : FVec Ideal S8x128x128 .f32) (e0 e1 e2 e3 e4 e5 e6 : IVec S2x250000 32) :
    FVec Ideal S100000x128 .f32 :=
  Host.divf
    (addf (addf (addf (addf (addf (addf (addf (addf (broadcastInDim S100000x128 ![] bcast_S_S100000x128 (constant S_ .f32 0x00000000#32))
      (passT 0 slices_S8x128x128_S1x128x128_0_0_0 x W8 (shapeCast S250000 (extractStridedSlice S1x250000 ![0, 0] e0 slices_S2x250000_S1x250000_0_0) shapeCasts_S1x250000_S250000) (shapeCast S250000 (extractStridedSlice S1x250000 ![1, 0] e0 slices_S2x250000_S1x250000_1_0) shapeCasts_S1x250000_S250000)))
      (passT 1 slices_S8x128x128_S1x128x128_1_0_0 x W8 (shapeCast S250000 (extractStridedSlice S1x250000 ![0, 0] e1 slices_S2x250000_S1x250000_0_0) shapeCasts_S1x250000_S250000) (shapeCast S250000 (extractStridedSlice S1x250000 ![1, 0] e1 slices_S2x250000_S1x250000_1_0) shapeCasts_S1x250000_S250000)))
      (passT 2 slices_S8x128x128_S1x128x128_2_0_0 x W8 (shapeCast S250000 (extractStridedSlice S1x250000 ![0, 0] e2 slices_S2x250000_S1x250000_0_0) shapeCasts_S1x250000_S250000) (shapeCast S250000 (extractStridedSlice S1x250000 ![1, 0] e2 slices_S2x250000_S1x250000_1_0) shapeCasts_S1x250000_S250000)))
      (passT 3 slices_S8x128x128_S1x128x128_3_0_0 x W8 (shapeCast S250000 (extractStridedSlice S1x250000 ![0, 0] e3 slices_S2x250000_S1x250000_0_0) shapeCasts_S1x250000_S250000) (shapeCast S250000 (extractStridedSlice S1x250000 ![1, 0] e3 slices_S2x250000_S1x250000_1_0) shapeCasts_S1x250000_S250000)))
      (passT 4 slices_S8x128x128_S1x128x128_4_0_0 x W8 (shapeCast S250000 (extractStridedSlice S1x250000 ![0, 0] e4 slices_S2x250000_S1x250000_0_0) shapeCasts_S1x250000_S250000) (shapeCast S250000 (extractStridedSlice S1x250000 ![1, 0] e4 slices_S2x250000_S1x250000_1_0) shapeCasts_S1x250000_S250000)))
      (passT 5 slices_S8x128x128_S1x128x128_5_0_0 x W8 (shapeCast S250000 (extractStridedSlice S1x250000 ![0, 0] e5 slices_S2x250000_S1x250000_0_0) shapeCasts_S1x250000_S250000) (shapeCast S250000 (extractStridedSlice S1x250000 ![1, 0] e5 slices_S2x250000_S1x250000_1_0) shapeCasts_S1x250000_S250000)))
      (passT 6 slices_S8x128x128_S1x128x128_6_0_0 x W8 (shapeCast S250000 (extractStridedSlice S1x250000 ![0, 0] e6 slices_S2x250000_S1x250000_0_0) shapeCasts_S1x250000_S250000) (shapeCast S250000 (extractStridedSlice S1x250000 ![1, 0] e6 slices_S2x250000_S1x250000_1_0) shapeCasts_S1x250000_S250000)))
      (passG x W8 (shapeCast S1750000 (extractStridedSlice S1x1750000 ![0, 0] (concatenate S2x1750000 1 [⟨S2x250000, e0⟩, ⟨S2x250000, e1⟩, ⟨S2x250000, e2⟩, ⟨S2x250000, e3⟩, ⟨S2x250000, e4⟩, ⟨S2x250000, e5⟩, ⟨S2x250000, e6⟩] concatenates_S2x250000_S2x250000_S2x250000_S2x250000_S2x250000_S2x250000_S2x250000_S2x1750000_d1) slices_S2x1750000_S1x1750000_0_0) shapeCasts_S1x1750000_S1750000) (shapeCast S1750000 (extractStridedSlice S1x1750000 ![1, 0] (concatenate S2x1750000 1 [⟨S2x250000, e0⟩, ⟨S2x250000, e1⟩, ⟨S2x250000, e2⟩, ⟨S2x250000, e3⟩, ⟨S2x250000, e4⟩, ⟨S2x250000, e5⟩, ⟨S2x250000, e6⟩] concatenates_S2x250000_S2x250000_S2x250000_S2x250000_S2x250000_S2x250000_S2x250000_S2x1750000_d1) slices_S2x1750000_S1x1750000_1_0) shapeCasts_S1x1750000_S1750000)))
    (broadcastInDim S100000x128 ![] bcast_S_S100000x128 (constant S_ .f32 0x41000000#32))

set_option maxRecDepth 8192 in
/-- THE RESULT IS THE SPECIFICATION'S, entry by entry. -/
theorem total_eq_out (x : FVec Ideal S100000x128 .f32) (W8 : FVec Ideal S8x128x128 .f32)
    (e0 e1 e2 e3 e4 e5 e6 : IVec S2x250000 32) :
    total x W8 e0 e1 e2 e3 e4 e5 e6 = Cert.Spec.out x W8 (Cert.Spec.edges e0 e1 e2 e3 e4 e5 e6) := by
  funext j
  obtain ⟨b, f, rfl⟩ : ∃ b f, j = ix2 b f := ⟨j 0, j 1, eq_ix2 j⟩
  unfold total
  simp only [hostDivf_apply, addf_apply]
  rw [bcast_scalar_apply, bcast_scalar_apply, constant_apply, constant_apply, Ideal.ofBits_zero_f32]
  rw [passT_spec 0 (by omega) _ x W8 (Cert.Spec.edges e0 e1 e2 e3 e4 e5 e6) e0 rfl,
    passT_spec 1 (by omega) _ x W8 (Cert.Spec.edges e0 e1 e2 e3 e4 e5 e6) e1 rfl,
    passT_spec 2 (by omega) _ x W8 (Cert.Spec.edges e0 e1 e2 e3 e4 e5 e6) e2 rfl,
    passT_spec 3 (by omega) _ x W8 (Cert.Spec.edges e0 e1 e2 e3 e4 e5 e6) e3 rfl,
    passT_spec 4 (by omega) _ x W8 (Cert.Spec.edges e0 e1 e2 e3 e4 e5 e6) e4 rfl,
    passT_spec 5 (by omega) _ x W8 (Cert.Spec.edges e0 e1 e2 e3 e4 e5 e6) e5 rfl,
    passT_spec 6 (by omega) _ x W8 (Cert.Spec.edges e0 e1 e2 e3 e4 e5 e6) e6 rfl,
    passG_spec]
  unfold Cert.Spec.out
  rfl

set_option maxRecDepth 8192 in
/-- THE REFERENCE'S RUN: every weakly fair execution terminates with the result buffer at the specification of the
    arguments' launch contents, the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v219)
        = Cert.Spec.out (m ((c.tc : Thread nD τ).loc main_arg0)) (m ((c.tc : Thread nD τ).loc main_arg1))
            (Cert.Spec.edges (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run (defs (F := Ideal)) _ _).mono (fun r h c => ?_) (Cert.ReferenceIdeal.Value.run (F := Ideal) m ρ)
  obtain ⟨h0, hrest⟩ := h c
  refine ⟨h0.trans ?_, hrest⟩
  refine Eq.trans ?_ (total_eq_out _ _ _ _ _ _ _ _ _)
  rfl

end Cert.ReferenceIdeal.RefValue

end
-- ==== Proof.lean ====
/-
  Two programs compute, for 100000 nodes with 128 features, eight relation matrices and seven lists of 250000 edges,
  the average of eight mean-aggregations: for each relation `t < 7` the mean, at every destination node, of the
  transformed features `x · W t` at the sources of list `t`'s edges; and for relation 7 the same over all seven lists
  together. The kernel transforms once for all eight relations — one `[100000, 128] × [128, 1024]` product, the eight
  matrices side by side, computed block by block on a grid of 25 row blocks — and gathers, for each list, rows of that
  product, of which it keeps relation `t`'s 128 columns and relation 7's; it adds relation 7's seven segment sums and
  counts instead of scanning the concatenated list. The reference transforms per relation and runs the eighth pass over
  the concatenation of the lists.

  Over the extended reals both results are, at node `b` and feature `f`, the value `Cert.Spec.out` (Proof/Spec.lean):
  column `128 t + f` of the product is `Σ k, x (i, k) · W (t, k, f)`; a gather of a row and a slice of its columns
  commute; a segment sum over a concatenation of lists is the sum of the lists' segment sums, addition of extended
  reals being commutative and associative; and the two programs add the eight means in the same order. No law used
  needs the inputs finite. The three frames: the kernel's region runs under the launch theorem for a program that
  continues after its region, its body one whole-block product per grid point; the reference is host operations only.
-/
import proofs.«123275_j54631984005526_2_alg».proof.Defs
import proofs.«123275_j54631984005526_2_alg».proof.Proof.Gen.Kernel
import proofs.«123275_j54631984005526_2_alg».proof.Proof.Gen.KernelIdeal
import proofs.«123275_j54631984005526_2_alg».proof.Proof.Gen.ReferenceIdeal
import proofs.«123275_j54631984005526_2_alg».proof.Proof.Gen.ReferenceIdeal.Run
import proofs.«123275_j54631984005526_2_alg».proof.Proof.Gen.Pre_finite_inputs
import proofs.«123275_j54631984005526_2_alg».proof.Proof.KBFrameRun
import proofs.«123275_j54631984005526_2_alg».proof.Proof.KIFrameRun
import proofs.«123275_j54631984005526_2_alg».proof.Proof.KIValueRun
import proofs.«123275_j54631984005526_2_alg».proof.Proof.RefSpec
import Idealize.ShloMosaic.Adequacy
import Idealize.ShloMosaic.Init

noncomputable section

namespace Cert.Proof

open Idealize.ShloMosaic Idealize.SL.Sem

/-- The word-level kernel runs to the end, faults nowhere and leaves its nine arguments as launched. -/
theorem frame_k : Cert.frame_Kernel := fun m ρ _ => Cert.Kernel.Hand.frame m ρ

/-- So does its reading over the extended reals. -/
theorem frame_ki : Cert.frame_KernelIdeal := fun m ρ _ => Cert.KernelIdeal.Hand.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: nothing was rewritten. -/
theorem preserves : Cert.preserves_Kernel_KernelIdeal := trivial

/-- From memories agreeing on the arguments both idealized programs end with their result arrays at the one
    specification of those arguments. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (Cert.Spec.edges (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))),
    Cert.KernelIdeal.Hand.run_spec m ρ, ?_⟩
  refine (θ_run Cert.ReferenceIdeal.defs _ _).mono (fun _ h c => ⟨(h c).1.trans ?_, (h c).2⟩)
    (Cert.ReferenceIdeal.RefValue.run_spec m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
